-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x128 : Shape := ⟨3, ![2, 512, 128]⟩
abbrev S2x512x512x16 : Shape := ⟨4, ![2, 512, 512, 16]⟩
abbrev S2x128 : Shape := ⟨2, ![2, 128]⟩
abbrev S2x512x512 : Shape := ⟨3, ![2, 512, 512]⟩
abbrev S128x128 : Shape := ⟨2, ![128, 128]⟩
abbrev S128 : Shape := ⟨1, ![128]⟩
abbrev S16x128 : Shape := ⟨2, ![16, 128]⟩
abbrev S_ : Shape := ⟨0, ![]⟩

class Facts : Prop where
  bcast_S_S2x512x128 : S_.BroadcastsInDim S2x512x128 (![] : Fin 0 → Fin S2x512x128.rank)
  reducesTo_S2x512x128_S_d0_1_2 : S2x512x128.ReducesTo [0, 1, 2] S_
  h_S_ : 0 < S_.numel
  bcast_S_S2x512x512x16 : S_.BroadcastsInDim S2x512x512x16 (![] : Fin 0 → Fin S2x512x512x16.rank)
  reducesTo_S2x512x512x16_S_d0_1_2_3 : S2x512x512x16.ReducesTo [0, 1, 2, 3] S_
  bcast_S_S2x128 : S_.BroadcastsInDim S2x128 (![] : Fin 0 → Fin S2x128.rank)
  reducesTo_S2x128_S_d0_1 : S2x128.ReducesTo [0, 1] S_
  bcast_S_S2x512x512 : S_.BroadcastsInDim S2x512x512 (![] : Fin 0 → Fin S2x512x512.rank)
  reducesTo_S2x512x512_S_d0_1_2 : S2x512x512.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S16x128 : S_.BroadcastsInDim S16x128 (![] : Fin 0 → Fin S16x128.rank)
  reducesTo_S16x128_S_d0_1 : S16x128.ReducesTo [0, 1] S_

variable [Facts]

def fn_part4 {F : FTy → Type} [FloatOps F] (main_arg14 : FVec F S128x128 .f32) (main_arg15 : FVec F S128 .f32) (main_v63 : IVec S_ 1) (main_v67 : IVec S_ 1) : IVec S_ 1 :=
  let main_v68 : IVec S_ 1 := andi main_v63 main_v67
  let main_v69 : FVec F S128x128 .f32 := Host.absf main_arg14
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  main_v78

def fn_part3 {F : FTy → Type} [FloatOps F] (main_arg11 : FVec F S128 .f32) (main_arg12 : FVec F S128x128 .f32) (main_arg13 : FVec F S128 .f32) (main_arg14 : FVec F S128x128 .f32) (main_arg15 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg11
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x128 .f32 := Host.absf main_arg12
  let main_cst_22 : FVec F S_ .f32 := constant S_ .f32 0x7F800000#32
  let main_v60 : FVec F S128x128 .f32 := broadcastInDim S128x128 ![] bcast_S_S128x128 main_cst_22
  let main_v61 : IVec S128x128 1 := cmpf .olt main_v59 main_v60
  let main_c_23 : IVec S_ 1 := constantI S_ 1 1#1
  let main_v62 : IVec S_ 1 := (fun x v => Host.reduce IntOp.andi x v reducesTo_S128x128_S_d0_1 h_S_) main_v61 main_c_23
  let main_v63 : IVec S_ 1 := andi main_v58 main_v62
  let main_v64 : FVec F S128 .f32 := Host.absf main_arg13
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg14 main_arg15 main_v63 main_v67

def fn_part2 {F : FTy → Type} [FloatOps F] (main_arg7 : FVec F S128 .f32) (main_arg8 : FVec F S16x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S16x128 .f32 := Host.absf main_arg8
  let main_cst_14 : FVec F S_ .f32 := constant S_ .f32 0x7F800000#32
  let main_v40 : FVec F S16x128 .f32 := broadcastInDim S16x128 ![] bcast_S_S16x128 main_cst_14
  let main_v41 : IVec S16x128 1 := cmpf .olt main_v39 main_v40
  let main_c_15 : IVec S_ 1 := constantI S_ 1 1#1
  let main_v42 : IVec S_ 1 := (fun x v => Host.reduce IntOp.andi x v reducesTo_S16x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg10
  let main_cst_18 : FVec F S_ .f32 := constant S_ .f32 0x7F800000#32
  let main_v50 : FVec F S128x128 .f32 := broadcastInDim S128x128 ![] bcast_S_S128x128 main_cst_18
  fn_part3 (F := F) main_arg11 main_arg12 main_arg13 main_arg14 main_arg15 main_v48 main_v49 main_v50

def fn_part1 {F : FTy → Type} [FloatOps F] (main_arg4 : FVec F S128x128 .f32) (main_arg5 : FVec F S128 .f32) (main_arg6 : FVec F S128x128 .f32) (main_arg7 : FVec F S128 .f32) (main_arg8 : FVec F S16x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) (main_v13 : IVec S_ 1) (main_v16 : IVec S2x512x512 1) : IVec S_ 1 :=
  let main_c_5 : IVec S_ 1 := constantI S_ 1 1#1
  let main_v17 : IVec S_ 1 := (fun x v => Host.reduce IntOp.andi x v reducesTo_S2x512x512_S_d0_1_2 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_arg11 main_arg12 main_arg13 main_arg14 main_arg15 main_v33

def fn {F : FTy → Type} [FloatOps F] (main_arg0 : FVec F S2x512x128 .f32) (main_arg1 : FVec F S2x512x512x16 .f32) (main_arg2 : FVec F S2x128 .f32) (main_arg3 : FVec F S2x512x512 .f32) (main_arg4 : FVec F S128x128 .f32) (main_arg5 : FVec F S128 .f32) (main_arg6 : FVec F S128x128 .f32) (main_arg7 : FVec F S128 .f32) (main_arg8 : FVec F S16x128 .f32) (main_arg9 : FVec F S128 .f32) (main_arg10 : FVec F S128x128 .f32) (main_arg11 : FVec F S128 .f32) (main_arg12 : FVec F S128x128 .f32) (main_arg13 : FVec F S128 .f32) (main_arg14 : FVec F S128x128 .f32) (main_arg15 : FVec F S128 .f32) : IVec S_ 1 :=
  let main_v0 : FVec F S2x512x128 .f32 := Host.absf main_arg0
  let main_cst : FVec F S_ .f32 := constant S_ .f32 0x7F800000#32
  let main_v1 : FVec F S2x512x128 .f32 := broadcastInDim S2x512x128 ![] bcast_S_S2x512x128 main_cst
  let main_v2 : IVec S2x512x128 1 := cmpf .olt main_v0 main_v1
  let main_c : IVec S_ 1 := constantI S_ 1 1#1
  let main_v3 : IVec S_ 1 := (fun x v => Host.reduce IntOp.andi x v reducesTo_S2x512x128_S_d0_1_2 h_S_) main_v2 main_c
  let main_v4 : FVec F S2x512x512x16 .f32 := Host.absf main_arg1
  let main_cst_0 : FVec F S_ .f32 := constant S_ .f32 0x7F800000#32
  let main_v5 : FVec F S2x512x512x16 .f32 := broadcastInDim S2x512x512x16 ![] bcast_S_S2x512x512x16 main_cst_0
  let main_v6 : IVec S2x512x512x16 1 := cmpf .olt main_v4 main_v5
  let main_c_1 : IVec S_ 1 := constantI S_ 1 1#1
  let main_v7 : IVec S_ 1 := (fun x v => Host.reduce IntOp.andi x v reducesTo_S2x512x512x16_S_d0_1_2_3 h_S_) main_v6 main_c_1
  let main_v8 : IVec S_ 1 := andi main_v3 main_v7
  let main_v9 : FVec F S2x128 .f32 := Host.absf main_arg2
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S2x512x512 .f32 := Host.absf main_arg3
  let main_cst_4 : FVec F S_ .f32 := constant S_ .f32 0x7F800000#32
  let main_v15 : FVec F S2x512x512 .f32 := broadcastInDim S2x512x512 ![] bcast_S_S2x512x512 main_cst_4
  let main_v16 : IVec S2x512x512 1 := cmpf .olt main_v14 main_v15
  fn_part1 (F := F) main_arg4 main_arg5 main_arg6 main_arg7 main_arg8 main_arg9 main_arg10 main_arg11 main_arg12 main_arg13 main_arg14 main_arg15 main_v13 main_v16
-- ==== Kernel.lean ====
abbrev S2x512x128 : Shape := ⟨3, ![2, 512, 128]⟩
abbrev S2x512x512x16 : Shape := ⟨4, ![2, 512, 512, 16]⟩
abbrev S2x128 : Shape := ⟨2, ![2, 128]⟩
abbrev S2x512x512 : Shape := ⟨3, ![2, 512, 512]⟩
abbrev S128x128 : Shape := ⟨2, ![128, 128]⟩
abbrev S128 : Shape := ⟨1, ![128]⟩
abbrev S16x128 : Shape := ⟨2, ![16, 128]⟩
abbrev S1x128 : Shape := ⟨2, ![1, 128]⟩
abbrev S2x1x128 : Shape := ⟨3, ![2, 1, 128]⟩
abbrev S1x64x128x16 : Shape := ⟨4, ![1, 64, 128, 16]⟩
abbrev S1x64x128 : Shape := ⟨3, ![1, 64, 128]⟩
abbrev S1x128x128 : Shape := ⟨3, ![1, 128, 128]⟩
abbrev S1x1x128 : Shape := ⟨3, ![1, 1, 128]⟩
abbrev S64x128x16 : Shape := ⟨3, ![64, 128, 16]⟩
abbrev S64x128 : Shape := ⟨2, ![64, 128]⟩
abbrev S8192x16 : Shape := ⟨2, ![8192, 16]⟩
abbrev S8192x128 : Shape := ⟨2, ![8192, 128]⟩
abbrev S64x128x128 : Shape := ⟨3, ![64, 128, 128]⟩
abbrev S64x1x128 : Shape := ⟨3, ![64, 1, 128]⟩
abbrev S64x128x1 : Shape := ⟨3, ![64, 128, 1]⟩

abbrev nBuf : Space → Nat
  | .hbm => 30
  | .vmem => 25
  | .smem => 0
  | _ => 0

abbrev bufTy : (tb : Table) → Fin (tcTables nBuf tb) → BufTy
  | .hbm, ⟨0, _⟩ => ⟨S2x512x128, .f32⟩
  | .hbm, ⟨1, _⟩ => ⟨S2x512x512x16, .f32⟩
  | .hbm, ⟨2, _⟩ => ⟨S2x128, .f32⟩
  | .hbm, ⟨3, _⟩ => ⟨S2x512x512, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S16x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S1x128, .f32⟩
  | .hbm, ⟨20, _⟩ => ⟨S1x128, .f32⟩
  | .hbm, ⟨21, _⟩ => ⟨S1x128, .f32⟩
  | .hbm, ⟨22, _⟩ => ⟨S2x1x128, .f32⟩
  | .hbm, ⟨23, _⟩ => ⟨S128x128, .bf16⟩
  | .hbm, ⟨24, _⟩ => ⟨S128x128, .bf16⟩
  | .hbm, ⟨25, _⟩ => ⟨S16x128, .bf16⟩
  | .hbm, ⟨26, _⟩ => ⟨S128x128, .bf16⟩
  | .hbm, ⟨27, _⟩ => ⟨S128x128, .bf16⟩
  | .hbm, ⟨28, _⟩ => ⟨S128x128, .bf16⟩
  | .hbm, ⟨29, _⟩ => ⟨S2x512x128, .f32⟩
  | .local _ .vmem, ⟨0, _⟩ => ⟨S1x64x128x16, .f32⟩
  | .local _ .vmem, ⟨1, _⟩ => ⟨S1x64x128x16, .f32⟩
  | .local _ .vmem, ⟨2, _⟩ => ⟨S1x64x128, .f32⟩
  | .local _ .vmem, ⟨3, _⟩ => ⟨S1x64x128, .f32⟩
  | .local _ .vmem, ⟨4, _⟩ => ⟨S1x64x128, .f32⟩
  | .local _ .vmem, ⟨5, _⟩ => ⟨S1x64x128, .f32⟩
  | .local _ .vmem, ⟨6, _⟩ => ⟨S1x128x128, .f32⟩
  | .local _ .vmem, ⟨7, _⟩ => ⟨S1x128x128, .f32⟩
  | .local _ .vmem, ⟨8, _⟩ => ⟨S1x1x128, .f32⟩
  | .local _ .vmem, ⟨9, _⟩ => ⟨S1x1x128, .f32⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S16x128, .bf16⟩
  | .local _ .vmem, ⟨15, _⟩ => ⟨S1x128, .f32⟩
  | .local _ .vmem, ⟨16, _⟩ => ⟨S128x128, .bf16⟩
  | .local _ .vmem, ⟨17, _⟩ => ⟨S1x128, .f32⟩
  | .local _ .vmem, ⟨18, _⟩ => ⟨S128x128, .bf16⟩
  | .local _ .vmem, ⟨19, _⟩ => ⟨S1x128, .f32⟩
  | .local _ .vmem, ⟨20, _⟩ => ⟨S128x128, .bf16⟩
  | .local _ .vmem, ⟨21, _⟩ => ⟨S1x128, .f32⟩
  | .local _ .vmem, ⟨22, _⟩ => ⟨S1x128x128, .f32⟩
  | .local _ .vmem, ⟨23, _⟩ => ⟨S1x128x128, .f32⟩
  | .local _ .vmem, ⟨24, _⟩ => ⟨S128x128, .f32⟩
  | _, _ => ⟨S2x512x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg16_0 : Ref sig .tc := ⟨.vmem, 21, rfl⟩
abbrev cc0_stg17_0 : Ref sig .tc := ⟨.vmem, 22, rfl⟩
abbrev cc0_stg17_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem15_0 : DmaSem sig := 20
abbrev cc0_sem16_0 : DmaSem sig := 21
abbrev cc0_sem17_0 : DmaSem sig := 22
abbrev cc0_sem17_1 : DmaSem sig := 23

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v64 : BitVec 1 := Scalar.cmpi .eq arg2 c7_i32
  let v65 : BitVec 32 := Scalar.extui v64
  let c0_i32_40 : BitVec 32 := 0#32
  let v66 : BitVec 1 := Scalar.cmpi .ne v65 c0_i32_40
  v66

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x64x128x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S16x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S128x128 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false, false]

abbrev stage0_17 : Fin 2 → Memref sig .tc .vmem S1x128x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true, false]

class Facts₀ : Prop where
  shapeCasts_S128_S1x128 : S128.ShapeCasts S1x128
  shapeCasts_S2x128_S2x1x128 : S2x128.ShapeCasts S2x1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x64x128x16_S1x64x128x16_0_0_0_0 : ∀ a, (![0, 0, 0, 0] : Fin 4 → Nat) a + S1x64x128x16.size a ≤ S1x64x128x16.size a
  h_S1x64x128x16 : 0 < S1x64x128x16.numel
  shapeCasts_S1x64x128x16_S64x128x16 : S1x64x128x16.ShapeCasts S64x128x16
  inb_S1x64x128_S1x64x128_0_0_0 : ∀ a, (![0, 0, 0] : Fin 3 → Nat) a + S1x64x128.size a ≤ S1x64x128.size a
  h_S1x64x128 : 0 < S1x64x128.numel
  shapeCasts_S1x64x128_S64x128 : S1x64x128.ShapeCasts S64x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S64x128 : S1x128.Broadcasts S64x128
  broadcasts_S1x128_S128x128 : S1x128.Broadcasts S128x128
  shapeCasts_S64x128x16_S8192x16 : S64x128x16.ShapeCasts S8192x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  broadcasts_S1x128_S8192x128 : S1x128.Broadcasts S8192x128
  shapeCasts_S8192x128_S64x128x128 : S8192x128.ShapeCasts S64x128x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  shapeCasts_S1x128_S1x1x128 : S1x128.ShapeCasts S1x1x128
  broadcasts_S1x1x128_S64x128x128 : S1x1x128.Broadcasts S64x128x128
  shapeCasts_S64x128_S64x128x1 : S64x128.ShapeCasts S64x128x1
  broadcasts_S64x128x1_S64x128x128 : S64x128x1.Broadcasts S64x128x128
  reduces_S64x128x128_S128x128 : S64x128x128.Reduces [0] S128x128
  dot_S64x128_S128x128_S64x128_1_0_0_1_n_n_wf : DotDims.WF S64x128 S128x128 S64x128 [1] [0] [0] [1] [] []
  dot_S128x128_S128x128_S128x128_1_0_0_1_n_n_wf : DotDims.WF S128x128 S128x128 S128x128 [1] [0] [0] [1] [] []
  dot_S1x128_S128x128_S1x128_1_0_0_1_n_n_wf : DotDims.WF S1x128 S128x128 S1x128 [1] [0] [0] [1] [] []
  dot_S8192x16_S16x128_S8192x128_1_0_0_1_n_n_wf : DotDims.WF S8192x16 S16x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x128x16.size a ≤ S2x512x512x16.size a
  hwx0_0 : ∀ i : grid0.Coords, EltTy.bits .f32 = 32 ∨ (Rect.block (s := S2x512x512x16) S1x64x128x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x128.size a ≤ S2x512x512.size a
  hwx0_1 : ∀ i : grid0.Coords, EltTy.bits .f32 = 32 ∨ (Rect.block (s := S2x512x512) S1x64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x128.size a ≤ S2x512x128.size a
  hwx0_2 : ∀ i : grid0.Coords, EltTy.bits .f32 = 32 ∨ (Rect.block (s := S2x512x128) S1x64x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x128.size a ≤ S2x512x128.size a
  hwx0_3 : ∀ i : grid0.Coords, EltTy.bits .f32 = 32 ∨ (Rect.block (s := S2x512x128) S1x128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x128.size a ≤ S2x1x128.size a
  hwx0_4 : ∀ i : grid0.Coords, EltTy.bits .f32 = 32 ∨ (Rect.block (s := S2x1x128) S1x1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .bf16 = 32 ∨ (Rect.block (s := S128x128) S128x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x128.size a ≤ S16x128.size a
  hwx0_9 : ∀ i : grid0.Coords, EltTy.bits .bf16 = 32 ∨ (Rect.block (s := S16x128) S16x128.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .bf16 = 32 ∨ (Rect.block (s := S128x128) S128x128.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S128x128.size a ≤ S128x128.size a
  hwx0_13 : ∀ i : grid0.Coords, EltTy.bits .bf16 = 32 ∨ (Rect.block (s := S128x128) S128x128.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x128.size a ≤ S1x128.size a
  hwx0_14 : ∀ i : grid0.Coords, EltTy.bits .f32 = 32 ∨ (Rect.block (s := S1x128) S1x128.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S128x128.size a
  hwx0_15 : ∀ i : grid0.Coords, EltTy.bits .bf16 = 32 ∨ (Rect.block (s := S128x128) S128x128.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x128x128.size a ≤ S2x512x128.size a
  hwx0_17 : ∀ i : grid0.Coords, EltTy.bits .f32 = 32 ∨ (Rect.block (s := S2x512x128) S1x128x128.size (cc0_transform_17 i) (hinb0_17 i)).WholeWords (EltTy.packing .f32)

variable [Facts₀]

def dot_S64x128_S128x128_S64x128_1_0_0_1_n_n : DotDims S64x128 S128x128 S64x128 where
  lhsContracting := [1]
  rhsContracting := [0]
  lhsNonContracting := [0]
  rhsNonContracting := [1]
  lhsBatch := []
  rhsBatch := []
  wf := dot_S64x128_S128x128_S64x128_1_0_0_1_n_n_wf
def dot_S128x128_S128x128_S128x128_1_0_0_1_n_n : DotDims S128x128 S128x128 S128x128 where
  lhsContracting := [1]
  rhsContracting := [0]
  lhsNonContracting := [0]
  rhsNonContracting := [1]
  lhsBatch := []
  rhsBatch := []
  wf := dot_S128x128_S128x128_S128x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S8192x16_S16x128_S8192x128_1_0_0_1_n_n : DotDims S8192x16 S16x128 S8192x128 where
  lhsContracting := [1]
  rhsContracting := [0]
  lhsNonContracting := [0]
  rhsNonContracting := [1]
  lhsBatch := []
  rhsBatch := []
  wf := dot_S8192x16_S16x128_S8192x128_1_0_0_1_n_n_wf

abbrev win0_0 : Pipeline.Window sig grid0 :=
  Pipeline.Window.ofSpec (Memref.whole main_arg1) S1x64x128x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x64x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x64x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S1x128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v1) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9) S16x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v2) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v10) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v3) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S128x128.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v4) S1x128.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v12) S128x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v5) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v13) S1x128x128.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

abbrev idle0 : Fin 18 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun i => !(k0_cond2 i == 1#1) | ⟨_ + 18, h⟩ => absurd h (Nat.not_lt.2 (Nat.le_add_left _ _))

class Facts : Prop extends Facts₀ where

variable [Facts]
-- ==== ReferenceIdeal.lean ====
abbrev S2x512x128 : Shape := ⟨3, ![2, 512, 128]⟩
abbrev S2x512x512x16 : Shape := ⟨4, ![2, 512, 512, 16]⟩
abbrev S2x128 : Shape := ⟨2, ![2, 128]⟩
abbrev S2x512x512 : Shape := ⟨3, ![2, 512, 512]⟩
abbrev S128x128 : Shape := ⟨2, ![128, 128]⟩
abbrev S128 : Shape := ⟨1, ![128]⟩
abbrev S16x128 : Shape := ⟨2, ![16, 128]⟩
abbrev S1x1x128 : Shape := ⟨3, ![1, 1, 128]⟩
abbrev S2x512x512x128 : Shape := ⟨4, ![2, 512, 512, 128]⟩
abbrev S1x1x1x128 : Shape := ⟨4, ![1, 1, 1, 128]⟩
abbrev S1x128 : Shape := ⟨2, ![1, 128]⟩
abbrev S2x1x512x128 : Shape := ⟨4, ![2, 1, 512, 128]⟩
abbrev S2x512x1x128 : Shape := ⟨4, ![2, 512, 1, 128]⟩
abbrev S2x1x1x128 : Shape := ⟨4, ![2, 1, 1, 128]⟩
abbrev S2x512x512x1 : Shape := ⟨4, ![2, 512, 512, 1]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S2x512x128, .f32⟩
  | .hbm, ⟨1, _⟩ => ⟨S2x512x512x16, .f32⟩
  | .hbm, ⟨2, _⟩ => ⟨S2x128, .f32⟩
  | .hbm, ⟨3, _⟩ => ⟨S2x512x512, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S16x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128, .f32⟩
  | .hbm, ⟨16, _⟩ => ⟨S2x512x128, .f32⟩
  | .hbm, ⟨17, _⟩ => ⟨S1x1x128, .f32⟩
  | .hbm, ⟨18, _⟩ => ⟨S2x512x128, .f32⟩
  | .hbm, ⟨19, _⟩ => ⟨S2x512x128, .f32⟩
  | .hbm, ⟨20, _⟩ => ⟨S2x512x128, .f32⟩
  | .hbm, ⟨21, _⟩ => ⟨S1x1x128, .f32⟩
  | .hbm, ⟨22, _⟩ => ⟨S2x512x128, .f32⟩
  | .hbm, ⟨23, _⟩ => ⟨S2x512x128, .f32⟩
  | .hbm, ⟨24, _⟩ => ⟨S2x512x512x128, .f32⟩
  | .hbm, ⟨25, _⟩ => ⟨S1x1x1x128, .f32⟩
  | .hbm, ⟨26, _⟩ => ⟨S2x512x512x128, .f32⟩
  | .hbm, ⟨27, _⟩ => ⟨S2x512x512x128, .f32⟩
  | .hbm, ⟨28, _⟩ => ⟨S2x128, .f32⟩
  | .hbm, ⟨29, _⟩ => ⟨S1x128, .f32⟩
  | .hbm, ⟨30, _⟩ => ⟨S2x128, .f32⟩
  | .hbm, ⟨31, _⟩ => ⟨S2x128, .f32⟩
  | .hbm, ⟨32, _⟩ => ⟨S2x1x512x128, .f32⟩
  | .hbm, ⟨33, _⟩ => ⟨S2x512x1x128, .f32⟩
  | .hbm, ⟨34, _⟩ => ⟨S2x512x512x128, .f32⟩
  | .hbm, ⟨35, _⟩ => ⟨S2x512x512x128, .f32⟩
  | .hbm, ⟨36, _⟩ => ⟨S2x512x512x128, .f32⟩
  | .hbm, ⟨37, _⟩ => ⟨S2x512x512x128, .f32⟩
  | .hbm, ⟨38, _⟩ => ⟨S2x1x1x128, .f32⟩
  | .hbm, ⟨39, _⟩ => ⟨S2x512x512x128, .f32⟩
  | .hbm, ⟨40, _⟩ => ⟨S2x512x512x128, .f32⟩
  | .hbm, ⟨41, _⟩ => ⟨S2x512x512x1, .f32⟩
  | .hbm, ⟨42, _⟩ => ⟨S2x512x512x128, .f32⟩
  | .hbm, ⟨43, _⟩ => ⟨S2x512x512x128, .f32⟩
  | .hbm, ⟨44, _⟩ => ⟨S_, .f32⟩
  | .hbm, ⟨45, _⟩ => ⟨S2x512x128, .f32⟩
  | .hbm, ⟨46, _⟩ => ⟨S2x512x128, .f32⟩
  | .hbm, ⟨47, _⟩ => ⟨S1x1x128, .f32⟩
  | .hbm, ⟨48, _⟩ => ⟨S2x512x128, .f32⟩
  | .hbm, ⟨49, _⟩ => ⟨S2x512x128, .f32⟩
  | .hbm, ⟨50, _⟩ => ⟨S2x512x128, .f32⟩
  | .hbm, ⟨51, _⟩ => ⟨S1x1x128, .f32⟩
  | .hbm, ⟨52, _⟩ => ⟨S2x512x128, .f32⟩
  | .hbm, ⟨53, _⟩ => ⟨S2x512x128, .f32⟩
  | .hbm, ⟨54, _⟩ => ⟨S2x512x128, .f32⟩
  | _, _ => ⟨S2x512x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S2x512x128_0_1_2 : S1x1x128.BroadcastsInDim S2x512x128 (![0, 1, 2] : Fin 3 → Fin S2x512x128.rank)
  bcast_S128_S1x1x1x128_3 : S128.BroadcastsInDim S1x1x1x128 (![3] : Fin 1 → Fin S1x1x1x128.rank)
  bcast_S1x1x1x128_S2x512x512x128_0_1_2_3 : S1x1x1x128.BroadcastsInDim S2x512x512x128 (![0, 1, 2, 3] : Fin 4 → Fin S2x512x512x128.rank)
  bcast_S128_S1x128_1 : S128.BroadcastsInDim S1x128 (![1] : Fin 1 → Fin S1x128.rank)
  bcast_S1x128_S2x128_0_1 : S1x128.BroadcastsInDim S2x128 (![0, 1] : Fin 2 → Fin S2x128.rank)
  bcast_S2x512x128_S2x1x512x128_0_2_3 : S2x512x128.BroadcastsInDim S2x1x512x128 (![0, 2, 3] : Fin 3 → Fin S2x1x512x128.rank)
  bcast_S2x512x128_S2x512x1x128_0_1_3 : S2x512x128.BroadcastsInDim S2x512x1x128 (![0, 1, 3] : Fin 3 → Fin S2x512x1x128.rank)
  bcast_S2x1x512x128_S2x512x512x128_0_1_2_3 : S2x1x512x128.BroadcastsInDim S2x512x512x128 (![0, 1, 2, 3] : Fin 4 → Fin S2x512x512x128.rank)
  bcast_S2x512x1x128_S2x512x512x128_0_1_2_3 : S2x512x1x128.BroadcastsInDim S2x512x512x128 (![0, 1, 2, 3] : Fin 4 → Fin S2x512x512x128.rank)
  bcast_S2x128_S2x1x1x128_0_3 : S2x128.BroadcastsInDim S2x1x1x128 (![0, 3] : Fin 2 → Fin S2x1x1x128.rank)
  bcast_S2x1x1x128_S2x512x512x128_0_1_2_3 : S2x1x1x128.BroadcastsInDim S2x512x512x128 (![0, 1, 2, 3] : Fin 4 → Fin S2x512x512x128.rank)
  bcast_S2x512x512_S2x512x512x1_0_1_2 : S2x512x512.BroadcastsInDim S2x512x512x1 (![0, 1, 2] : Fin 3 → Fin S2x512x512x1.rank)
  bcast_S2x512x512x1_S2x512x512x128_0_1_2_3 : S2x512x512x1.BroadcastsInDim S2x512x512x128 (![0, 1, 2, 3] : Fin 4 → Fin S2x512x512x128.rank)
  reducesTo_S2x512x512x128_S2x512x128_d1 : S2x512x512x128.ReducesTo [1] S2x512x128
  h_S_ : 0 < S_.numel
  dot_S2x512x128_S128x128_S2x512x128_2_0_01_1_n_n_wf : DotDims.WF S2x512x128 S128x128 S2x512x128 [2] [0] [0, 1] [1] [] []
  dot_S2x512x512x16_S16x128_S2x512x512x128_3_0_012_1_n_n_wf : DotDims.WF S2x512x512x16 S16x128 S2x512x512x128 [3] [0] [0, 1, 2] [1] [] []
  dot_S2x128_S128x128_S2x128_1_0_0_1_n_n_wf : DotDims.WF S2x128 S128x128 S2x128 [1] [0] [0] [1] [] []

variable [Facts₀]

def dot_S2x512x128_S128x128_S2x512x128_2_0_01_1_n_n : DotDims S2x512x128 S128x128 S2x512x128 where
  lhsContracting := [2]
  rhsContracting := [0]
  lhsNonContracting := [0, 1]
  rhsNonContracting := [1]
  lhsBatch := []
  rhsBatch := []
  wf := dot_S2x512x128_S128x128_S2x512x128_2_0_01_1_n_n_wf
def dot_S2x512x512x16_S16x128_S2x512x512x128_3_0_012_1_n_n : DotDims S2x512x512x16 S16x128 S2x512x512x128 where
  lhsContracting := [3]
  rhsContracting := [0]
  lhsNonContracting := [0, 1, 2]
  rhsNonContracting := [1]
  lhsBatch := []
  rhsBatch := []
  wf := dot_S2x512x512x16_S16x128_S2x512x512x128_3_0_012_1_n_n_wf
def dot_S2x128_S128x128_S2x128_1_0_0_1_n_n : DotDims S2x128 S128x128 S2x128 where
  lhsContracting := [1]
  rhsContracting := [0]
  lhsNonContracting := [0]
  rhsNonContracting := [1]
  lhsBatch := []
  rhsBatch := []
  wf := dot_S2x128_S128x128_S2x128_1_0_0_1_n_n_wf

class Facts : Prop extends Facts₀ where

variable [Facts]
-- ==== Proof.LibWholeBlock.lean ====
/-
  Whole-block loads and stores of a whole staging buffer, read as plain values.

  A kernel body that loads each of its buffers through the rectangle covering the whole shape (zero offsets, the
  shape's own sizes) and stores the same way computes over the buffers' CONTENTS: such a load reads the contents,
  such a store leaves its payload, whatever the buffer held, and a load after such a store reads that payload back.
  The symbolic run of a body names these values through the raw buffer contents (`unread`), a list of written
  pieces (`writes`) and covered reads (`readCov`); the lemmas below turn each into the value itself.
-/
import Idealize.ShloMosaic.Lib.Pipeline.Value
import Idealize.ShloMosaic.Lib.Pipeline.FrameBody

noncomputable section

namespace Idealize.ShloMosaic.View.WholeBlock

open Idealize.ShloMosaic

variable {sig : RefSig} {κ : Kind} {sp : Space} {S : Shape} {e : EltTy} {Val : EltTy → Type} [∀ e, Nonempty (Val e)]

/-- A load through the whole-shape rectangle of a whole buffer whose contents read `x` reads `x`. -/
theorem readAt_unread (M : Memref sig κ sp S e) (hM : M.IsWhole) {off : Fin S.rank → Nat} (hz : off = fun _ => 0)
    (inb : ∀ a, off a + S.size a ≤ S.size a) (x : S.Idx → Val e) :
    View.readAt Val M.view (Rect.unit off S.size inb).toLoadRect (hM.unread x) = x := by
  rw [View.readAt_eq_ld, hM.read_unread, View.ld_unit_zero hz]

/-- One store through the whole-shape rectangle leaves its payload, whatever was there. -/
theorem read_writes_one (v : View sig κ sp S e) (f : v.ty.Contents Val) {off : Fin S.rank → Nat} (hz : off = fun _ => 0)
    (inb : ∀ a, off a + S.size a ≤ S.size a) (w : S.Idx → Val e) :
    v.read Val (v.writes Val f [(⟨Rect.unit off S.size inb, w⟩ : View.Piece Val S e)]) = w := by
  rw [View.read_writes_eq_canon _ _ _ (fun y => ⟨_, List.mem_singleton_self _, View.mem_set_unit_zero hz inb y⟩),
    View.canon_unit_zero hz]

/-- A store through the whole-shape rectangle, made last, leaves its payload whatever the earlier stores were. -/
theorem read_writes_last (v : View sig κ sp S e) (f : v.ty.Contents Val) {off : Fin S.rank → Nat} (hz : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon _ _ _ (fun y => ⟨_, List.mem_cons_self, View.mem_set_unit_zero hz inb y⟩),
    View.canon_cons_unit_zero hz]

end Idealize.ShloMosaic.View.WholeBlock

end
-- ==== Proof.KernelStep.lean ====
import proofs.«163085_j77309411697_2_alg».proof.Proof.Gen.Kernel.Launch
import proofs.«163085_j77309411697_2_alg».proof.Proof.Gen.Kernel.Skeleton
import proofs.«163085_j77309411697_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.LibWholeBlock

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point does to the running maximum and to the output block

The body at grid point `(b, j, i)` loads every staged block whole, resets the scratch accumulator to `-∞` when
`i = 0`, replaces it by its elementwise maximum with this tile's column maxima, and, when `i` is the last tile,
stores the two output heads' sum into the output block.  The two functions below are those two stores' values as
functions of the blocks' contents (`x0 … x16`, in the order of the kernel's operands: edge features, adjacency,
row-tile node features, column-tile node features, global features, then the six weight / bias pairs) and of what
the accumulator held. -/

/-- The condition of the first `pl.when`: the reduction coordinate is 0. -/
abbrev condFirst (i : grid0.Coords) : Prop :=
  (Scalar.cmpi .ne (Scalar.extui (Scalar.cmpi .eq (BitVec.ofNat 32 (i 2).val) 0#32)) 0#32) = 1#1

/-- The condition of the second `pl.when`: the reduction coordinate is the last one. -/
abbrev condLast (i : grid0.Coords) : Prop := k0_cond2 i = 1#1

/-- The accumulator after a point: the elementwise maximum of what it held (`acc`) and this tile's masked column maxima. -/
def accStep (x0 : Vec F S1x64x128x16 .f32) (x1 : Vec F S1x64x128 .f32) (x2 : Vec F S1x64x128 .f32) (x3 : Vec F S1x128x128 .f32)
    (x4 : Vec F S1x1x128 .f32) (x5 : Vec F S128x128 .bf16) (x6 : Vec F S1x128 .f32) (x7 : Vec F S128x128 .bf16) (x8 : Vec F S1x128 .f32)
    (x9 : Vec F S16x128 .bf16) (x10 : Vec F S1x128 .f32) (x11 : Vec F S128x128 .bf16) (x12 : Vec F S1x128 .f32)
    (acc : Vec F S128x128 .f32) : Vec F S128x128 .f32 :=
  k0_pay1 (k0_pay4 x0) (k0_pay5 x1) (k0_pay7 x4) (k0_pay8 x2 x7 x8) (k0_pay9 x3 x5) (k0_pay10 x6) x11 x12 x9 x10 acc

/-- The output block stored at the last reduction tile: the node head of the column tile plus the message head of the
    finished accumulator `acc`. -/
def outStep (x3 : Vec F S1x128x128 .f32) (x13 : Vec F S128x128 .bf16) (x14 : Vec F S1x128 .f32) (x15 : Vec F S128x128 .bf16)
    (x16 : Vec F S1x128 .f32) (acc : Vec F S128x128 .f32) : Vec F S1x128x128 .f32 :=
  k0_pay2 (k0_pay6 x3) x13 x14 acc x15 x16

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

/-- Opens the names a symbolic run of the body minted and reads every whole-block load, store and read-back as the
    value it denotes (the loads' contents, the stores' payloads). -/
macro "whole_blocks" : tactic => `(tactic| (
  (try sl_unfold_run_names);
  simp only [View.WholeBlock.read_writes_one (S := S128x128) _ _ hz2, View.WholeBlock.read_writes_last (S := S128x128) _ _ hz2,
      View.WholeBlock.read_writes_one (S := S1x128x128) _ _ hz3, View.WholeBlock.read_writes_last (S := S1x128x128) _ _ hz3,
      View.WholeBlock.readAt_unread (S := S128x128) _ _ hz2, View.WholeBlock.readAt_unread (S := S1x128) _ _ hz2, View.WholeBlock.readAt_unread (S := S16x128) _ _ hz2,
      View.WholeBlock.readAt_unread (S := S1x64x128) _ _ hz3, View.WholeBlock.readAt_unread (S := S1x128x128) _ _ hz3, View.WholeBlock.readAt_unread (S := S1x1x128) _ _ hz3,
      View.WholeBlock.readAt_unread (S := S1x64x128x16) _ _ hz4,
      View.readCov_unit_zero (S := S128x128) _ hz2, View.readCov_unit_zero (S := S1x128x128) _ hz3]))

end Cert.Kernel.Hand

end
-- ==== Proof.LibSharedFrame.lean ====
/-
  The frame run of a one-region program whose INPUT windows may share an array (one argument handed to the
  kernel through several windows, each reading its own blocks of it).

  For distinct arrays every window holds its array whole, at the full share; when two input windows read one
  array the array's full share has to be dealt among them, and the proof data's `q` says how.  The run below
  takes that dealing as a hypothesis (`hsplit`) and concludes the same post as the run for distinct arrays:
  every window's array ends at what the proof data compute (`Dat.arrAt w N`), every other unscoped buffer ends
  at what it held when the region was entered.  The invariant carried from point to point is the proof data's
  own; it is entered from, and gives back, the core's scoped buffers that are no staging buffer (the scratch).
  The generator register is not handed to the body: a kernel that draws random bits is outside this form.

  `arrays_of_pair` is the dealing itself for the plainest case: exactly two input windows on one array, one
  holding the left half of the full share and the other the right half, every other window's array its own.
-/
import Idealize.ShloMosaic.Lib.Pipeline.Frame

noncomputable section

namespace Idealize.ShloMosaic.Pipeline.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

variable (cfgs : P → Cfg sig Λ₀)
  (dats : (p : P) → (c : Dev nD) → Dat τ Val Unit ℕ (UR sig nD τ) ℕ (cfgs p) c) (p : P)
  (defs₀ : Defs nD τ sig Val Λ₀) (𝒱₀ : Variants)

local notation "cfg" => cfgs p
local notation "𝔻" => Pipeline.defs (fun q => Cfg.toPCfg (Val := Val) (cfgs q)) defs₀

/-- The frame run with a tracking invariant, for a pipeline whose windows may share arrays: from the layout facts
    short of the arrays' distinctness, the body obligation, @main's shape up to the region, the dealing of the arrays'
    buffers among the windows at entry (`hsplit`), and the invariant entered from and returned to the scratch
    buffers, every array ends at `arrAt w N` and every bypassing buffer unchanged. -/
theorem θ_run_frame_shared_track
    (hcell : Function.Injective (cellOf (nD := nD) (τ := τ) cfgs))
    (hw : WinFacts₀ (cfg).spec)
    (hne : ∀ w : Fin (cfg).W, 0 < ((cfg).spec w).block.numel)
    (harr : ∀ w, ((cfg).spec w).arr.IsWhole) (hstage : ∀ w s, (((cfg).spec w).stage s).IsWhole)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hcell p hw emb₁ defs₀ 𝒱₀ m g main hbody hne harr hstage howed
    (u₀ := initOf (cells cfgs hcell) (launchToks cfgs hcell)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by
      iintro HU
      isplitr
      · iempintro
      · iexact HU)
    (hin := fun c => (show _ ⊢ (scopedRest (cfg).spec c : sProp 𝕄) from by iintro ⟨-, H⟩; iexact H).trans (hin c))
    (hout := fun c => (hout c).trans (by
      iintro H
      isplitr
      · iempintro
      · iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

/-- A whole points-to read at another name of the same buffer. -/
theorem pointsTo_ref_congr (c : Dev nD) (V : (b : Ref sig .tc) → Buf Val ((c.tc : Thread nD τ).loc b)) (q : PosShare TreeShare)
    {b b' : Ref sig .tc} (h : b' = b) :
    ((((c.tc : Thread nD τ).loc b') ↦{q} V b' : sProp 𝕄)) = (((c.tc : Thread nD τ).loc b) ↦{q} V b) := by
  subst h; rfl

/-- The dealing for exactly two windows `w₁ ≠ w₂` on one array (both inputs: their shares are the proof data's
    `q`): `w₁` holds the left half of the array's full share, `w₂` the right half, and every other window's array
    is its own, held at the full share.  The buffers behind the arrays, whole at the full share at `V`, then make the
    proof data's `arrays` at the same contents. -/
theorem arrays_of_pair (c : Dev nD) (w₁ w₂ : Fin (cfg).W) (h12 : w₁ ≠ w₂)
    (hR : arrRef (cfg).spec w₂ = arrRef (cfg).spec w₁)
    (hinj : Set.InjOn (arrRef (cfg).spec) (Finset.univ.erase w₂ : Finset (Fin (cfg).W)))
    (harr : ∀ w, ((cfg).spec w).arr.IsWhole)
    (hs₁ : (dats p c).share w₁ = fullShare.left) (hs₂ : (dats p c).share w₂ = fullShare.right)
    (hs : ∀ w, w ≠ w₁ → w ≠ w₂ → (dats p c).share w = fullShare)
    (V : (b : Ref sig .tc) → Buf Val ((c.tc : Thread nD τ).loc b))
    (F : (w : Fin (cfg).W) → Buf Val (((cfg).spec w).arr.view.loc (c.tc : Thread nD τ)))
    (hF : ∀ w, F w = V (arrRef (cfg).spec w)) :
    (arrBufs (cfg).spec c V : sProp 𝕄) ⊢ (dats p c).arrays F := by
  classical
  have himg : (Finset.univ.image (arrRef (cfg).spec)) = (Finset.univ.erase w₂).image (arrRef (cfg).spec) := by
    ext b
    simp only [Finset.mem_image, Finset.mem_univ, true_and, Finset.mem_erase, ne_eq]
    constructor
    · rintro ⟨w, rfl⟩
      by_cases hw : w = w₂
      · exact ⟨w₁, ⟨h12, trivial⟩, by rw [hw, hR]⟩
      · exact ⟨w, ⟨hw, trivial⟩, rfl⟩
    · rintro ⟨w, -, rfl⟩; exact ⟨w, rfl⟩
  have hm₁ : w₁ ∈ (Finset.univ.erase w₂ : Finset (Fin (cfg).W)) := Finset.mem_erase.mpr ⟨h12, Finset.mem_univ _⟩
  unfold arrBufs Dat.arrays
  rw [himg, BI.bigSep_image_of_injOn hinj, BI.bigSep_erase hm₁, BI.bigSep_univ_split w₂, BI.bigSep_erase hm₁]
  have hrest : (bigSep ((Finset.univ.erase w₂).erase w₁) fun w => (((c.tc : Thread nD τ).loc (arrRef (cfg).spec w)) ↦{fullShare} V (arrRef (cfg).spec w) : sProp 𝕄))
      = bigSep ((Finset.univ.erase w₂).erase w₁) fun w : Fin (cfg).W =>
          (((cfg).win w).arr.view.loc (c.tc : Thread nD τ) ↦[((cfg).win w).arr.view.set]{(dats p c).share w} F w : sProp 𝕄) :=
    BI.bigSep_congr fun w hw => by
      have h1 : w ≠ w₁ := (Finset.mem_erase.mp hw).1
      have h2 : w ≠ w₂ := (Finset.mem_erase.mp (Finset.mem_erase.mp hw).2).1
      rw [(harr w).set_eq_univ, hs w h1 h2, hF]
  rw [hrest]
  have e₁ : ((((cfg).win w₁).arr.view.loc (c.tc : Thread nD τ) ↦[((cfg).win w₁).arr.view.set]{(dats p c).share w₁} F w₁ : sProp 𝕄))
      = (((c.tc : Thread nD τ).loc (arrRef (cfg).spec w₁)) ↦{fullShare.left} V (arrRef (cfg).spec w₁)) := by
    rw [(harr w₁).set_eq_univ, hs₁, hF]
  have e₂ : ((((cfg).win w₂).arr.view.loc (c.tc : Thread nD τ) ↦[((cfg).win w₂).arr.view.set]{(dats p c).share w₂} F w₂ : sProp 𝕄))
      = (((c.tc : Thread nD τ).loc (arrRef (cfg).spec w₁)) ↦{fullShare.right} V (arrRef (cfg).spec w₁)) := by
    rw [(harr w₂).set_eq_univ, hs₂, hF]
    exact pointsTo_ref_congr c V fullShare.right hR
  rw [e₁, e₂]
  have key : ∀ (A B₁ B₂ R : sProp 𝕄), (A ⊢ iprop(B₁ ∗ B₂)) → iprop(A ∗ R) ⊢ iprop(B₂ ∗ B₁ ∗ R) := by
    intro A B₁ B₂ R h
    refine (sep_mono_left h).trans ?_
    iintro ⟨⟨HL, HRt⟩, HR⟩
    isplitl [HRt]
    · iexact HRt
    isplitl [HL]
    · iexact HL
    · iexact HR
  exact key _ _ _ _ (pointsTo_share (PosShare.mem_left_op_right fullShare)).1

end Idealize.ShloMosaic.Pipeline.SharedFrame

end
-- ==== Proof.KernelData.lean ====
import proofs.«163085_j77309411697_2_alg».proof.Proof.Gen.Kernel.Launch
import proofs.«163085_j77309411697_2_alg».proof.Proof.Gen.Kernel.Skeleton
import proofs.«163085_j77309411697_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.KernelStep
import proofs.«163085_j77309411697_2_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region

Thirteen host operations run before the region: six bias vectors and the global features are reshaped, six weight
matrices are converted to bf16.  `V` is what each TensorCore buffer holds when the region is entered. -/

/-- Core `c`'s buffer contents when the region is entered, as a valuation. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The host operations before the region allocate nothing. -/
theorem hostOps0_fresh : (hostOps0 : List (HloOp τ sig (Elt F))).Forall fun op => op.fresh = ∅ := by
  simp only [List.Forall]; repeat' constructor

/-- @main is those operations, then the region, then the return. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (when it is not
fetched the block index has not moved), for any proof data whose array is `V`'s and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid

The grid is (batch, column tile, row tile) = (2, 4, 8), the row tile fastest: point `t` has row-tile coordinate `t % 8`. -/

theorem hcondFirst : ∀ t : Fin cfg0.N, condFirst (grid0.coords t) ↔ t.val % 8 = 0 :=
  (by decide +kernel : ∀ t : Fin grid0.N, condFirst (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)
/-- The output window is idle at a point that is not the last row tile, and its block is not written back there. -/
theorem idle17 : ∀ t : Fin cfg0.N, ¬ condLast (grid0.coords t) → cfg0.idle 17 (grid0.coords t) = true := by decide +kernel
theorem noFlush17 : ∀ t : Fin cfg0.N, ¬ condLast (grid0.coords t) → (cfg0.win 17).flush t = false := by decide +kernel
/-- At the last row tile the body stores the output block. -/
theorem live17 : ∀ t : Fin cfg0.N, condLast (grid0.coords t) → cfg0.idle 17 (grid0.coords t) = false := by decide +kernel

/-! ## The accumulator, point by point -/

/-- Point `n` of the grid (a number below 64 is its own point). -/
def ptOf (n : ℕ) : Fin cfg0.N := ⟨n % 64, lt_of_lt_of_eq (Nat.mod_lt n (by decide)) N_0.symm⟩
theorem ptOf_val (t : Fin cfg0.N) : ptOf t.val = t := Fin.ext (Nat.mod_eq_of_lt (lt_of_lt_of_eq t.isLt N_0))

/-- The accumulator after point `t` if it held `acc` before the maximum was taken. -/
def stepAt (c : Dev nD) (t : Fin cfg0.N) (acc : Vec F S128x128 .f32) : Vec F S128x128 .f32 :=
  accStep (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) acc

/-- What the scratch accumulator holds after point `n`: reset to `-∞` at each first row tile, else carried. -/
def accAt (c : Dev nD) : ℕ → Vec F S128x128 .f32
  | 0 => stepAt m c (ptOf 0) (k0_pay3 (F := F))
  | n + 1 => stepAt m c (ptOf (n + 1)) (if (n + 1) % 8 = 0 then (k0_pay3 (F := F)) else accAt c n)

theorem accAt_first (c : Dev nD) (t : Fin cfg0.N) (h : t.val % 8 = 0) : accAt m c t.val = stepAt m c t (k0_pay3 (F := F)) := by
  obtain ⟨n, hn⟩ := t
  cases n with
  | zero => show stepAt m c (ptOf 0) _ = _; rw [show ptOf 0 = (⟨0, hn⟩ : Fin cfg0.N) from ptOf_val ⟨0, hn⟩]
  | succ n =>
    show stepAt m c (ptOf (n + 1)) (if (n + 1) % 8 = 0 then _ else _) = _
    rw [if_pos h, show ptOf (n + 1) = (⟨n + 1, hn⟩ : Fin cfg0.N) from ptOf_val ⟨n + 1, hn⟩]

theorem accAt_next (c : Dev nD) (t : Fin cfg0.N) (h : ¬ t.val % 8 = 0) : accAt m c t.val = stepAt m c t (accAt m c (t.val - 1)) := by
  obtain ⟨n, hn⟩ := t
  cases n with
  | zero => exact absurd (Nat.zero_mod _) h
  | succ n =>
    show stepAt m c (ptOf (n + 1)) (if (n + 1) % 8 = 0 then _ else _) = _
    rw [if_neg h, show ptOf (n + 1) = (⟨n + 1, hn⟩ : Fin cfg0.N) from ptOf_val ⟨n + 1, hn⟩]
    rfl

/-- The output block the last row tile of `t`'s group stores (read only where `t` is such a point). -/
def outAt (c : Dev nD) (t : Fin cfg0.N) : Vec F S1x128x128 .f32 :=
  outStep (iblk m c 3 t) (iblk m c 13 t) (iblk m c 14 t) (iblk m c 15 t) (iblk m c 16 t) (accAt m c t.val)

/-! ## The invariant: the scratch accumulator -/

/-- The scratch operand, a whole scoped buffer of the kernel's own. -/
abbrev scM : Memref sig .tc .vmem S128x128 .f32 := Memref.whole cc0_scratch0

/-- Before the first point the scratch holds anything; before point `n + 1` it holds what point `n` left. -/
def PhiS (c : Dev nD) : ℕ → sProp 𝕄
  | 0 => Pipeline.scopedRest (Ix := Unit) (Name := ℕ) (U := UR sig nD τ) (Lvl := ℕ) (Val := Elt F) spec0 c
  | n + 1 => owns (c : Thread nD τ) scM fullShare (accAt m c n)

theorem scopedRest_owns (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

theorem PhiS_pos (c : Dev nD) (n : ℕ) (hz : n ≠ 0) : PhiS m c n = owns (c : Thread nD τ) scM fullShare (accAt m c (n - 1)) := by
  cases n with
  | zero => exact absurd rfl hz
  | succ n => rfl

/-- Whatever the point, the invariant yields the scratch at some contents. -/
theorem PhiS_any (c : Dev nD) (n : ℕ) : PhiS m c n ⊢ iprop(∃ d, owns (c : Thread nD τ) scM fullShare d) := by
  cases n with
  | zero => show (Pipeline.scopedRest spec0 c : sProp 𝕄) ⊢ _; rw [scopedRest_owns]
  | succ n => show owns (c : Thread nD τ) scM fullShare (accAt m c n) ⊢ _; iintro H; iexists _; iexact H

/-! ## The proof data -/

/-- The arrays as the region finds them; after the body each input's buffer at its block and the output's at the block
    the last row tile stores; the invariant the accumulator's; nothing owed; the node features, read through two windows
    (row tile and column tile), held half and half, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨_ + 18, h⟩ => absurd h (Nat.not_lt.2 (Nat.le_add_left _ _))
  Φ t := PhiS m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨_ + 18, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = outAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d
theorem before_15 (c : Dev nD) (t : Fin cfg0.N) (d) : (dats m 0 c).before 15 t d = iblk m c 15 t :=
  before_15_of m (dats m 0 c) (A_eq m c 15) (after_15 m c) t d
theorem before_16 (c : Dev nD) (t : Fin cfg0.N) (d) : (dats m 0 c).before 16 t d = iblk m c 16 t :=
  before_16_of m (dats m 0 c) (A_eq m c 16) (after_16 m c) t d

theorem leaves_0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) :
    (dats m 0 c).leavesExact 5 t = owns (c : Thread nD τ) (st0_5 t) fullShare (iblk m c 5 t) := by
  unfold Dat.leavesExact; rw [show cfg0.idle 5 (cfg0.grid.coords t) = false from rfl, after_5]
theorem leaves_6 (c : Dev nD) (t : Fin cfg0.N) :
    (dats m 0 c).leavesExact 6 t = owns (c : Thread nD τ) (st0_6 t) fullShare (iblk m c 6 t) := by
  unfold Dat.leavesExact; rw [show cfg0.idle 6 (cfg0.grid.coords t) = false from rfl, after_6]
theorem leaves_7 (c : Dev nD) (t : Fin cfg0.N) :
    (dats m 0 c).leavesExact 7 t = owns (c : Thread nD τ) (st0_7 t) fullShare (iblk m c 7 t) := by
  unfold Dat.leavesExact; rw [show cfg0.idle 7 (cfg0.grid.coords t) = false from rfl, after_7]
theorem leaves_8 (c : Dev nD) (t : Fin cfg0.N) :
    (dats m 0 c).leavesExact 8 t = owns (c : Thread nD τ) (st0_8 t) fullShare (iblk m c 8 t) := by
  unfold Dat.leavesExact; rw [show cfg0.idle 8 (cfg0.grid.coords t) = false from rfl, after_8]
theorem leaves_9 (c : Dev nD) (t : Fin cfg0.N) :
    (dats m 0 c).leavesExact 9 t = owns (c : Thread nD τ) (st0_9 t) fullShare (iblk m c 9 t) := by
  unfold Dat.leavesExact; rw [show cfg0.idle 9 (cfg0.grid.coords t) = false from rfl, after_9]
theorem leaves_10 (c : Dev nD) (t : Fin cfg0.N) :
    (dats m 0 c).leavesExact 10 t = owns (c : Thread nD τ) (st0_10 t) fullShare (iblk m c 10 t) := by
  unfold Dat.leavesExact; rw [show cfg0.idle 10 (cfg0.grid.coords t) = false from rfl, after_10]
theorem leaves_11 (c : Dev nD) (t : Fin cfg0.N) :
    (dats m 0 c).leavesExact 11 t = owns (c : Thread nD τ) (st0_11 t) fullShare (iblk m c 11 t) := by
  unfold Dat.leavesExact; rw [show cfg0.idle 11 (cfg0.grid.coords t) = false from rfl, after_11]
theorem leaves_12 (c : Dev nD) (t : Fin cfg0.N) :
    (dats m 0 c).leavesExact 12 t = owns (c : Thread nD τ) (st0_12 t) fullShare (iblk m c 12 t) := by
  unfold Dat.leavesExact; rw [show cfg0.idle 12 (cfg0.grid.coords t) = false from rfl, after_12]
theorem leaves_13 (c : Dev nD) (t : Fin cfg0.N) :
    (dats m 0 c).leavesExact 13 t = owns (c : Thread nD τ) (st0_13 t) fullShare (iblk m c 13 t) := by
  unfold Dat.leavesExact; rw [show cfg0.idle 13 (cfg0.grid.coords t) = false from rfl, after_13]
theorem leaves_14 (c : Dev nD) (t : Fin cfg0.N) :
    (dats m 0 c).leavesExact 14 t = owns (c : Thread nD τ) (st0_14 t) fullShare (iblk m c 14 t) := by
  unfold Dat.leavesExact; rw [show cfg0.idle 14 (cfg0.grid.coords t) = false from rfl, after_14]
theorem leaves_15 (c : Dev nD) (t : Fin cfg0.N) :
    (dats m 0 c).leavesExact 15 t = owns (c : Thread nD τ) (st0_15 t) fullShare (iblk m c 15 t) := by
  unfold Dat.leavesExact; rw [show cfg0.idle 15 (cfg0.grid.coords t) = false from rfl, after_15]
theorem leaves_16 (c : Dev nD) (t : Fin cfg0.N) :
    (dats m 0 c).leavesExact 16 t = owns (c : Thread nD τ) (st0_16 t) fullShare (iblk m c 16 t) := by
  unfold Dat.leavesExact; rw [show cfg0.idle 16 (cfg0.grid.coords t) = false from rfl, after_16]

end Cert.Kernel.Hand

end
-- ==== Proof.KernelRunFirst.lean ====
import proofs.«163085_j77309411697_2_alg».proof.Proof.Gen.Kernel.Launch
import proofs.«163085_j77309411697_2_alg».proof.Proof.Gen.Kernel.Skeleton
import proofs.«163085_j77309411697_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.KernelStep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first reduction tile: whatever the accumulator held, it is reset to -∞ and then replaced by this tile's column maxima. -/
theorem run_first (c : Dev nD) (i : grid0.Coords) (arg3 : Memref sig .tc .vmem S1x64x128x16 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S16x128 .bf16) (harg12 : arg12.IsWhole) (arg13 : Memref sig .tc .vmem S1x128 .f32) (harg13 : arg13.IsWhole) (arg14 : Memref sig .tc .vmem S128x128 .bf16) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128x128 .f32) (harg20 : arg20.IsWhole) (arg21 : Memref sig .tc .vmem S128x128 .f32) (harg21 : arg21.IsWhole)
    (h1 : condFirst i) (h2 : ¬ condLast i)
    (x0 : Vec F S1x64x128x16 .f32) (x1 : Vec F S1x64x128 .f32) (x2 : Vec F S1x64x128 .f32) (x3 : Vec F S1x128x128 .f32) (x4 : Vec F S1x1x128 .f32) (x5 : Vec F S128x128 .bf16) (x6 : Vec F S1x128 .f32) (x7 : Vec F S128x128 .bf16) (x8 : Vec F S1x128 .f32) (x9 : Vec F S16x128 .bf16) (x10 : Vec F S1x128 .f32) (x11 : Vec F S128x128 .bf16) (x12 : Vec F S1x128 .f32) (x13 : Vec F S128x128 .bf16) (x14 : Vec F S1x128 .f32) (x15 : Vec F S128x128 .bf16) (x16 : Vec F S1x128 .f32) (xs : Vec F S128x128 .f32) (xo : Vec F S1x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare xo ∗ (∃ d, owns (c : Thread nD τ) arg21 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare xo ∗ owns (c : Thread nD τ) arg21 fullShare (accStep x0 x1 x2 x3 x4 x5 x6 x7 x8 x9 x10 x11 x12 (k0_pay3 (F := F)))) -∗ K ⟨⟩))
      ⊢ wp frame (wpE (defs₀ (F := F)) Variants.none c none) E (cc0__mpnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mpnn_kernel_eq_skeleton]; unfold cc0__mpnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fo, %hfo, Ho⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
  obtain rfl := harg20.eq_unread hfo
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [Ho]
  · iexists _; isplitr; · ipureintro; exact harg20.read_unread _
    iexact Ho
  iexists _; isplitr
  swap; · iexact HS
  ipureintro
  whole_blocks
  rfl

end Cert.Kernel.Hand

end
-- ==== Proof.KernelRunMid.lean ====
import proofs.«163085_j77309411697_2_alg».proof.Proof.Gen.Kernel.Launch
import proofs.«163085_j77309411697_2_alg».proof.Proof.Gen.Kernel.Skeleton
import proofs.«163085_j77309411697_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.KernelStep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point that is neither the first nor the last reduction tile: the blocks are handed back as found, the output buffer untouched, the accumulator replaced by its maximum with this tile's column maxima. -/
theorem run_mid (c : Dev nD) (i : grid0.Coords) (arg3 : Memref sig .tc .vmem S1x64x128x16 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S16x128 .bf16) (harg12 : arg12.IsWhole) (arg13 : Memref sig .tc .vmem S1x128 .f32) (harg13 : arg13.IsWhole) (arg14 : Memref sig .tc .vmem S128x128 .bf16) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128x128 .f32) (harg20 : arg20.IsWhole) (arg21 : Memref sig .tc .vmem S128x128 .f32) (harg21 : arg21.IsWhole)
    (h1 : ¬ condFirst i) (h2 : ¬ condLast i)
    (x0 : Vec F S1x64x128x16 .f32) (x1 : Vec F S1x64x128 .f32) (x2 : Vec F S1x64x128 .f32) (x3 : Vec F S1x128x128 .f32) (x4 : Vec F S1x1x128 .f32) (x5 : Vec F S128x128 .bf16) (x6 : Vec F S1x128 .f32) (x7 : Vec F S128x128 .bf16) (x8 : Vec F S1x128 .f32) (x9 : Vec F S16x128 .bf16) (x10 : Vec F S1x128 .f32) (x11 : Vec F S128x128 .bf16) (x12 : Vec F S1x128 .f32) (x13 : Vec F S128x128 .bf16) (x14 : Vec F S1x128 .f32) (x15 : Vec F S128x128 .bf16) (x16 : Vec F S1x128 .f32) (xs : Vec F S128x128 .f32) (xo : Vec F S1x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare xo ∗ owns (c : Thread nD τ) arg21 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare xo ∗ owns (c : Thread nD τ) arg21 fullShare (accStep x0 x1 x2 x3 x4 x5 x6 x7 x8 x9 x10 x11 x12 xs)) -∗ K ⟨⟩))
      ⊢ wp frame (wpE (defs₀ (F := F)) Variants.none c none) E (cc0__mpnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mpnn_kernel_eq_skeleton]; unfold cc0__mpnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fo, %hfo, Ho⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
  obtain rfl := harg20.eq_unread hfo; obtain rfl := harg21.eq_unread hfs
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [Ho]
  · iexists _; isplitr; · ipureintro; exact harg20.read_unread _
    iexact Ho
  iexists _; isplitr
  swap; · iexact HS
  ipureintro
  whole_blocks
  rfl

end Cert.Kernel.Hand

end
-- ==== Proof.KernelRunLast.lean ====
import proofs.«163085_j77309411697_2_alg».proof.Proof.Gen.Kernel.Launch
import proofs.«163085_j77309411697_2_alg».proof.Proof.Gen.Kernel.Skeleton
import proofs.«163085_j77309411697_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.KernelStep

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last reduction tile: the accumulator takes its final maximum, and the output buffer, whatever it held, is stored whole with the two heads' sum. -/
theorem run_last (c : Dev nD) (i : grid0.Coords) (arg3 : Memref sig .tc .vmem S1x64x128x16 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S16x128 .bf16) (harg12 : arg12.IsWhole) (arg13 : Memref sig .tc .vmem S1x128 .f32) (harg13 : arg13.IsWhole) (arg14 : Memref sig .tc .vmem S128x128 .bf16) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128x128 .f32) (harg20 : arg20.IsWhole) (arg21 : Memref sig .tc .vmem S128x128 .f32) (harg21 : arg21.IsWhole)
    (h1 : ¬ condFirst i) (h2 : condLast i)
    (x0 : Vec F S1x64x128x16 .f32) (x1 : Vec F S1x64x128 .f32) (x2 : Vec F S1x64x128 .f32) (x3 : Vec F S1x128x128 .f32) (x4 : Vec F S1x1x128 .f32) (x5 : Vec F S128x128 .bf16) (x6 : Vec F S1x128 .f32) (x7 : Vec F S128x128 .bf16) (x8 : Vec F S1x128 .f32) (x9 : Vec F S16x128 .bf16) (x10 : Vec F S1x128 .f32) (x11 : Vec F S128x128 .bf16) (x12 : Vec F S1x128 .f32) (x13 : Vec F S128x128 .bf16) (x14 : Vec F S1x128 .f32) (x15 : Vec F S128x128 .bf16) (x16 : Vec F S1x128 .f32) (xs : Vec F S128x128 .f32) (xo : Vec F S1x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ (∃ d, owns (c : Thread nD τ) arg20 fullShare d) ∗ owns (c : Thread nD τ) arg21 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare (outStep x3 x13 x14 x15 x16 (accStep x0 x1 x2 x3 x4 x5 x6 x7 x8 x9 x10 x11 x12 xs)) ∗ owns (c : Thread nD τ) arg21 fullShare (accStep x0 x1 x2 x3 x4 x5 x6 x7 x8 x9 x10 x11 x12 xs)) -∗ K ⟨⟩))
      ⊢ wp frame (wpE (defs₀ (F := F)) Variants.none c none) E (cc0__mpnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mpnn_kernel_eq_skeleton]; unfold cc0__mpnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d0, %fo, -, Ho⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
  obtain rfl := harg21.eq_unread hfs
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [Ho]
  · iexists _; isplitr
    swap; · iexact Ho
    ipureintro
    whole_blocks
    rfl
  iexists _; isplitr
  swap; · iexact HS
  ipureintro
  whole_blocks
  rfl

end Cert.Kernel.Hand

end
-- ==== Proof.KernelFrame.lean ====
import proofs.«163085_j77309411697_2_alg».proof.Proof.Gen.Kernel.Launch
import proofs.«163085_j77309411697_2_alg».proof.Proof.Gen.Kernel.Skeleton
import proofs.«163085_j77309411697_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.KernelData
import proofs.«163085_j77309411697_2_alg».proof.Proof.KernelRunFirst
import proofs.«163085_j77309411697_2_alg».proof.Proof.KernelRunMid
import proofs.«163085_j77309411697_2_alg».proof.Proof.KernelRunLast

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, nothing owed, every window's current buffer at what it then holds; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 8000000 in
/-- The body at any point.  Every input buffer holds its block; the row-tile coordinate says which of the three runs
    applies; the invariant hands the body the accumulator at what the point before left (at anything at a first row
    tile, where it is reset) and takes it back at this point's maximum; the output buffer is handed back untouched
    except at the last row tile, where it is stored whole. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, leaves_0, leaves_1, leaves_2, leaves_3, leaves_4, leaves_5, leaves_6, leaves_7, leaves_8, leaves_9, leaves_10, leaves_11, leaves_12, leaves_13, leaves_14, leaves_15, leaves_16]
  rw [show (dats m 0 c).owesAt () t.succ = (dats m 0 c).owesAt () t.castSucc from rfl]
  rw [show (dats m 0 c).Φ t.succ = owns (c : Thread nD τ) scM fullShare (accAt m c t.val) from rfl, Phi_castSucc]
  by_cases h0 : t.val % 8 = 0
  ·
    have hl : ¬ t.val % 8 = 7 := by omega
    have hcF : condFirst (grid0.coords t) := (hcondFirst t).mpr h0
    have hcL : ¬ condLast (grid0.coords t) := fun h => hl ((hcondLast t).mp h)
    rw [Dat.leavesExact_idle (dats m 0 c) 17 t (idle17 t hcL) (noFlush17 t hcL), accAt_first m c t h0]
    unfold stepAt
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    ihave HS' := (PhiS_any m c t.val) $$ HS
    iapply (run_first c (grid0.coords t) _ _ _ _ _ _ _ _ _ _ _ _ _ _ _ _ _ _ _ _ _ _ _ _ _ _ _ _ _ _ _ _ _ _ _ _ _ _ hcF hcL (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (k0_pay3 (F := F)) ((dats m 0 c).before 17 t d17) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HS']; · iexact HS'
    iintro ⟨H0, H1, H2, H3, H4, H5, H6, H7, H8, H9, H10, H11, H12, H13, H14, H15, H16, H17, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexists _; iexact H17
  · by_cases h7 : t.val % 8 = 7
    ·
      have hz : t.val ≠ 0 := fun e => h0 (by rw [e])
      have hcF : ¬ condFirst (grid0.coords t) := fun h => h0 ((hcondFirst t).mp h)
      have hcL : condLast (grid0.coords t) := (hcondLast t).mpr h7
      rw [show (dats m 0 c).leavesExact 17 t = owns (c : Thread nD τ) (st0_17 t) fullShare ((dats m 0 c).after 17 t) from by
        unfold Dat.leavesExact; rw [live17 t hcL], after_17]
      unfold outAt
      rw [accAt_next m c t h0, PhiS_pos m c _ hz]
      unfold stepAt
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (run_last c (grid0.coords t) _ _ _ _ _ _ _ _ _ _ _ _ _ _ _ _ _ _ _ _ _ _ _ _ _ _ _ _ _ _ _ _ _ _ _ _ _ _ hcF hcL (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (accAt m c (t.val - 1)) ((dats m 0 c).before 17 t d17) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [HS]; · iexact HS
      iintro ⟨H0, H1, H2, H3, H4, H5, H6, H7, H8, H9, H10, H11, H12, H13, H14, H15, H16, H17, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    ·
      have hz : t.val ≠ 0 := fun e => h0 (by rw [e])
      have hcF : ¬ condFirst (grid0.coords t) := fun h => h0 ((hcondFirst t).mp h)
      have hcL : ¬ condLast (grid0.coords t) := fun h => h7 ((hcondLast t).mp h)
      rw [Dat.leavesExact_idle (dats m 0 c) 17 t (idle17 t hcL) (noFlush17 t hcL), accAt_next m c t h0, PhiS_pos m c _ hz]
      unfold stepAt
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (run_mid c (grid0.coords t) _ _ _ _ _ _ _ _ _ _ _ _ _ _ _ _ _ _ _ _ _ _ _ _ _ _ _ _ _ _ _ _ _ _ _ _ _ _ hcF hcL (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (accAt m c (t.val - 1)) ((dats m 0 c).before 17 t d17) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS]; · iexact HS
      iintro ⟨H0, H1, H2, H3, H4, H5, H6, H7, H8, H9, H10, H11, H12, H13, H14, H15, H16, H17, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexists _; iexact H17

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch: the node features' array dealt between its two windows -/

/-- Apart from the column-tile window of the node features, no two windows stage one array. -/
theorem arr_injOn : Set.InjOn (Pipeline.arrRef spec0) ((Finset.univ.erase (3 : Fin 18) : Finset (Fin 18)) : Set (Fin 18)) := by
  intro a ha b hb h
  have ha' : a ≠ 3 := (Finset.mem_erase.mp (Finset.mem_coe.mp ha)).1
  have hb' : b ≠ 3 := (Finset.mem_erase.mp (Finset.mem_coe.mp hb)).1
  exact (by decide : ∀ a b : Fin 18, a ≠ 3 → b ≠ 3 → Pipeline.arrRef spec0 a = Pipeline.arrRef spec0 b → a = b) a b ha' hb' h

theorem share_rest (c : Dev nD) : ∀ w : Fin 18, w ≠ 2 → w ≠ 3 → (dats m 0 c).share w = fullShare := by
  intro w h2 h3
  fin_cases w <;> first | rfl | exact absurd rfl h2 | exact absurd rfl h3

/-- The buffers behind the arrays, whole at the region-entry contents, make the proof data's arrays: the node features'
    buffer split half and half between its row-tile and column-tile windows. -/
theorem hsplit (c : Dev nD) : (Pipeline.arrBufs spec0 c (V m c) : sProp 𝕄) ⊢ (dats m 0 c).arrays ((dats m 0 c).arrAt · 0) :=
  Pipeline.SharedFrame.arrays_of_pair cfgs (dats m) (0 : Fin 1) c (2 : Fin 18) (3 : Fin 18) (by decide) rfl arr_injOn arr_whole0 rfl rfl
    (share_rest m c) (V m c) _ (fun w => A_eq m c w)

theorem hin (c : Dev nD) : (Pipeline.scopedRest spec0 c : sProp 𝕄) ⊢ (dats m 0 c).Φ 0 := by
  show _ ⊢ PhiS m c 0
  exact .rfl

theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val from rfl, scopedRest_owns]
  exact PhiS_any m c _

/-! ## The run -/

set_option backward.isDefEq.respectTransparency.types false in
/-- Every weakly fair execution of @main on the TensorCores terminates, faulting nowhere, with every window's array at
    what the proof data compute and every other unscoped buffer as the region found it. -/
theorem run_main : θ_run defs (onTc (τ := τ) (main (F := F))) (s₀ m ρ) (Pipeline.FramePost cfgs (dats m) 0 (V m)) :=
  Pipeline.SharedFrame.θ_run_frame_shared_track cfgs (dats m) (0 : Fin 1) defs₀ Variants.none cellOf_inj winFacts₀0 block_pos0 arr_whole0 stage_whole0
    m ρ main (hbody := fun c => (body_obligation m c).loose) (howed := fun _ _ => rfl) (V := V m) (hmain := hmain m)
    (hsplit := hsplit m) (hin := hin m) (hout := hout m)

/-! ## The arguments end as launched -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The frame: the run ends with every argument array as it was launched — a staged input is never written, an array no
    window stages bypasses the region, and no host operation before the region writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(((h c).1 2).trans (((dats m 0 c).arrAt_in 2 rfl _).trans ((A_eq m c 2).trans (V_main_arg0 m c)))),
    (((h c).1 0).trans (((dats m 0 c).arrAt_in 0 rfl _).trans ((A_eq m c 0).trans (V_main_arg1 m c)))),
    (((h c).2 main_arg2 (Pipeline.mem_restRefs_of main_arg2 rfl (by decide))).trans (V_main_arg2 m c)),
    (((h c).1 1).trans (((dats m 0 c).arrAt_in 1 rfl _).trans ((A_eq m c 1).trans (V_main_arg3 m c)))),
    (((h c).2 main_arg4 (Pipeline.mem_restRefs_of main_arg4 rfl (by decide))).trans (V_main_arg4 m c)),
    (((h c).2 main_arg5 (Pipeline.mem_restRefs_of main_arg5 rfl (by decide))).trans (V_main_arg5 m c)),
    (((h c).2 main_arg6 (Pipeline.mem_restRefs_of main_arg6 rfl (by decide))).trans (V_main_arg6 m c)),
    (((h c).2 main_arg7 (Pipeline.mem_restRefs_of main_arg7 rfl (by decide))).trans (V_main_arg7 m c)),
    (((h c).2 main_arg8 (Pipeline.mem_restRefs_of main_arg8 rfl (by decide))).trans (V_main_arg8 m c)),
    (((h c).2 main_arg9 (Pipeline.mem_restRefs_of main_arg9 rfl (by decide))).trans (V_main_arg9 m c)),
    (((h c).2 main_arg10 (Pipeline.mem_restRefs_of main_arg10 rfl (by decide))).trans (V_main_arg10 m c)),
    (((h c).2 main_arg11 (Pipeline.mem_restRefs_of main_arg11 rfl (by decide))).trans (V_main_arg11 m c)),
    (((h c).2 main_arg12 (Pipeline.mem_restRefs_of main_arg12 rfl (by decide))).trans (V_main_arg12 m c)),
    (((h c).2 main_arg13 (Pipeline.mem_restRefs_of main_arg13 rfl (by decide))).trans (V_main_arg13 m c)),
    (((h c).2 main_arg14 (Pipeline.mem_restRefs_of main_arg14 rfl (by decide))).trans (V_main_arg14 m c)),
    (((h c).2 main_arg15 (Pipeline.mem_restRefs_of main_arg15 rfl (by decide))).trans (V_main_arg15 m c))⟩) (run_main m ρ)

end Cert.Kernel.Hand

end
-- ==== Proof.KernelIdealStep.lean ====
import proofs.«163085_j77309411697_2_alg».proof.Proof.Gen.KernelIdeal.Launch
import proofs.«163085_j77309411697_2_alg».proof.Proof.Gen.KernelIdeal.Skeleton
import proofs.«163085_j77309411697_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.LibWholeBlock

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What one grid point does to the running maximum and to the output block

The body at grid point `(b, j, i)` loads every staged block whole, resets the scratch accumulator to `-∞` when
`i = 0`, replaces it by its elementwise maximum with this tile's column maxima, and, when `i` is the last tile,
stores the two output heads' sum into the output block.  The two functions below are those two stores' values as
functions of the blocks' contents (`x0 … x16`, in the order of the kernel's operands: edge features, adjacency,
row-tile node features, column-tile node features, global features, then the six weight / bias pairs) and of what
the accumulator held. -/

/-- The condition of the first `pl.when`: the reduction coordinate is 0. -/
abbrev condFirst (i : grid0.Coords) : Prop :=
  (Scalar.cmpi .ne (Scalar.extui (Scalar.cmpi .eq (BitVec.ofNat 32 (i 2).val) 0#32)) 0#32) = 1#1

/-- The condition of the second `pl.when`: the reduction coordinate is the last one. -/
abbrev condLast (i : grid0.Coords) : Prop := k0_cond2 i = 1#1

/-- The accumulator after a point: the elementwise maximum of what it held (`acc`) and this tile's masked column maxima. -/
def accStep (x0 : Vec F S1x64x128x16 .f32) (x1 : Vec F S1x64x128 .f32) (x2 : Vec F S1x64x128 .f32) (x3 : Vec F S1x128x128 .f32)
    (x4 : Vec F S1x1x128 .f32) (x5 : Vec F S128x128 .bf16) (x6 : Vec F S1x128 .f32) (x7 : Vec F S128x128 .bf16) (x8 : Vec F S1x128 .f32)
    (x9 : Vec F S16x128 .bf16) (x10 : Vec F S1x128 .f32) (x11 : Vec F S128x128 .bf16) (x12 : Vec F S1x128 .f32)
    (acc : Vec F S128x128 .f32) : Vec F S128x128 .f32 :=
  k0_pay1 (k0_pay4 x0) (k0_pay5 x1) (k0_pay7 x4) (k0_pay8 x2 x7 x8) (k0_pay9 x3 x5) (k0_pay10 x6) x11 x12 x9 x10 acc

/-- The output block stored at the last reduction tile: the node head of the column tile plus the message head of the
    finished accumulator `acc`. -/
def outStep (x3 : Vec F S1x128x128 .f32) (x13 : Vec F S128x128 .bf16) (x14 : Vec F S1x128 .f32) (x15 : Vec F S128x128 .bf16)
    (x16 : Vec F S1x128 .f32) (acc : Vec F S128x128 .f32) : Vec F S1x128x128 .f32 :=
  k0_pay2 (k0_pay6 x3) x13 x14 acc x15 x16

theorem hz2 : (![0, 0] : Fin 2 → Nat) = fun _ => 0 := by funext a; fin_cases a <;> rfl
theorem hz3 : (![0, 0, 0] : Fin 3 → Nat) = fun _ => 0 := by funext a; fin_cases a <;> rfl
theorem hz4 : (![0, 0, 0, 0] : Fin 4 → Nat) = fun _ => 0 := by funext a; fin_cases a <;> rfl

/-- Opens the names a symbolic run of the body minted and reads every whole-block load, store and read-back as the
    value it denotes (the loads' contents, the stores' payloads). -/
macro "whole_blocks" : tactic => `(tactic| (
  (try sl_unfold_run_names);
  simp only [View.WholeBlock.read_writes_one (S := S128x128) _ _ hz2, View.WholeBlock.read_writes_last (S := S128x128) _ _ hz2,
      View.WholeBlock.read_writes_one (S := S1x128x128) _ _ hz3, View.WholeBlock.read_writes_last (S := S1x128x128) _ _ hz3,
      View.WholeBlock.readAt_unread (S := S128x128) _ _ hz2, View.WholeBlock.readAt_unread (S := S1x128) _ _ hz2, View.WholeBlock.readAt_unread (S := S16x128) _ _ hz2,
      View.WholeBlock.readAt_unread (S := S1x64x128) _ _ hz3, View.WholeBlock.readAt_unread (S := S1x128x128) _ _ hz3, View.WholeBlock.readAt_unread (S := S1x1x128) _ _ hz3,
      View.WholeBlock.readAt_unread (S := S1x64x128x16) _ _ hz4,
      View.readCov_unit_zero (S := S128x128) _ hz2, View.readCov_unit_zero (S := S1x128x128) _ hz3]))

end Cert.KernelIdeal.Hand

end
-- ==== Proof.KernelIdealData.lean ====
import proofs.«163085_j77309411697_2_alg».proof.Proof.Gen.KernelIdeal.Launch
import proofs.«163085_j77309411697_2_alg».proof.Proof.Gen.KernelIdeal.Skeleton
import proofs.«163085_j77309411697_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.KernelIdealStep
import proofs.«163085_j77309411697_2_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region

Thirteen host operations run before the region: six bias vectors and the global features are reshaped, six weight
matrices are converted to bf16.  `V` is what each TensorCore buffer holds when the region is entered. -/

/-- Core `c`'s buffer contents when the region is entered, as a valuation. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- The host operations before the region allocate nothing. -/
theorem hostOps0_fresh : (hostOps0 : List (HloOp τ sig (Elt F))).Forall fun op => op.fresh = ∅ := by
  simp only [List.Forall]; repeat' constructor

/-- @main is those operations, then the region, then the return. -/
theorem hmain : Pipeline.HMain (Ix := Unit) (Name := ℕ) (U := UR sig nD τ) (Lvl := ℕ) cfgs 0 defs₀ Variants.none m (main (F := F)) (V m) :=
  Pipeline.hmain_prefix cfgs 0 defs₀ Variants.none m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's current staging buffer holds its block at every point, fetched there or not (when it is not
fetched the block index has not moved), for any proof data whose array is `V`'s and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
theorem before_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
theorem before_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)
theorem before_16_of {c : Dev nD} (dat : Dat τ (Elt F) Unit ℕ (UR sig nD τ) ℕ cfg0 c) (hA : dat.A 16 = V m c (Pipeline.arrRef spec0 16))
    (hafter : ∀ t, dat.after 16 t = iblk m c 16 t) (t : Fin cfg0.N) (d) : dat.before 16 t d = iblk m c 16 t :=
  (dat.before_in_eq_fetched 16 rfl (fun _ => rfl) (fun _ _ _ => rfl) (fun t => by rw [hafter]; unfold Dat.blockOf iblk; rw [hA]; try rfl) t d).trans
    (by unfold Dat.fetched Dat.blockOf iblk; rw [hA]; try rfl)

/-! ## The branch conditions over the grid

The grid is (batch, column tile, row tile) = (2, 4, 8), the row tile fastest: point `t` has row-tile coordinate `t % 8`. -/

theorem hcondFirst : ∀ t : Fin cfg0.N, condFirst (grid0.coords t) ↔ t.val % 8 = 0 :=
  (by decide +kernel : ∀ t : Fin grid0.N, condFirst (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)
/-- The output window is idle at a point that is not the last row tile, and its block is not written back there. -/
theorem idle17 : ∀ t : Fin cfg0.N, ¬ condLast (grid0.coords t) → cfg0.idle 17 (grid0.coords t) = true := by decide +kernel
theorem noFlush17 : ∀ t : Fin cfg0.N, ¬ condLast (grid0.coords t) → (cfg0.win 17).flush t = false := by decide +kernel
/-- At the last row tile the body stores the output block. -/
theorem live17 : ∀ t : Fin cfg0.N, condLast (grid0.coords t) → cfg0.idle 17 (grid0.coords t) = false := by decide +kernel

/-! ## The accumulator, point by point -/

/-- Point `n` of the grid (a number below 64 is its own point). -/
def ptOf (n : ℕ) : Fin cfg0.N := ⟨n % 64, lt_of_lt_of_eq (Nat.mod_lt n (by decide)) N_0.symm⟩
theorem ptOf_val (t : Fin cfg0.N) : ptOf t.val = t := Fin.ext (Nat.mod_eq_of_lt (lt_of_lt_of_eq t.isLt N_0))

/-- The accumulator after point `t` if it held `acc` before the maximum was taken. -/
def stepAt (c : Dev nD) (t : Fin cfg0.N) (acc : Vec F S128x128 .f32) : Vec F S128x128 .f32 :=
  accStep (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) acc

/-- What the scratch accumulator holds after point `n`: reset to `-∞` at each first row tile, else carried. -/
def accAt (c : Dev nD) : ℕ → Vec F S128x128 .f32
  | 0 => stepAt m c (ptOf 0) (k0_pay3 (F := F))
  | n + 1 => stepAt m c (ptOf (n + 1)) (if (n + 1) % 8 = 0 then (k0_pay3 (F := F)) else accAt c n)

theorem accAt_first (c : Dev nD) (t : Fin cfg0.N) (h : t.val % 8 = 0) : accAt m c t.val = stepAt m c t (k0_pay3 (F := F)) := by
  obtain ⟨n, hn⟩ := t
  cases n with
  | zero => show stepAt m c (ptOf 0) _ = _; rw [show ptOf 0 = (⟨0, hn⟩ : Fin cfg0.N) from ptOf_val ⟨0, hn⟩]
  | succ n =>
    show stepAt m c (ptOf (n + 1)) (if (n + 1) % 8 = 0 then _ else _) = _
    rw [if_pos h, show ptOf (n + 1) = (⟨n + 1, hn⟩ : Fin cfg0.N) from ptOf_val ⟨n + 1, hn⟩]

theorem accAt_next (c : Dev nD) (t : Fin cfg0.N) (h : ¬ t.val % 8 = 0) : accAt m c t.val = stepAt m c t (accAt m c (t.val - 1)) := by
  obtain ⟨n, hn⟩ := t
  cases n with
  | zero => exact absurd (Nat.zero_mod _) h
  | succ n =>
    show stepAt m c (ptOf (n + 1)) (if (n + 1) % 8 = 0 then _ else _) = _
    rw [if_neg h, show ptOf (n + 1) = (⟨n + 1, hn⟩ : Fin cfg0.N) from ptOf_val ⟨n + 1, hn⟩]
    rfl

/-- The output block the last row tile of `t`'s group stores (read only where `t` is such a point). -/
def outAt (c : Dev nD) (t : Fin cfg0.N) : Vec F S1x128x128 .f32 :=
  outStep (iblk m c 3 t) (iblk m c 13 t) (iblk m c 14 t) (iblk m c 15 t) (iblk m c 16 t) (accAt m c t.val)

/-! ## The invariant: the scratch accumulator -/

/-- The scratch operand, a whole scoped buffer of the kernel's own. -/
abbrev scM : Memref sig .tc .vmem S128x128 .f32 := Memref.whole cc0_scratch0

/-- Before the first point the scratch holds anything; before point `n + 1` it holds what point `n` left. -/
def PhiS (c : Dev nD) : ℕ → sProp 𝕄
  | 0 => Pipeline.scopedRest (Ix := Unit) (Name := ℕ) (U := UR sig nD τ) (Lvl := ℕ) (Val := Elt F) spec0 c
  | n + 1 => owns (c : Thread nD τ) scM fullShare (accAt m c n)

theorem scopedRest_owns (c : Dev nD) :
    (Pipeline.scopedRest (Ix := Unit) (Name := ℕ) (U := UR sig nD τ) (Lvl := ℕ) (Val := Elt F) spec0 c : sProp 𝕄)
      = iprop(∃ d, owns (c : Thread nD τ) scM fullShare d) := by
  rw [scopedRest0_eq]; simp only [scM, owns_whole]; rfl

theorem PhiS_pos (c : Dev nD) (n : ℕ) (hz : n ≠ 0) : PhiS m c n = owns (c : Thread nD τ) scM fullShare (accAt m c (n - 1)) := by
  cases n with
  | zero => exact absurd rfl hz
  | succ n => rfl

/-- Whatever the point, the invariant yields the scratch at some contents. -/
theorem PhiS_any (c : Dev nD) (n : ℕ) : PhiS m c n ⊢ iprop(∃ d, owns (c : Thread nD τ) scM fullShare d) := by
  cases n with
  | zero => show (Pipeline.scopedRest spec0 c : sProp 𝕄) ⊢ _; rw [scopedRest_owns]
  | succ n => show owns (c : Thread nD τ) scM fullShare (accAt m c n) ⊢ _; iintro H; iexists _; iexact H

/-! ## The proof data -/

/-- The arrays as the region finds them; after the body each input's buffer at its block and the output's at the block
    the last row tile stores; the invariant the accumulator's; nothing owed; the node features, read through two windows
    (row tile and column tile), held half and half, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨_ + 18, h⟩ => absurd h (Nat.not_lt.2 (Nat.le_add_left _ _))
  Φ t := PhiS m c t.val
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨_ + 18, h⟩ => absurd h (Nat.not_lt.2 (Nat.le_add_left _ _))
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_16 (c : Dev nD) (t : Fin cfg0.N) : (dats m 0 c).after 16 t = iblk m c 16 t := by dsimp only [dats]
theorem after_17 (c : Dev nD) (t : Fin cfg0.N) : (dats m 0 c).after 17 t = outAt m c t := by dsimp only [dats]

theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d
theorem before_5 (c : Dev nD) (t : Fin cfg0.N) (d) : (dats m 0 c).before 5 t d = iblk m c 5 t :=
  before_5_of m (dats m 0 c) (A_eq m c 5) (after_5 m c) t d
theorem before_6 (c : Dev nD) (t : Fin cfg0.N) (d) : (dats m 0 c).before 6 t d = iblk m c 6 t :=
  before_6_of m (dats m 0 c) (A_eq m c 6) (after_6 m c) t d
theorem before_7 (c : Dev nD) (t : Fin cfg0.N) (d) : (dats m 0 c).before 7 t d = iblk m c 7 t :=
  before_7_of m (dats m 0 c) (A_eq m c 7) (after_7 m c) t d
theorem before_8 (c : Dev nD) (t : Fin cfg0.N) (d) : (dats m 0 c).before 8 t d = iblk m c 8 t :=
  before_8_of m (dats m 0 c) (A_eq m c 8) (after_8 m c) t d
theorem before_9 (c : Dev nD) (t : Fin cfg0.N) (d) : (dats m 0 c).before 9 t d = iblk m c 9 t :=
  before_9_of m (dats m 0 c) (A_eq m c 9) (after_9 m c) t d
theorem before_10 (c : Dev nD) (t : Fin cfg0.N) (d) : (dats m 0 c).before 10 t d = iblk m c 10 t :=
  before_10_of m (dats m 0 c) (A_eq m c 10) (after_10 m c) t d
theorem before_11 (c : Dev nD) (t : Fin cfg0.N) (d) : (dats m 0 c).before 11 t d = iblk m c 11 t :=
  before_11_of m (dats m 0 c) (A_eq m c 11) (after_11 m c) t d
theorem before_12 (c : Dev nD) (t : Fin cfg0.N) (d) : (dats m 0 c).before 12 t d = iblk m c 12 t :=
  before_12_of m (dats m 0 c) (A_eq m c 12) (after_12 m c) t d
theorem before_13 (c : Dev nD) (t : Fin cfg0.N) (d) : (dats m 0 c).before 13 t d = iblk m c 13 t :=
  before_13_of m (dats m 0 c) (A_eq m c 13) (after_13 m c) t d
theorem before_14 (c : Dev nD) (t : Fin cfg0.N) (d) : (dats m 0 c).before 14 t d = iblk m c 14 t :=
  before_14_of m (dats m 0 c) (A_eq m c 14) (after_14 m c) t d
theorem before_15 (c : Dev nD) (t : Fin cfg0.N) (d) : (dats m 0 c).before 15 t d = iblk m c 15 t :=
  before_15_of m (dats m 0 c) (A_eq m c 15) (after_15 m c) t d
theorem before_16 (c : Dev nD) (t : Fin cfg0.N) (d) : (dats m 0 c).before 16 t d = iblk m c 16 t :=
  before_16_of m (dats m 0 c) (A_eq m c 16) (after_16 m c) t d

theorem leaves_0 (c : Dev nD) (t : Fin cfg0.N) :
    (dats m 0 c).leavesExact 0 t = owns (c : Thread nD τ) (st0_0 t) fullShare (iblk m c 0 t) := by
  unfold Dat.leavesExact; rw [show cfg0.idle 0 (cfg0.grid.coords t) = false from rfl, after_0]
theorem leaves_1 (c : Dev nD) (t : Fin cfg0.N) :
    (dats m 0 c).leavesExact 1 t = owns (c : Thread nD τ) (st0_1 t) fullShare (iblk m c 1 t) := by
  unfold Dat.leavesExact; rw [show cfg0.idle 1 (cfg0.grid.coords t) = false from rfl, after_1]
theorem leaves_2 (c : Dev nD) (t : Fin cfg0.N) :
    (dats m 0 c).leavesExact 2 t = owns (c : Thread nD τ) (st0_2 t) fullShare (iblk m c 2 t) := by
  unfold Dat.leavesExact; rw [show cfg0.idle 2 (cfg0.grid.coords t) = false from rfl, after_2]
theorem leaves_3 (c : Dev nD) (t : Fin cfg0.N) :
    (dats m 0 c).leavesExact 3 t = owns (c : Thread nD τ) (st0_3 t) fullShare (iblk m c 3 t) := by
  unfold Dat.leavesExact; rw [show cfg0.idle 3 (cfg0.grid.coords t) = false from rfl, after_3]
theorem leaves_4 (c : Dev nD) (t : Fin cfg0.N) :
    (dats m 0 c).leavesExact 4 t = owns (c : Thread nD τ) (st0_4 t) fullShare (iblk m c 4 t) := by
  unfold Dat.leavesExact; rw [show cfg0.idle 4 (cfg0.grid.coords t) = false from rfl, after_4]
theorem leaves_5 (c : Dev nD) (t : Fin cfg0.N) :
    (dats m 0 c).leavesExact 5 t = owns (c : Thread nD τ) (st0_5 t) fullShare (iblk m c 5 t) := by
  unfold Dat.leavesExact; rw [show cfg0.idle 5 (cfg0.grid.coords t) = false from rfl, after_5]
theorem leaves_6 (c : Dev nD) (t : Fin cfg0.N) :
    (dats m 0 c).leavesExact 6 t = owns (c : Thread nD τ) (st0_6 t) fullShare (iblk m c 6 t) := by
  unfold Dat.leavesExact; rw [show cfg0.idle 6 (cfg0.grid.coords t) = false from rfl, after_6]
theorem leaves_7 (c : Dev nD) (t : Fin cfg0.N) :
    (dats m 0 c).leavesExact 7 t = owns (c : Thread nD τ) (st0_7 t) fullShare (iblk m c 7 t) := by
  unfold Dat.leavesExact; rw [show cfg0.idle 7 (cfg0.grid.coords t) = false from rfl, after_7]
theorem leaves_8 (c : Dev nD) (t : Fin cfg0.N) :
    (dats m 0 c).leavesExact 8 t = owns (c : Thread nD τ) (st0_8 t) fullShare (iblk m c 8 t) := by
  unfold Dat.leavesExact; rw [show cfg0.idle 8 (cfg0.grid.coords t) = false from rfl, after_8]
theorem leaves_9 (c : Dev nD) (t : Fin cfg0.N) :
    (dats m 0 c).leavesExact 9 t = owns (c : Thread nD τ) (st0_9 t) fullShare (iblk m c 9 t) := by
  unfold Dat.leavesExact; rw [show cfg0.idle 9 (cfg0.grid.coords t) = false from rfl, after_9]
theorem leaves_10 (c : Dev nD) (t : Fin cfg0.N) :
    (dats m 0 c).leavesExact 10 t = owns (c : Thread nD τ) (st0_10 t) fullShare (iblk m c 10 t) := by
  unfold Dat.leavesExact; rw [show cfg0.idle 10 (cfg0.grid.coords t) = false from rfl, after_10]
theorem leaves_11 (c : Dev nD) (t : Fin cfg0.N) :
    (dats m 0 c).leavesExact 11 t = owns (c : Thread nD τ) (st0_11 t) fullShare (iblk m c 11 t) := by
  unfold Dat.leavesExact; rw [show cfg0.idle 11 (cfg0.grid.coords t) = false from rfl, after_11]
theorem leaves_12 (c : Dev nD) (t : Fin cfg0.N) :
    (dats m 0 c).leavesExact 12 t = owns (c : Thread nD τ) (st0_12 t) fullShare (iblk m c 12 t) := by
  unfold Dat.leavesExact; rw [show cfg0.idle 12 (cfg0.grid.coords t) = false from rfl, after_12]
theorem leaves_13 (c : Dev nD) (t : Fin cfg0.N) :
    (dats m 0 c).leavesExact 13 t = owns (c : Thread nD τ) (st0_13 t) fullShare (iblk m c 13 t) := by
  unfold Dat.leavesExact; rw [show cfg0.idle 13 (cfg0.grid.coords t) = false from rfl, after_13]
theorem leaves_14 (c : Dev nD) (t : Fin cfg0.N) :
    (dats m 0 c).leavesExact 14 t = owns (c : Thread nD τ) (st0_14 t) fullShare (iblk m c 14 t) := by
  unfold Dat.leavesExact; rw [show cfg0.idle 14 (cfg0.grid.coords t) = false from rfl, after_14]
theorem leaves_15 (c : Dev nD) (t : Fin cfg0.N) :
    (dats m 0 c).leavesExact 15 t = owns (c : Thread nD τ) (st0_15 t) fullShare (iblk m c 15 t) := by
  unfold Dat.leavesExact; rw [show cfg0.idle 15 (cfg0.grid.coords t) = false from rfl, after_15]
theorem leaves_16 (c : Dev nD) (t : Fin cfg0.N) :
    (dats m 0 c).leavesExact 16 t = owns (c : Thread nD τ) (st0_16 t) fullShare (iblk m c 16 t) := by
  unfold Dat.leavesExact; rw [show cfg0.idle 16 (cfg0.grid.coords t) = false from rfl, after_16]

end Cert.KernelIdeal.Hand

end
-- ==== Proof.KernelIdealRunFirst.lean ====
import proofs.«163085_j77309411697_2_alg».proof.Proof.Gen.KernelIdeal.Launch
import proofs.«163085_j77309411697_2_alg».proof.Proof.Gen.KernelIdeal.Skeleton
import proofs.«163085_j77309411697_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.KernelIdealStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the first reduction tile: whatever the accumulator held, it is reset to -∞ and then replaced by this tile's column maxima. -/
theorem run_first (c : Dev nD) (i : grid0.Coords) (arg3 : Memref sig .tc .vmem S1x64x128x16 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S16x128 .bf16) (harg12 : arg12.IsWhole) (arg13 : Memref sig .tc .vmem S1x128 .f32) (harg13 : arg13.IsWhole) (arg14 : Memref sig .tc .vmem S128x128 .bf16) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128x128 .f32) (harg20 : arg20.IsWhole) (arg21 : Memref sig .tc .vmem S128x128 .f32) (harg21 : arg21.IsWhole)
    (h1 : condFirst i) (h2 : ¬ condLast i)
    (x0 : Vec F S1x64x128x16 .f32) (x1 : Vec F S1x64x128 .f32) (x2 : Vec F S1x64x128 .f32) (x3 : Vec F S1x128x128 .f32) (x4 : Vec F S1x1x128 .f32) (x5 : Vec F S128x128 .bf16) (x6 : Vec F S1x128 .f32) (x7 : Vec F S128x128 .bf16) (x8 : Vec F S1x128 .f32) (x9 : Vec F S16x128 .bf16) (x10 : Vec F S1x128 .f32) (x11 : Vec F S128x128 .bf16) (x12 : Vec F S1x128 .f32) (x13 : Vec F S128x128 .bf16) (x14 : Vec F S1x128 .f32) (x15 : Vec F S128x128 .bf16) (x16 : Vec F S1x128 .f32) (xs : Vec F S128x128 .f32) (xo : Vec F S1x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare xo ∗ (∃ d, owns (c : Thread nD τ) arg21 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare xo ∗ owns (c : Thread nD τ) arg21 fullShare (accStep x0 x1 x2 x3 x4 x5 x6 x7 x8 x9 x10 x11 x12 (k0_pay3 (F := F)))) -∗ K ⟨⟩))
      ⊢ wp frame (wpE (defs₀ (F := F)) Variants.none c none) E (cc0__mpnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mpnn_kernel_eq_skeleton]; unfold cc0__mpnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fo, %hfo, Ho⟩, ⟨%ds, %fs, -, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
  obtain rfl := harg20.eq_unread hfo
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [Ho]
  · iexists _; isplitr; · ipureintro; exact harg20.read_unread _
    iexact Ho
  iexists _; isplitr
  swap; · iexact HS
  ipureintro
  whole_blocks
  rfl

end Cert.KernelIdeal.Hand

end
-- ==== Proof.KernelIdealRunMid.lean ====
import proofs.«163085_j77309411697_2_alg».proof.Proof.Gen.KernelIdeal.Launch
import proofs.«163085_j77309411697_2_alg».proof.Proof.Gen.KernelIdeal.Skeleton
import proofs.«163085_j77309411697_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.KernelIdealStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At a point that is neither the first nor the last reduction tile: the blocks are handed back as found, the output buffer untouched, the accumulator replaced by its maximum with this tile's column maxima. -/
theorem run_mid (c : Dev nD) (i : grid0.Coords) (arg3 : Memref sig .tc .vmem S1x64x128x16 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S16x128 .bf16) (harg12 : arg12.IsWhole) (arg13 : Memref sig .tc .vmem S1x128 .f32) (harg13 : arg13.IsWhole) (arg14 : Memref sig .tc .vmem S128x128 .bf16) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128x128 .f32) (harg20 : arg20.IsWhole) (arg21 : Memref sig .tc .vmem S128x128 .f32) (harg21 : arg21.IsWhole)
    (h1 : ¬ condFirst i) (h2 : ¬ condLast i)
    (x0 : Vec F S1x64x128x16 .f32) (x1 : Vec F S1x64x128 .f32) (x2 : Vec F S1x64x128 .f32) (x3 : Vec F S1x128x128 .f32) (x4 : Vec F S1x1x128 .f32) (x5 : Vec F S128x128 .bf16) (x6 : Vec F S1x128 .f32) (x7 : Vec F S128x128 .bf16) (x8 : Vec F S1x128 .f32) (x9 : Vec F S16x128 .bf16) (x10 : Vec F S1x128 .f32) (x11 : Vec F S128x128 .bf16) (x12 : Vec F S1x128 .f32) (x13 : Vec F S128x128 .bf16) (x14 : Vec F S1x128 .f32) (x15 : Vec F S128x128 .bf16) (x16 : Vec F S1x128 .f32) (xs : Vec F S128x128 .f32) (xo : Vec F S1x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare xo ∗ owns (c : Thread nD τ) arg21 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare xo ∗ owns (c : Thread nD τ) arg21 fullShare (accStep x0 x1 x2 x3 x4 x5 x6 x7 x8 x9 x10 x11 x12 xs)) -∗ K ⟨⟩))
      ⊢ wp frame (wpE (defs₀ (F := F)) Variants.none c none) E (cc0__mpnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mpnn_kernel_eq_skeleton]; unfold cc0__mpnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fo, %hfo, Ho⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
  obtain rfl := harg20.eq_unread hfo; obtain rfl := harg21.eq_unread hfs
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [Ho]
  · iexists _; isplitr; · ipureintro; exact harg20.read_unread _
    iexact Ho
  iexists _; isplitr
  swap; · iexact HS
  ipureintro
  whole_blocks
  rfl

end Cert.KernelIdeal.Hand

end
-- ==== Proof.KernelIdealRunLast.lean ====
import proofs.«163085_j77309411697_2_alg».proof.Proof.Gen.KernelIdeal.Launch
import proofs.«163085_j77309411697_2_alg».proof.Proof.Gen.KernelIdeal.Skeleton
import proofs.«163085_j77309411697_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.KernelIdealStep

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- At the last reduction tile: the accumulator takes its final maximum, and the output buffer, whatever it held, is stored whole with the two heads' sum. -/
theorem run_last (c : Dev nD) (i : grid0.Coords) (arg3 : Memref sig .tc .vmem S1x64x128x16 .f32) (harg3 : arg3.IsWhole) (arg4 : Memref sig .tc .vmem S1x64x128 .f32) (harg4 : arg4.IsWhole) (arg5 : Memref sig .tc .vmem S1x64x128 .f32) (harg5 : arg5.IsWhole) (arg6 : Memref sig .tc .vmem S1x128x128 .f32) (harg6 : arg6.IsWhole) (arg7 : Memref sig .tc .vmem S1x1x128 .f32) (harg7 : arg7.IsWhole) (arg8 : Memref sig .tc .vmem S128x128 .bf16) (harg8 : arg8.IsWhole) (arg9 : Memref sig .tc .vmem S1x128 .f32) (harg9 : arg9.IsWhole) (arg10 : Memref sig .tc .vmem S128x128 .bf16) (harg10 : arg10.IsWhole) (arg11 : Memref sig .tc .vmem S1x128 .f32) (harg11 : arg11.IsWhole) (arg12 : Memref sig .tc .vmem S16x128 .bf16) (harg12 : arg12.IsWhole) (arg13 : Memref sig .tc .vmem S1x128 .f32) (harg13 : arg13.IsWhole) (arg14 : Memref sig .tc .vmem S128x128 .bf16) (harg14 : arg14.IsWhole) (arg15 : Memref sig .tc .vmem S1x128 .f32) (harg15 : arg15.IsWhole) (arg16 : Memref sig .tc .vmem S128x128 .bf16) (harg16 : arg16.IsWhole) (arg17 : Memref sig .tc .vmem S1x128 .f32) (harg17 : arg17.IsWhole) (arg18 : Memref sig .tc .vmem S128x128 .bf16) (harg18 : arg18.IsWhole) (arg19 : Memref sig .tc .vmem S1x128 .f32) (harg19 : arg19.IsWhole) (arg20 : Memref sig .tc .vmem S1x128x128 .f32) (harg20 : arg20.IsWhole) (arg21 : Memref sig .tc .vmem S128x128 .f32) (harg21 : arg21.IsWhole)
    (h1 : ¬ condFirst i) (h2 : condLast i)
    (x0 : Vec F S1x64x128x16 .f32) (x1 : Vec F S1x64x128 .f32) (x2 : Vec F S1x64x128 .f32) (x3 : Vec F S1x128x128 .f32) (x4 : Vec F S1x1x128 .f32) (x5 : Vec F S128x128 .bf16) (x6 : Vec F S1x128 .f32) (x7 : Vec F S128x128 .bf16) (x8 : Vec F S1x128 .f32) (x9 : Vec F S16x128 .bf16) (x10 : Vec F S1x128 .f32) (x11 : Vec F S128x128 .bf16) (x12 : Vec F S1x128 .f32) (x13 : Vec F S128x128 .bf16) (x14 : Vec F S1x128 .f32) (x15 : Vec F S128x128 .bf16) (x16 : Vec F S1x128 .f32) (xs : Vec F S128x128 .f32) (xo : Vec F S1x128x128 .f32) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ (∃ d, owns (c : Thread nD τ) arg20 fullShare d) ∗ owns (c : Thread nD τ) arg21 fullShare xs
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare x15 ∗ owns (c : Thread nD τ) arg19 fullShare x16 ∗ owns (c : Thread nD τ) arg20 fullShare (outStep x3 x13 x14 x15 x16 (accStep x0 x1 x2 x3 x4 x5 x6 x7 x8 x9 x10 x11 x12 xs)) ∗ owns (c : Thread nD τ) arg21 fullShare (accStep x0 x1 x2 x3 x4 x5 x6 x7 x8 x9 x10 x11 x12 xs)) -∗ K ⟨⟩))
      ⊢ wp frame (wpE (defs₀ (F := F)) Variants.none c none) E (cc0__mpnn_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0__mpnn_kernel_eq_skeleton]; unfold cc0__mpnn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d0, %fo, -, Ho⟩, ⟨%fs, %hfs, HS⟩, Hk⟩
  obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
  obtain rfl := harg21.eq_unread hfs
  sl_exec (disch := first | exact h1 | exact h2)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr; · ipureintro; exact harg8.read_unread _
    iexact H5
  isplitl [H6]
  · iexists _; isplitr; · ipureintro; exact harg9.read_unread _
    iexact H6
  isplitl [H7]
  · iexists _; isplitr; · ipureintro; exact harg10.read_unread _
    iexact H7
  isplitl [H8]
  · iexists _; isplitr; · ipureintro; exact harg11.read_unread _
    iexact H8
  isplitl [H9]
  · iexists _; isplitr; · ipureintro; exact harg12.read_unread _
    iexact H9
  isplitl [H10]
  · iexists _; isplitr; · ipureintro; exact harg13.read_unread _
    iexact H10
  isplitl [H11]
  · iexists _; isplitr; · ipureintro; exact harg14.read_unread _
    iexact H11
  isplitl [H12]
  · iexists _; isplitr; · ipureintro; exact harg15.read_unread _
    iexact H12
  isplitl [H13]
  · iexists _; isplitr; · ipureintro; exact harg16.read_unread _
    iexact H13
  isplitl [H14]
  · iexists _; isplitr; · ipureintro; exact harg17.read_unread _
    iexact H14
  isplitl [H15]
  · iexists _; isplitr; · ipureintro; exact harg18.read_unread _
    iexact H15
  isplitl [H16]
  · iexists _; isplitr; · ipureintro; exact harg19.read_unread _
    iexact H16
  isplitl [Ho]
  · iexists _; isplitr
    swap; · iexact Ho
    ipureintro
    whole_blocks
    rfl
  iexists _; isplitr
  swap; · iexact HS
  ipureintro
  whole_blocks
  rfl

end Cert.KernelIdeal.Hand

end
-- ==== Proof.KernelIdealFrame.lean ====
import proofs.«163085_j77309411697_2_alg».proof.Proof.Gen.KernelIdeal.Launch
import proofs.«163085_j77309411697_2_alg».proof.Proof.Gen.KernelIdeal.Skeleton
import proofs.«163085_j77309411697_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import proofs.«163085_j77309411697_2_alg».proof.Proof.KernelIdealData
import proofs.«163085_j77309411697_2_alg».proof.Proof.KernelIdealRunFirst
import proofs.«163085_j77309411697_2_alg».proof.Proof.KernelIdealRunMid
import proofs.«163085_j77309411697_2_alg».proof.Proof.KernelIdealRunLast

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`: the invariant, nothing owed, every window's current buffer at what it then holds; -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t)

set_option maxHeartbeats 8000000 in
/-- The body at any point.  Every input buffer holds its block; the row-tile coordinate says which of the three runs
    applies; the invariant hands the body the accumulator at what the point before left (at anything at a first row
    tile, where it is reset) and takes it back at this point's maximum; the output buffer is handed back untouched
    except at the last row tile, where it is stored whole. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9, before_10, before_11, before_12, before_13, before_14, before_15, before_16, leaves_0, leaves_1, leaves_2, leaves_3, leaves_4, leaves_5, leaves_6, leaves_7, leaves_8, leaves_9, leaves_10, leaves_11, leaves_12, leaves_13, leaves_14, leaves_15, leaves_16]
  rw [show (dats m 0 c).owesAt () t.succ = (dats m 0 c).owesAt () t.castSucc from rfl]
  rw [show (dats m 0 c).Φ t.succ = owns (c : Thread nD τ) scM fullShare (accAt m c t.val) from rfl, Phi_castSucc]
  by_cases h0 : t.val % 8 = 0
  ·
    have hl : ¬ t.val % 8 = 7 := by omega
    have hcF : condFirst (grid0.coords t) := (hcondFirst t).mpr h0
    have hcL : ¬ condLast (grid0.coords t) := fun h => hl ((hcondLast t).mp h)
    rw [Dat.leavesExact_idle (dats m 0 c) 17 t (idle17 t hcL) (noFlush17 t hcL), accAt_first m c t h0]
    unfold stepAt
    iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    ihave HS' := (PhiS_any m c t.val) $$ HS
    iapply (run_first c (grid0.coords t) _ _ _ _ _ _ _ _ _ _ _ _ _ _ _ _ _ _ _ _ _ _ _ _ _ _ _ _ _ _ _ _ _ _ _ _ _ _ hcF hcL (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (k0_pay3 (F := F)) ((dats m 0 c).before 17 t d17) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [HS']; · iexact HS'
    iintro ⟨H0, H1, H2, H3, H4, H5, H6, H7, H8, H9, H10, H11, H12, H13, H14, H15, H16, H17, HS⟩
    isplitl [HS]; · iexact HS
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    iexists _; iexact H17
  · by_cases h7 : t.val % 8 = 7
    ·
      have hz : t.val ≠ 0 := fun e => h0 (by rw [e])
      have hcF : ¬ condFirst (grid0.coords t) := fun h => h0 ((hcondFirst t).mp h)
      have hcL : condLast (grid0.coords t) := (hcondLast t).mpr h7
      rw [show (dats m 0 c).leavesExact 17 t = owns (c : Thread nD τ) (st0_17 t) fullShare ((dats m 0 c).after 17 t) from by
        unfold Dat.leavesExact; rw [live17 t hcL], after_17]
      unfold outAt
      rw [accAt_next m c t h0, PhiS_pos m c _ hz]
      unfold stepAt
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (run_last c (grid0.coords t) _ _ _ _ _ _ _ _ _ _ _ _ _ _ _ _ _ _ _ _ _ _ _ _ _ _ _ _ _ _ _ _ _ _ _ _ _ _ hcF hcL (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (accAt m c (t.val - 1)) ((dats m 0 c).before 17 t d17) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexists _; iexact H17
      isplitl [HS]; · iexact HS
      iintro ⟨H0, H1, H2, H3, H4, H5, H6, H7, H8, H9, H10, H11, H12, H13, H14, H15, H16, H17, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexact H17
    ·
      have hz : t.val ≠ 0 := fun e => h0 (by rw [e])
      have hcF : ¬ condFirst (grid0.coords t) := fun h => h0 ((hcondFirst t).mp h)
      have hcL : ¬ condLast (grid0.coords t) := fun h => h7 ((hcondLast t).mp h)
      rw [Dat.leavesExact_idle (dats m 0 c) 17 t (idle17 t hcL) (noFlush17 t hcL), accAt_next m c t h0, PhiS_pos m c _ hz]
      unfold stepAt
      iintro ⟨HS, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
      iapply (run_mid c (grid0.coords t) _ _ _ _ _ _ _ _ _ _ _ _ _ _ _ _ _ _ _ _ _ _ _ _ _ _ _ _ _ _ _ _ _ _ _ _ _ _ hcF hcL (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (accAt m c (t.val - 1)) ((dats m 0 c).before 17 t d17) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [HS]; · iexact HS
      iintro ⟨H0, H1, H2, H3, H4, H5, H6, H7, H8, H9, H10, H11, H12, H13, H14, H15, H16, H17, HS⟩
      isplitl [HS]; · iexact HS
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      iexists _; iexact H17

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch: the node features' array dealt between its two windows -/

/-- Apart from the column-tile window of the node features, no two windows stage one array. -/
theorem arr_injOn : Set.InjOn (Pipeline.arrRef spec0) ((Finset.univ.erase (3 : Fin 18) : Finset (Fin 18)) : Set (Fin 18)) := by
  intro a ha b hb h
  have ha' : a ≠ 3 := (Finset.mem_erase.mp (Finset.mem_coe.mp ha)).1
  have hb' : b ≠ 3 := (Finset.mem_erase.mp (Finset.mem_coe.mp hb)).1
  exact (by decide : ∀ a b : Fin 18, a ≠ 3 → b ≠ 3 → Pipeline.arrRef spec0 a = Pipeline.arrRef spec0 b → a = b) a b ha' hb' h

theorem share_rest (c : Dev nD) : ∀ w : Fin 18, w ≠ 2 → w ≠ 3 → (dats m 0 c).share w = fullShare := by
  intro w h2 h3
  fin_cases w <;> first | rfl | exact absurd rfl h2 | exact absurd rfl h3

/-- The buffers behind the arrays, whole at the region-entry contents, make the proof data's arrays: the node features'
    buffer split half and half between its row-tile and column-tile windows. -/
theorem hsplit (c : Dev nD) : (Pipeline.arrBufs spec0 c (V m c) : sProp 𝕄) ⊢ (dats m 0 c).arrays ((dats m 0 c).arrAt · 0) :=
  Pipeline.SharedFrame.arrays_of_pair cfgs (dats m) (0 : Fin 1) c (2 : Fin 18) (3 : Fin 18) (by decide) rfl arr_injOn arr_whole0 rfl rfl
    (share_rest m c) (V m c) _ (fun w => A_eq m c w)

theorem hin (c : Dev nD) : (Pipeline.scopedRest spec0 c : sProp 𝕄) ⊢ (dats m 0 c).Φ 0 := by
  show _ ⊢ PhiS m c 0
  exact .rfl

theorem hout (c : Dev nD) : (dats m 0 c).Φ (Fin.last cfg0.N) ⊢ (Pipeline.scopedRest spec0 c : sProp 𝕄) := by
  rw [show (dats m 0 c).Φ (Fin.last cfg0.N) = PhiS m c (Fin.last cfg0.N).val from rfl, scopedRest_owns]
  exact PhiS_any m c _

/-! ## The run -/

set_option backward.isDefEq.respectTransparency.types false in
/-- Every weakly fair execution of @main on the TensorCores terminates, faulting nowhere, with every window's array at
    what the proof data compute and every other unscoped buffer as the region found it. -/
theorem run_main : θ_run defs (onTc (τ := τ) (main (F := F))) (s₀ m ρ) (Pipeline.FramePost cfgs (dats m) 0 (V m)) :=
  Pipeline.SharedFrame.θ_run_frame_shared_track cfgs (dats m) (0 : Fin 1) defs₀ Variants.none cellOf_inj winFacts₀0 block_pos0 arr_whole0 stage_whole0
    m ρ main (hbody := fun c => (body_obligation m c).loose) (howed := fun _ _ => rfl) (V := V m) (hmain := hmain m)
    (hsplit := hsplit m) (hin := hin m) (hout := hout m)

/-! ## The arguments end as launched -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.reshape_writes, Finset.mem_singleton]
    repeat' apply And.intro
    all_goals exact StableHlo.devRef_ne_of_ne (by decide)))
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.reshape_writes, Finset.mem_singleton]
    repeat' apply And.intro
    all_goals exact StableHlo.devRef_ne_of_ne (by decide)))

/-- The frame: the run ends with every argument array as it was launched — a staged input is never written, an array no
    window stages bypasses the region, and no host operation before the region writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨(((h c).1 2).trans (((dats m 0 c).arrAt_in 2 rfl _).trans ((A_eq m c 2).trans (V_main_arg0 m c)))),
    (((h c).1 0).trans (((dats m 0 c).arrAt_in 0 rfl _).trans ((A_eq m c 0).trans (V_main_arg1 m c)))),
    (((h c).2 main_arg2 (Pipeline.mem_restRefs_of main_arg2 rfl (by decide))).trans (V_main_arg2 m c)),
    (((h c).1 1).trans (((dats m 0 c).arrAt_in 1 rfl _).trans ((A_eq m c 1).trans (V_main_arg3 m c)))),
    (((h c).2 main_arg4 (Pipeline.mem_restRefs_of main_arg4 rfl (by decide))).trans (V_main_arg4 m c)),
    (((h c).2 main_arg5 (Pipeline.mem_restRefs_of main_arg5 rfl (by decide))).trans (V_main_arg5 m c)),
    (((h c).2 main_arg6 (Pipeline.mem_restRefs_of main_arg6 rfl (by decide))).trans (V_main_arg6 m c)),
    (((h c).2 main_arg7 (Pipeline.mem_restRefs_of main_arg7 rfl (by decide))).trans (V_main_arg7 m c)),
    (((h c).2 main_arg8 (Pipeline.mem_restRefs_of main_arg8 rfl (by decide))).trans (V_main_arg8 m c)),
    (((h c).2 main_arg9 (Pipeline.mem_restRefs_of main_arg9 rfl (by decide))).trans (V_main_arg9 m c)),
    (((h c).2 main_arg10 (Pipeline.mem_restRefs_of main_arg10 rfl (by decide))).trans (V_main_arg10 m c)),
    (((h c).2 main_arg11 (Pipeline.mem_restRefs_of main_arg11 rfl (by decide))).trans (V_main_arg11 m c)),
    (((h c).2 main_arg12 (Pipeline.mem_restRefs_of main_arg12 rfl (by decide))).trans (V_main_arg12 m c)),
    (((h c).2 main_arg13 (Pipeline.mem_restRefs_of main_arg13 rfl (by decide))).trans (V_main_arg13 m c)),
    (((h c).2 main_arg14 (Pipeline.mem_restRefs_of main_arg14 rfl (by decide))).trans (V_main_arg14 m c)),
    (((h c).2 main_arg15 (Pipeline.mem_restRefs_of main_arg15 rfl (by decide))).trans (V_main_arg15 m c))⟩) (run_main m ρ)

end Cert.KernelIdeal.Hand

end
-- ==== Proof.Spec.lean ====
/-
  The function both programs compute, on the extended reals.

  A message-passing layer over a dense graph: for batch `b`, receiving node `j` and channel `m`,

      msg₁[b,j,m]   = ∑_f feat[b,j,f]·W₁[f,m] + b₁[m]            (the receiver's projection)
      msg₂[b,i,m]   = ∑_f feat[b,i,f]·W₂[f,m] + b₂[m]            (the sender's projection)
      msgₑ[b,i,j,m] = ∑_k e[b,i,j,k]·Wₑ[k,m] + bₑ[m]             (the edge's projection)
      msg_g[b,m]    = ∑_k g[b,k]·W_g[k,m] + b_g[m]               (the graph's projection)
      masked[b,i,j,m] = (((msg₁ + msg₂) + msgₑ) + msg_g) · adj[b,i,j]
      msgs[b,j,m]   = sup_i masked[b,i,j,m]                       (over all 512 senders; the empty sup is -∞)
      out[b,j,o]    = (∑_f feat[b,j,f]·Wₒ₁[f,o] + bₒ₁[o]) + (∑_m msgs[b,j,m]·Wₒ₂[m,o] + bₒ₂[o]).

  Every sum is a finite sum in the commutative monoid of extended reals and the supremum is the lattice's, so the
  value depends neither on the order of a contraction nor on how the senders are tiled.
-/
import Idealize.ShloMosaic.PureOps.Ideal
import Idealize.ShloMosaic.Lib.ValueIdx

noncomputable section

namespace Cert.Spec

open Idealize.ShloMosaic Idealize.ShloMosaic.ValueIdx

/-- The sixteen argument arrays, as extended-real valued functions of their indices. -/
structure Args where
  feat : (⟨3, ![2, 512, 128]⟩ : Shape).Idx → EReal
  e : (⟨4, ![2, 512, 512, 16]⟩ : Shape).Idx → EReal
  g : (⟨2, ![2, 128]⟩ : Shape).Idx → EReal
  adj : (⟨3, ![2, 512, 512]⟩ : Shape).Idx → EReal
  W1 : (⟨2, ![128, 128]⟩ : Shape).Idx → EReal
  b1 : (⟨1, ![128]⟩ : Shape).Idx → EReal
  W2 : (⟨2, ![128, 128]⟩ : Shape).Idx → EReal
  b2 : (⟨1, ![128]⟩ : Shape).Idx → EReal
  We : (⟨2, ![16, 128]⟩ : Shape).Idx → EReal
  be : (⟨1, ![128]⟩ : Shape).Idx → EReal
  Wg : (⟨2, ![128, 128]⟩ : Shape).Idx → EReal
  bg : (⟨1, ![128]⟩ : Shape).Idx → EReal
  Wo1 : (⟨2, ![128, 128]⟩ : Shape).Idx → EReal
  bo1 : (⟨1, ![128]⟩ : Shape).Idx → EReal
  Wo2 : (⟨2, ![128, 128]⟩ : Shape).Idx → EReal
  bo2 : (⟨1, ![128]⟩ : Shape).Idx → EReal

variable (A : Args)

/-- The receiver's projection. -/
def msg1 (b : Fin 2) (j : Fin 512) (m : Fin 128) : EReal := (∑ f : Fin 128, A.feat (ix3 b j f) * A.W1 (ix2 f m)) + A.b1 (ix1 m)
/-- The sender's projection. -/
def msg2 (b : Fin 2) (i : Fin 512) (m : Fin 128) : EReal := (∑ f : Fin 128, A.feat (ix3 b i f) * A.W2 (ix2 f m)) + A.b2 (ix1 m)
/-- The edge's projection. -/
def msge (b : Fin 2) (i j : Fin 512) (m : Fin 128) : EReal := (∑ k : Fin 16, A.e (ix4 b i j k) * A.We (ix2 k m)) + A.be (ix1 m)
/-- The graph's projection. -/
def msgg (b : Fin 2) (m : Fin 128) : EReal := (∑ k : Fin 128, A.g (ix2 b k) * A.Wg (ix2 k m)) + A.bg (ix1 m)
/-- The message from sender `i` to receiver `j`, masked by the adjacency. -/
def masked (b : Fin 2) (i j : Fin 512) (m : Fin 128) : EReal :=
  (((msg1 A b j m + msg2 A b i m) + msge A b i j m) + msgg A b m) * A.adj (ix3 b i j)
/-- The receiver's aggregate: the supremum over every sender. -/
def msgs (b : Fin 2) (j : Fin 512) (m : Fin 128) : EReal := Finset.univ.sup fun i : Fin 512 => masked A b i j m
/-- The layer's output. -/
def out (b : Fin 2) (j : Fin 512) (o : Fin 128) : EReal :=
  ((∑ f : Fin 128, A.feat (ix3 b j f) * A.Wo1 (ix2 f o)) + A.bo1 (ix1 o))
    + ((∑ m : Fin 128, msgs A b j m * A.Wo2 (ix2 m o)) + A.bo2 (ix1 o))

/-- The output array. -/
def G : (⟨3, ![2, 512, 128]⟩ : Shape).Idx → EReal := fun i => out A (i 0) (i 1) (i 2)

theorem G_ix3 (b : Fin 2) (j : Fin 512) (o : Fin 128) : G A (ix3 b j o) = out A b j o := rfl

end Cert.Spec

end
-- ==== Proof.LibLayout3.lean ====
/-
  Rank-3 layout operations read at coordinates, for any extents: a broadcast along one unit axis of an [a, b, c]
  array, a unit axis inserted in the middle or at the end by a shape cast, the two leading axes merged or split by
  a shape cast (row-major: row `b·i + j` of the merged axis is the pair (i, j)), the index a reduction over the
  leading axis reads, and a fold of `max` from ⊥ over a finite type as a supremum.
-/
import Idealize.ShloMosaic.Lib.ValueIdx
import Idealize.ShloMosaic.Lib.ValueLayout
import Idealize.ShloMosaic.Lib.Pipeline.Value
import Idealize.ShloMosaic.PureOps.Reduce
import Idealize.ShloMosaic.PureOps.Ideal.Laws

namespace Idealize.ShloMosaic.ValueIdx.Layout3

open Idealize.ShloMosaic Idealize.ShloMosaic.ValueIdx

variable {α : Type}

/-- An `[a, 1, c]` array broadcast to `[a, b, c]` reads, at `(i, j, m)`, the operand at `(i, 0, m)`. -/
theorem broadcastTo_a1c_apply {a b c : ℕ} (v : (⟨3, ![a, 1, c]⟩ : Shape).Idx → α) (h : (⟨3, ![a, 1, c]⟩ : Shape).Broadcasts ⟨3, ![a, b, c]⟩)
    (i : Fin a) (j : Fin b) (m : Fin c) : broadcastTo ⟨3, ![a, b, c]⟩ v h (ix3 i j m) = v (ix3 i (0 : Fin 1) m) := by
  refine broadcastTo_apply v h (ix3 i j m) (ix3 i (0 : Fin 1) m) fun ax => ?_
  match ax with
  | ⟨0, _⟩ =>
    show i.val = if a = 1 then 0 else i.val
    split
    · have := i.isLt; omega
    · rfl
  | ⟨1, _⟩ => rfl
  | ⟨2, _⟩ =>
    show m.val = if c = 1 then 0 else m.val
    split
    · have := m.isLt; omega
    · rfl

/-- A `[1, b, c]` array broadcast to `[a, b, c]` reads, at `(i, j, m)`, the operand at `(0, j, m)`. -/
theorem broadcastTo_1bc_apply {a b c : ℕ} (v : (⟨3, ![1, b, c]⟩ : Shape).Idx → α) (h : (⟨3, ![1, b, c]⟩ : Shape).Broadcasts ⟨3, ![a, b, c]⟩)
    (i : Fin a) (j : Fin b) (m : Fin c) : broadcastTo ⟨3, ![a, b, c]⟩ v h (ix3 i j m) = v (ix3 (0 : Fin 1) j m) := by
  refine broadcastTo_apply v h (ix3 i j m) (ix3 (0 : Fin 1) j m) fun ax => ?_
  match ax with
  | ⟨0, _⟩ => rfl
  | ⟨1, _⟩ =>
    show j.val = if b = 1 then 0 else j.val
    split
    · have := j.isLt; omega
    · rfl
  | ⟨2, _⟩ =>
    show m.val = if c = 1 then 0 else m.val
    split
    · have := m.isLt; omega
    · rfl

/-- A `[1, 1, c]` array broadcast to `[a, b, c]` reads, at `(i, j, m)`, the operand at `(0, 0, m)`. -/
theorem broadcastTo_11c_apply {a b c : ℕ} (v : (⟨3, ![1, 1, c]⟩ : Shape).Idx → α) (h : (⟨3, ![1, 1, c]⟩ : Shape).Broadcasts ⟨3, ![a, b, c]⟩)
    (i : Fin a) (j : Fin b) (m : Fin c) : broadcastTo ⟨3, ![a, b, c]⟩ v h (ix3 i j m) = v (ix3 (0 : Fin 1) (0 : Fin 1) m) := by
  refine broadcastTo_apply v h (ix3 i j m) (ix3 (0 : Fin 1) (0 : Fin 1) m) fun ax => ?_
  match ax with
  | ⟨0, _⟩ => rfl
  | ⟨1, _⟩ => rfl
  | ⟨2, _⟩ =>
    show m.val = if c = 1 then 0 else m.val
    split
    · have := m.isLt; omega
    · rfl

/-- An `[a, b, 1]` array broadcast to `[a, b, c]` reads, at `(i, j, m)`, the operand at `(i, j, 0)`. -/
theorem broadcastTo_ab1_apply {a b c : ℕ} (v : (⟨3, ![a, b, 1]⟩ : Shape).Idx → α) (h : (⟨3, ![a, b, 1]⟩ : Shape).Broadcasts ⟨3, ![a, b, c]⟩)
    (i : Fin a) (j : Fin b) (m : Fin c) : broadcastTo ⟨3, ![a, b, c]⟩ v h (ix3 i j m) = v (ix3 i j (0 : Fin 1)) := by
  refine broadcastTo_apply v h (ix3 i j m) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, c]` array cast to `[a, 1, c]` reads, at `(i, u, m)`, the operand at `(i, m)`. -/
theorem shapeCast_ac_a1c_apply {a c : ℕ} (x : (⟨2, ![a, c]⟩ : Shape).Idx → α) (h : (⟨2, ![a, c]⟩ : Shape).ShapeCasts ⟨3, ![a, 1, c]⟩)
    (i : Fin a) (u : Fin 1) (m : Fin c) : shapeCast ⟨3, ![a, 1, c]⟩ x h (ix3 i u m) = x (ix2 i m) :=
  shapeCast_apply x h _ _ (by
    have hu : u.val = 0 := by omega
    rw [Shape.rowMajor_val_three, Shape.rowMajor_val_two]
    show i.val * c + m.val = (i.val * 1 + u.val) * c + m.val
    rw [hu, Nat.mul_one, Nat.add_zero])

/-- An `[a, b]` array cast to `[a, b, 1]` reads, at `(i, j, u)`, the operand at `(i, j)`. -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- Row `b·i + j` of the merged axis. -/
def row {a b : ℕ} (n : ℕ) (hn : n = a * b) (i : Fin a) (j : Fin b) : Fin n :=
  ⟨i.val * b + j.val, by
    subst hn
    calc i.val * b + j.val < i.val * b + b := Nat.add_lt_add_left j.isLt _
      _ = (i.val + 1) * b := (Nat.succ_mul _ _).symm
      _ ≤ a * b := Nat.mul_le_mul_right _ i.isLt⟩

/-- An `[n, c]` array with `n = a·b` cast to `[a, b, c]` reads, at `(i, j, m)`, the operand at row `b·i + j`. -/
theorem shapeCast_split_apply {a b c n : ℕ} (hn : n = a * b) (x : (⟨2, ![n, c]⟩ : Shape).Idx → α) (h : (⟨2, ![n, c]⟩ : Shape).ShapeCasts ⟨3, ![a, b, c]⟩)
    (i : Fin a) (j : Fin b) (m : Fin c) : shapeCast ⟨3, ![a, b, c]⟩ x h (ix3 i j m) = x (ix2 (row n hn i j) m) :=
  shapeCast_apply x h _ _ (by
    rw [Shape.rowMajor_val_three, Shape.rowMajor_val_two]
    rfl)

/-- An `[a, b, c]` array cast to `[n, c]` with `n = a·b` reads, at row `b·i + j`, the operand at `(i, j, ·)`. -/
theorem shapeCast_merge_apply {a b c n : ℕ} (hn : n = a * b) (x : (⟨3, ![a, b, c]⟩ : Shape).Idx → α) (h : (⟨3, ![a, b, c]⟩ : Shape).ShapeCasts ⟨2, ![n, c]⟩)
    (i : Fin a) (j : Fin b) (m : Fin c) : shapeCast ⟨2, ![n, c]⟩ x h (ix2 (row n hn i j) m) = x (ix3 i j m) :=
  shapeCast_apply x h _ _ (by
    rw [Shape.rowMajor_val_three, Shape.rowMajor_val_two]
    rfl)

/-- The source index of a reduction of an `[a, b, c]` array over its leading axis, over result index `(j, m)`, at
    coordinate `k` of the reduced axis, is `(k, j, m)`. -/
theorem lift_axis0 {a b c : ℕ} (h : (⟨3, ![a, b, c]⟩ : Shape).Reduces [(0 : Fin 3)] ⟨2, ![b, c]⟩) (j : Fin b) (m : Fin c) (k : Fin a) :
    h.lift (ix2 j m) k = ix3 k j m := by
  funext d
  apply Fin.ext
  show h.liftVal (ix2 j m) k.val d = (ix3 k j m d).val
  match d with
  | ⟨0, _⟩ => simp [Shape.Reduces.liftVal]
  | ⟨1, _⟩ => simp [Shape.Reduces.liftVal]
  | ⟨2, _⟩ => simp [Shape.Reduces.liftVal]

/-- A fold of `max` from ⊥ over a finite set is the supremum. -/
theorem fold_max_bot_eq_sup {β ι : Type} [LinearOrder β] [OrderBot β] (s : Finset ι) (f : ι → β) :
    s.fold max ⊥ f = s.sup f := by
  classical
  induction s using Finset.induction_on with
  | empty => simp
  | insert a s ha ih => rw [Finset.fold_insert ha, Finset.sup_insert, ih]

/-- The float pattern of -∞ denotes the bottom of the extended reals. -/
theorem ofBits_neg_inf_f32 : (FloatOps.ofBits (F := Ideal) .f32 0xFF800000#32 : EReal) = ⊥ := by
  show Ideal.ofBits .f32 0xFF800000#32 = ⊥
  simp [Ideal.ofBits, Ideal.ieee]

/-- A maximum-reduction of an `[a, b, c]` array over its leading axis from -∞, on the extended reals, is at `(j, m)` the
    supremum over the leading coordinate. -/
theorem colmax_apply {a b c : ℕ} (src : FVec Ideal ⟨3, ![a, b, c]⟩ .f32)
    (h : (⟨3, ![a, b, c]⟩ : Shape).Reduces [(0 : Fin 3)] ⟨2, ![b, c]⟩) (hφ : FKind.Formats .f32)
    (hacc : (0xFF800000#32 : BitVec 32) = FKind.maximumf.neutral .f32 hφ) (j : Fin b) (m : Fin c) :
    multiReduction .maximumf [(0 : Fin 3)] ⟨2, ![b, c]⟩ src 0xFF800000#32 h hφ hacc (ix2 j m)
      = Finset.univ.sup fun k : Fin a => src (ix3 k j m) := by
  refine (Ideal.multiReduction_maximumf_single src _ h hφ hacc (ix2 j m)).trans ?_
  rw [ofBits_neg_inf_f32, fold_max_bot_eq_sup]
  refine congrArg (Finset.sup Finset.univ) (funext fun k => ?_)
  exact congrArg src (lift_axis0 h j m k)

end Idealize.ShloMosaic.ValueIdx.Layout3
-- ==== Proof.KernelIdealBlocks.lean ====
import proofs.«163085_j77309411697_2_alg».proof.Proof.Gen.KernelIdeal.Launch
import proofs.«163085_j77309411697_2_alg».proof.Proof.Gen.KernelIdeal.Skeleton
import proofs.«163085_j77309411697_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.Lib.StableHlo.Run
import proofs.«163085_j77309411697_2_alg».proof.Proof.KernelIdealFrame
import proofs.«163085_j77309411697_2_alg».proof.Proof.Spec
import proofs.«163085_j77309411697_2_alg».proof.Proof.LibLayout3

set_option maxRecDepth 16384

noncomputable section

namespace Cert.KernelIdeal.Blocks

open Cert.KernelIdeal Cert.KernelIdeal.Gen Cert.KernelIdeal.Hand
open Idealize.ShloMosaic.ValueIdx Idealize.ShloMosaic.ValueIdx.Layout3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The blocks the body loads, as entries of the argument arrays

Point `t` of the grid (2 batches × 4 column tiles × 8 row tiles, the row tile fastest) stages rows
`64·(t mod 8) …` of the senders and columns `128·(t / 8 mod 4) …` of the receivers of batch `t / 32`. -/

/-- The argument arrays of core `c`, as launched. -/
def args (c : Dev nD) : Cert.Spec.Args :=
  ⟨m ((c : Thread nD τ).loc main_arg0), m ((c : Thread nD τ).loc main_arg1), m ((c : Thread nD τ).loc main_arg2), m ((c : Thread nD τ).loc main_arg3),
   m ((c : Thread nD τ).loc main_arg4), m ((c : Thread nD τ).loc main_arg5), m ((c : Thread nD τ).loc main_arg6), m ((c : Thread nD τ).loc main_arg7),
   m ((c : Thread nD τ).loc main_arg8), m ((c : Thread nD τ).loc main_arg9), m ((c : Thread nD τ).loc main_arg10), m ((c : Thread nD τ).loc main_arg11),
   m ((c : Thread nD τ).loc main_arg12), m ((c : Thread nD τ).loc main_arg13), m ((c : Thread nD τ).loc main_arg14), m ((c : Thread nD τ).loc main_arg15)⟩

theorem tlt (t : Fin cfg0.N) : t.val < 64 := lt_of_lt_of_eq t.isLt N_0

/-- Point `t`'s batch, -/
def bOf (t : Fin cfg0.N) : Fin 2 := ⟨t.val / 32, by have := tlt t; omega⟩
/-- sender `i` of its row tile as a node, -/
def iOf (t : Fin cfg0.N) (i : Fin 64) : Fin 512 := ⟨64 * (t.val % 8) + i.val, by have := i.isLt; omega⟩
/-- and receiver `j` of its column tile as a node. -/
def jOf (t : Fin cfg0.N) (j : Fin 128) : Fin 512 := ⟨128 * (t.val / 8 % 4) + j.val, by have := j.isLt; omega⟩

theorem idx_0 : ∀ t : Fin cfg0.N, win0_0.index t 0 = t.val / 32 ∧ win0_0.index t 1 = t.val % 8 ∧ win0_0.index t 2 = t.val / 8 % 4 ∧ win0_0.index t 3 = 0 :=
  (by decide +kernel : ∀ t : Fin grid0.N, win0_0.index t 0 = t.val / 32 ∧ win0_0.index t 1 = t.val % 8 ∧ win0_0.index t 2 = t.val / 8 % 4 ∧ win0_0.index t 3 = 0)

theorem blk_0 (c : Dev nD) (t : Fin cfg0.N) (i : Fin 64) (j : Fin 128) (k : Fin 16) :
    (iblk m c 0 t : Vec Ideal S1x64x128x16 .f32) (ix4 (0 : Fin 1) i j k) = (args m c).e (ix4 (bOf t) (iOf t i) (jOf t j) k) := by
  unfold iblk
  rw [View.read_apply]
  show V m c main_arg1 _ = m ((c : Thread nD τ).loc main_arg1) _
  rw [V_main_arg1]
  congr 1
  funext a
  apply Fin.ext
  obtain ⟨h0, h1, h2, h3⟩ := idx_0 t
  match a with
  | ⟨0, _⟩ => show win0_0.index t 0 * 1 + 1 * 0 = t.val / 32; rw [h0]; omega
  | ⟨1, _⟩ => show win0_0.index t 1 * 64 + 1 * i.val = 64 * (t.val % 8) + i.val; rw [h1]; omega
  | ⟨2, _⟩ => show win0_0.index t 2 * 128 + 1 * j.val = 128 * (t.val / 8 % 4) + j.val; rw [h2]; omega
  | ⟨3, _⟩ => show win0_0.index t 3 * 16 + 1 * k.val = k.val; rw [h3]; omega

theorem idx_1 : ∀ t : Fin cfg0.N, win0_1.index t 0 = t.val / 32 ∧ win0_1.index t 1 = t.val % 8 ∧ win0_1.index t 2 = t.val / 8 % 4 :=
  (by decide +kernel : ∀ t : Fin grid0.N, win0_1.index t 0 = t.val / 32 ∧ win0_1.index t 1 = t.val % 8 ∧ win0_1.index t 2 = t.val / 8 % 4)

theorem blk_1 (c : Dev nD) (t : Fin cfg0.N) (i : Fin 64) (j : Fin 128) :
    (iblk m c 1 t : Vec Ideal S1x64x128 .f32) (ix3 (0 : Fin 1) i j) = (args m c).adj (ix3 (bOf t) (iOf t i) (jOf t j)) := by
  unfold iblk
  rw [View.read_apply]
  show V m c main_arg3 _ = m ((c : Thread nD τ).loc main_arg3) _
  rw [V_main_arg3]
  congr 1
  funext a
  apply Fin.ext
  obtain ⟨h0, h1, h2⟩ := idx_1 t
  match a with
  | ⟨0, _⟩ => show win0_1.index t 0 * 1 + 1 * 0 = t.val / 32; rw [h0]; omega
  | ⟨1, _⟩ => show win0_1.index t 1 * 64 + 1 * i.val = 64 * (t.val % 8) + i.val; rw [h1]; omega
  | ⟨2, _⟩ => show win0_1.index t 2 * 128 + 1 * j.val = 128 * (t.val / 8 % 4) + j.val; rw [h2]; omega

theorem idx_2 : ∀ t : Fin cfg0.N, win0_2.index t 0 = t.val / 32 ∧ win0_2.index t 1 = t.val % 8 ∧ win0_2.index t 2 = 0 :=
  (by decide +kernel : ∀ t : Fin grid0.N, win0_2.index t 0 = t.val / 32 ∧ win0_2.index t 1 = t.val % 8 ∧ win0_2.index t 2 = 0)

theorem blk_2 (c : Dev nD) (t : Fin cfg0.N) (i : Fin 64) (k : Fin 128) :
    (iblk m c 2 t : Vec Ideal S1x64x128 .f32) (ix3 (0 : Fin 1) i k) = (args m c).feat (ix3 (bOf t) (iOf t i) k) := by
  unfold iblk
  rw [View.read_apply]
  show V m c main_arg0 _ = m ((c : Thread nD τ).loc main_arg0) _
  rw [V_main_arg0]
  congr 1
  funext a
  apply Fin.ext
  obtain ⟨h0, h1, h2⟩ := idx_2 t
  match a with
  | ⟨0, _⟩ => show win0_2.index t 0 * 1 + 1 * 0 = t.val / 32; rw [h0]; omega
  | ⟨1, _⟩ => show win0_2.index t 1 * 64 + 1 * i.val = 64 * (t.val % 8) + i.val; rw [h1]; omega
  | ⟨2, _⟩ => show win0_2.index t 2 * 128 + 1 * k.val = k.val; rw [h2]; omega

theorem idx_3 : ∀ t : Fin cfg0.N, win0_3.index t 0 = t.val / 32 ∧ win0_3.index t 1 = t.val / 8 % 4 ∧ win0_3.index t 2 = 0 :=
  (by decide +kernel : ∀ t : Fin grid0.N, win0_3.index t 0 = t.val / 32 ∧ win0_3.index t 1 = t.val / 8 % 4 ∧ win0_3.index t 2 = 0)

theorem blk_3 (c : Dev nD) (t : Fin cfg0.N) (j : Fin 128) (k : Fin 128) :
    (iblk m c 3 t : Vec Ideal S1x128x128 .f32) (ix3 (0 : Fin 1) j k) = (args m c).feat (ix3 (bOf t) (jOf t j) k) := by
  unfold iblk
  rw [View.read_apply]
  show V m c main_arg0 _ = m ((c : Thread nD τ).loc main_arg0) _
  rw [V_main_arg0]
  congr 1
  funext a
  apply Fin.ext
  obtain ⟨h0, h1, h2⟩ := idx_3 t
  match a with
  | ⟨0, _⟩ => show win0_3.index t 0 * 1 + 1 * 0 = t.val / 32; rw [h0]; omega
  | ⟨1, _⟩ => show win0_3.index t 1 * 128 + 1 * j.val = 128 * (t.val / 8 % 4) + j.val; rw [h1]; omega
  | ⟨2, _⟩ => show win0_3.index t 2 * 128 + 1 * k.val = k.val; rw [h2]; omega

theorem idx_4 : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-- The graph features, given a unit middle axis by the host before the region. -/
theorem V_main_v6 (c : Dev nD) : (V m c main_v6 : Vec Ideal S2x1x128 .f32) = shapeCast S2x1x128 (m ((c : Thread nD τ).loc main_arg2)) shapeCasts_S2x128_S2x1x128 := by
  show StableHlo.after hostOps0 (fun b => m (c, b)) (Proc.devRef .tc main_v6) = _
  after_results; rfl

theorem blk_4 (c : Dev nD) (t : Fin cfg0.N) (k : Fin 128) :
    (iblk m c 4 t : Vec Ideal S1x1x128 .f32) (ix3 (0 : Fin 1) (0 : Fin 1) k) = (args m c).g (ix2 (bOf t) k) := by
  unfold iblk
  rw [View.read_apply]
  show V m c main_v6 _ = m ((c : Thread nD τ).loc main_arg2) _
  rw [V_main_v6]
  have he : ((cfg0.win 4).blk t).view.emb (ix3 (0 : Fin 1) (0 : Fin 1) k) = (ix3 (bOf t) (0 : Fin 1) k : S2x1x128.Idx) := by
    funext a
    apply Fin.ext
    obtain ⟨h0, h1, h2⟩ := idx_4 t
    match a with
    | ⟨0, _⟩ => show win0_4.index t 0 * 1 + 1 * 0 = t.val / 32; rw [h0]; omega
    | ⟨1, _⟩ => show win0_4.index t 1 * 1 + 1 * 0 = 0; rw [h1]
    | ⟨2, _⟩ => show win0_4.index t 2 * 128 + 1 * k.val = k.val; rw [h2]; omega
  rw [he]
  exact shapeCast_ac_a1c_apply _ _ _ _ _

theorem idx_5 : ∀ t : Fin cfg0.N, win0_5.index t 0 = 0 ∧ win0_5.index t 1 = 0 :=
  (by decide +kernel : ∀ t : Fin grid0.N, win0_5.index t 0 = 0 ∧ win0_5.index t 1 = 0)

/-- The bf16 copy of the weight the host made before the region holds, at the ideal values, the weight itself. -/
theorem V_main_v7 (c : Dev nD) (i : S128x128.Idx) : V m c main_v7 i = m ((c : Thread nD τ).loc main_arg4) i := by
  show StableHlo.after hostOps0 (fun b => m (c, b)) (Proc.devRef .tc main_v7) i = _
  after_results; rfl

theorem blk_5 (c : Dev nD) (t : Fin cfg0.N) (k : Fin 128) (o : Fin 128) :
    (iblk m c 5 t : Vec Ideal S128x128 .bf16) (ix2 k o) = (args m c).W1 (ix2 k o) := by
  unfold iblk
  rw [View.read_apply]
  show V m c main_v7 _ = m ((c : Thread nD τ).loc main_arg4) _
  rw [V_main_v7]
  congr 1
  funext a
  apply Fin.ext
  obtain ⟨h0, h1⟩ := idx_5 t
  match a with
  | ⟨0, _⟩ => show win0_5.index t 0 * 128 + 1 * k.val = k.val; rw [h0]; omega
  | ⟨1, _⟩ => show win0_5.index t 1 * 128 + 1 * o.val = o.val; rw [h1]; omega

theorem idx_6 : ∀ t : Fin cfg0.N, win0_6.index t 0 = 0 ∧ win0_6.index t 1 = 0 :=
  (by decide +kernel : ∀ t : Fin grid0.N, win0_6.index t 0 = 0 ∧ win0_6.index t 1 = 0)

/-- The bias, reshaped to one row by the host before the region. -/
theorem V_main_v0 (c : Dev nD) : (V m c main_v0 : Vec Ideal S1x128 .f32) = shapeCast S1x128 (m ((c : Thread nD τ).loc main_arg5)) shapeCasts_S128_S1x128 := by
  show StableHlo.after hostOps0 (fun b => m (c, b)) (Proc.devRef .tc main_v0) = _
  after_results; rfl

theorem blk_6 (c : Dev nD) (t : Fin cfg0.N) (o : Fin 128) :
    (iblk m c 6 t : Vec Ideal S1x128 .f32) (ix2 (0 : Fin 1) o) = (args m c).b1 (ix1 o) := by
  unfold iblk
  rw [View.read_apply]
  show V m c main_v0 _ = m ((c : Thread nD τ).loc main_arg5) _
  rw [V_main_v0]
  have he : ((cfg0.win 6).blk t).view.emb (ix2 (0 : Fin 1) o) = (ix2 (0 : Fin 1) o : S1x128.Idx) := by
    funext a
    apply Fin.ext
    obtain ⟨h0, h1⟩ := idx_6 t
    match a with
    | ⟨0, _⟩ => show win0_6.index t 0 * 1 + 1 * 0 = 0; rw [h0]
    | ⟨1, _⟩ => show win0_6.index t 1 * 128 + 1 * o.val = o.val; rw [h1]; omega
  rw [he]
  exact shapeCast_a_1a_apply _ _ _ _

theorem idx_7 : ∀ t : Fin cfg0.N, win0_7.index t 0 = 0 ∧ win0_7.index t 1 = 0 :=
  (by decide +kernel : ∀ t : Fin grid0.N, win0_7.index t 0 = 0 ∧ win0_7.index t 1 = 0)

/-- The bf16 copy of the weight the host made before the region holds, at the ideal values, the weight itself. -/
theorem V_main_v8 (c : Dev nD) (i : S128x128.Idx) : V m c main_v8 i = m ((c : Thread nD τ).loc main_arg6) i := by
  show StableHlo.after hostOps0 (fun b => m (c, b)) (Proc.devRef .tc main_v8) i = _
  after_results; rfl

theorem blk_7 (c : Dev nD) (t : Fin cfg0.N) (k : Fin 128) (o : Fin 128) :
    (iblk m c 7 t : Vec Ideal S128x128 .bf16) (ix2 k o) = (args m c).W2 (ix2 k o) := by
  unfold iblk
  rw [View.read_apply]
  show V m c main_v8 _ = m ((c : Thread nD τ).loc main_arg6) _
  rw [V_main_v8]
  congr 1
  funext a
  apply Fin.ext
  obtain ⟨h0, h1⟩ := idx_7 t
  match a with
  | ⟨0, _⟩ => show win0_7.index t 0 * 128 + 1 * k.val = k.val; rw [h0]; omega
  | ⟨1, _⟩ => show win0_7.index t 1 * 128 + 1 * o.val = o.val; rw [h1]; omega

theorem idx_8 : ∀ t : Fin cfg0.N, win0_8.index t 0 = 0 ∧ win0_8.index t 1 = 0 :=
  (by decide +kernel : ∀ t : Fin grid0.N, win0_8.index t 0 = 0 ∧ win0_8.index t 1 = 0)

/-- The bias, reshaped to one row by the host before the region. -/
theorem V_main_v1 (c : Dev nD) : (V m c main_v1 : Vec Ideal S1x128 .f32) = shapeCast S1x128 (m ((c : Thread nD τ).loc main_arg7)) shapeCasts_S128_S1x128 := by
  show StableHlo.after hostOps0 (fun b => m (c, b)) (Proc.devRef .tc main_v1) = _
  after_results; rfl

theorem blk_8 (c : Dev nD) (t : Fin cfg0.N) (o : Fin 128) :
    (iblk m c 8 t : Vec Ideal S1x128 .f32) (ix2 (0 : Fin 1) o) = (args m c).b2 (ix1 o) := by
  unfold iblk
  rw [View.read_apply]
  show V m c main_v1 _ = m ((c : Thread nD τ).loc main_arg7) _
  rw [V_main_v1]
  have he : ((cfg0.win 8).blk t).view.emb (ix2 (0 : Fin 1) o) = (ix2 (0 : Fin 1) o : S1x128.Idx) := by
    funext a
    apply Fin.ext
    obtain ⟨h0, h1⟩ := idx_8 t
    match a with
    | ⟨0, _⟩ => show win0_8.index t 0 * 1 + 1 * 0 = 0; rw [h0]
    | ⟨1, _⟩ => show win0_8.index t 1 * 128 + 1 * o.val = o.val; rw [h1]; omega
  rw [he]
  exact shapeCast_a_1a_apply _ _ _ _

theorem idx_9 : ∀ t : Fin cfg0.N, win0_9.index t 0 = 0 ∧ win0_9.index t 1 = 0 :=
  (by decide +kernel : ∀ t : Fin grid0.N, win0_9.index t 0 = 0 ∧ win0_9.index t 1 = 0)

/-- The bf16 copy of the weight the host made before the region holds, at the ideal values, the weight itself. -/
theorem V_main_v9 (c : Dev nD) (i : S16x128.Idx) : V m c main_v9 i = m ((c : Thread nD τ).loc main_arg8) i := by
  show StableHlo.after hostOps0 (fun b => m (c, b)) (Proc.devRef .tc main_v9) i = _
  after_results; rfl

theorem blk_9 (c : Dev nD) (t : Fin cfg0.N) (k : Fin 16) (o : Fin 128) :
    (iblk m c 9 t : Vec Ideal S16x128 .bf16) (ix2 k o) = (args m c).We (ix2 k o) := by
  unfold iblk
  rw [View.read_apply]
  show V m c main_v9 _ = m ((c : Thread nD τ).loc main_arg8) _
  rw [V_main_v9]
  congr 1
  funext a
  apply Fin.ext
  obtain ⟨h0, h1⟩ := idx_9 t
  match a with
  | ⟨0, _⟩ => show win0_9.index t 0 * 16 + 1 * k.val = k.val; rw [h0]; omega
  | ⟨1, _⟩ => show win0_9.index t 1 * 128 + 1 * o.val = o.val; rw [h1]; omega

theorem idx_10 : ∀ t : Fin cfg0.N, win0_10.index t 0 = 0 ∧ win0_10.index t 1 = 0 :=
  (by decide +kernel : ∀ t : Fin grid0.N, win0_10.index t 0 = 0 ∧ win0_10.index t 1 = 0)

/-- The bias, reshaped to one row by the host before the region. -/
theorem V_main_v2 (c : Dev nD) : (V m c main_v2 : Vec Ideal S1x128 .f32) = shapeCast S1x128 (m ((c : Thread nD τ).loc main_arg9)) shapeCasts_S128_S1x128 := by
  show StableHlo.after hostOps0 (fun b => m (c, b)) (Proc.devRef .tc main_v2) = _
  after_results; rfl

theorem blk_10 (c : Dev nD) (t : Fin cfg0.N) (o : Fin 128) :
    (iblk m c 10 t : Vec Ideal S1x128 .f32) (ix2 (0 : Fin 1) o) = (args m c).be (ix1 o) := by
  unfold iblk
  rw [View.read_apply]
  show V m c main_v2 _ = m ((c : Thread nD τ).loc main_arg9) _
  rw [V_main_v2]
  have he : ((cfg0.win 10).blk t).view.emb (ix2 (0 : Fin 1) o) = (ix2 (0 : Fin 1) o : S1x128.Idx) := by
    funext a
    apply Fin.ext
    obtain ⟨h0, h1⟩ := idx_10 t
    match a with
    | ⟨0, _⟩ => show win0_10.index t 0 * 1 + 1 * 0 = 0; rw [h0]
    | ⟨1, _⟩ => show win0_10.index t 1 * 128 + 1 * o.val = o.val; rw [h1]; omega
  rw [he]
  exact shapeCast_a_1a_apply _ _ _ _

theorem idx_11 : ∀ t : Fin cfg0.N, win0_11.index t 0 = 0 ∧ win0_11.index t 1 = 0 :=
  (by decide +kernel : ∀ t : Fin grid0.N, win0_11.index t 0 = 0 ∧ win0_11.index t 1 = 0)

/-- The bf16 copy of the weight the host made before the region holds, at the ideal values, the weight itself. -/
theorem V_main_v10 (c : Dev nD) (i : S128x128.Idx) : V m c main_v10 i = m ((c : Thread nD τ).loc main_arg10) i := by
  show StableHlo.after hostOps0 (fun b => m (c, b)) (Proc.devRef .tc main_v10) i = _
  after_results; rfl

theorem blk_11 (c : Dev nD) (t : Fin cfg0.N) (k : Fin 128) (o : Fin 128) :
    (iblk m c 11 t : Vec Ideal S128x128 .bf16) (ix2 k o) = (args m c).Wg (ix2 k o) := by
  unfold iblk
  rw [View.read_apply]
  show V m c main_v10 _ = m ((c : Thread nD τ).loc main_arg10) _
  rw [V_main_v10]
  congr 1
  funext a
  apply Fin.ext
  obtain ⟨h0, h1⟩ := idx_11 t
  match a with
  | ⟨0, _⟩ => show win0_11.index t 0 * 128 + 1 * k.val = k.val; rw [h0]; omega
  | ⟨1, _⟩ => show win0_11.index t 1 * 128 + 1 * o.val = o.val; rw [h1]; omega

theorem idx_12 : ∀ t : Fin cfg0.N, win0_12.index t 0 = 0 ∧ win0_12.index t 1 = 0 :=
  (by decide +kernel : ∀ t : Fin grid0.N, win0_12.index t 0 = 0 ∧ win0_12.index t 1 = 0)

/-- The bias, reshaped to one row by the host before the region. -/
theorem V_main_v3 (c : Dev nD) : (V m c main_v3 : Vec Ideal S1x128 .f32) = shapeCast S1x128 (m ((c : Thread nD τ).loc main_arg11)) shapeCasts_S128_S1x128 := by
  show StableHlo.after hostOps0 (fun b => m (c, b)) (Proc.devRef .tc main_v3) = _
  after_results; rfl

theorem blk_12 (c : Dev nD) (t : Fin cfg0.N) (o : Fin 128) :
    (iblk m c 12 t : Vec Ideal S1x128 .f32) (ix2 (0 : Fin 1) o) = (args m c).bg (ix1 o) := by
  unfold iblk
  rw [View.read_apply]
  show V m c main_v3 _ = m ((c : Thread nD τ).loc main_arg11) _
  rw [V_main_v3]
  have he : ((cfg0.win 12).blk t).view.emb (ix2 (0 : Fin 1) o) = (ix2 (0 : Fin 1) o : S1x128.Idx) := by
    funext a
    apply Fin.ext
    obtain ⟨h0, h1⟩ := idx_12 t
    match a with
    | ⟨0, _⟩ => show win0_12.index t 0 * 1 + 1 * 0 = 0; rw [h0]
    | ⟨1, _⟩ => show win0_12.index t 1 * 128 + 1 * o.val = o.val; rw [h1]; omega
  rw [he]
  exact shapeCast_a_1a_apply _ _ _ _

theorem idx_13 : ∀ t : Fin cfg0.N, win0_13.index t 0 = 0 ∧ win0_13.index t 1 = 0 :=
  (by decide +kernel : ∀ t : Fin grid0.N, win0_13.index t 0 = 0 ∧ win0_13.index t 1 = 0)

/-- The bf16 copy of the weight the host made before the region holds, at the ideal values, the weight itself. -/
theorem V_main_v11 (c : Dev nD) (i : S128x128.Idx) : V m c main_v11 i = m ((c : Thread nD τ).loc main_arg12) i := by
  show StableHlo.after hostOps0 (fun b => m (c, b)) (Proc.devRef .tc main_v11) i = _
  after_results; rfl

theorem blk_13 (c : Dev nD) (t : Fin cfg0.N) (k : Fin 128) (o : Fin 128) :
    (iblk m c 13 t : Vec Ideal S128x128 .bf16) (ix2 k o) = (args m c).Wo1 (ix2 k o) := by
  unfold iblk
  rw [View.read_apply]
  show V m c main_v11 _ = m ((c : Thread nD τ).loc main_arg12) _
  rw [V_main_v11]
  congr 1
  funext a
  apply Fin.ext
  obtain ⟨h0, h1⟩ := idx_13 t
  match a with
  | ⟨0, _⟩ => show win0_13.index t 0 * 128 + 1 * k.val = k.val; rw [h0]; omega
  | ⟨1, _⟩ => show win0_13.index t 1 * 128 + 1 * o.val = o.val; rw [h1]; omega

theorem idx_14 : ∀ t : Fin cfg0.N, win0_14.index t 0 = 0 ∧ win0_14.index t 1 = 0 :=
  (by decide +kernel : ∀ t : Fin grid0.N, win0_14.index t 0 = 0 ∧ win0_14.index t 1 = 0)

/-- The bias, reshaped to one row by the host before the region. -/
theorem V_main_v4 (c : Dev nD) : (V m c main_v4 : Vec Ideal S1x128 .f32) = shapeCast S1x128 (m ((c : Thread nD τ).loc main_arg13)) shapeCasts_S128_S1x128 := by
  show StableHlo.after hostOps0 (fun b => m (c, b)) (Proc.devRef .tc main_v4) = _
  after_results; rfl

theorem blk_14 (c : Dev nD) (t : Fin cfg0.N) (o : Fin 128) :
    (iblk m c 14 t : Vec Ideal S1x128 .f32) (ix2 (0 : Fin 1) o) = (args m c).bo1 (ix1 o) := by
  unfold iblk
  rw [View.read_apply]
  show V m c main_v4 _ = m ((c : Thread nD τ).loc main_arg13) _
  rw [V_main_v4]
  have he : ((cfg0.win 14).blk t).view.emb (ix2 (0 : Fin 1) o) = (ix2 (0 : Fin 1) o : S1x128.Idx) := by
    funext a
    apply Fin.ext
    obtain ⟨h0, h1⟩ := idx_14 t
    match a with
    | ⟨0, _⟩ => show win0_14.index t 0 * 1 + 1 * 0 = 0; rw [h0]
    | ⟨1, _⟩ => show win0_14.index t 1 * 128 + 1 * o.val = o.val; rw [h1]; omega
  rw [he]
  exact shapeCast_a_1a_apply _ _ _ _

theorem idx_15 : ∀ t : Fin cfg0.N, win0_15.index t 0 = 0 ∧ win0_15.index t 1 = 0 :=
  (by decide +kernel : ∀ t : Fin grid0.N, win0_15.index t 0 = 0 ∧ win0_15.index t 1 = 0)

/-- The bf16 copy of the weight the host made before the region holds, at the ideal values, the weight itself. -/
theorem V_main_v12 (c : Dev nD) (i : S128x128.Idx) : V m c main_v12 i = m ((c : Thread nD τ).loc main_arg14) i := by
  show StableHlo.after hostOps0 (fun b => m (c, b)) (Proc.devRef .tc main_v12) i = _
  after_results; rfl

theorem blk_15 (c : Dev nD) (t : Fin cfg0.N) (k : Fin 128) (o : Fin 128) :
    (iblk m c 15 t : Vec Ideal S128x128 .bf16) (ix2 k o) = (args m c).Wo2 (ix2 k o) := by
  unfold iblk
  rw [View.read_apply]
  show V m c main_v12 _ = m ((c : Thread nD τ).loc main_arg14) _
  rw [V_main_v12]
  congr 1
  funext a
  apply Fin.ext
  obtain ⟨h0, h1⟩ := idx_15 t
  match a with
  | ⟨0, _⟩ => show win0_15.index t 0 * 128 + 1 * k.val = k.val; rw [h0]; omega
  | ⟨1, _⟩ => show win0_15.index t 1 * 128 + 1 * o.val = o.val; rw [h1]; omega

theorem idx_16 : ∀ t : Fin cfg0.N, win0_16.index t 0 = 0 ∧ win0_16.index t 1 = 0 :=
  (by decide +kernel : ∀ t : Fin grid0.N, win0_16.index t 0 = 0 ∧ win0_16.index t 1 = 0)

/-- The bias, reshaped to one row by the host before the region. -/
theorem V_main_v5 (c : Dev nD) : (V m c main_v5 : Vec Ideal S1x128 .f32) = shapeCast S1x128 (m ((c : Thread nD τ).loc main_arg15)) shapeCasts_S128_S1x128 := by
  show StableHlo.after hostOps0 (fun b => m (c, b)) (Proc.devRef .tc main_v5) = _
  after_results; rfl

theorem blk_16 (c : Dev nD) (t : Fin cfg0.N) (o : Fin 128) :
    (iblk m c 16 t : Vec Ideal S1x128 .f32) (ix2 (0 : Fin 1) o) = (args m c).bo2 (ix1 o) := by
  unfold iblk
  rw [View.read_apply]
  show V m c main_v5 _ = m ((c : Thread nD τ).loc main_arg15) _
  rw [V_main_v5]
  have he : ((cfg0.win 16).blk t).view.emb (ix2 (0 : Fin 1) o) = (ix2 (0 : Fin 1) o : S1x128.Idx) := by
    funext a
    apply Fin.ext
    obtain ⟨h0, h1⟩ := idx_16 t
    match a with
    | ⟨0, _⟩ => show win0_16.index t 0 * 1 + 1 * 0 = 0; rw [h0]
    | ⟨1, _⟩ => show win0_16.index t 1 * 128 + 1 * o.val = o.val; rw [h1]; omega
  rw [he]
  exact shapeCast_a_1a_apply _ _ _ _

end Cert.KernelIdeal.Blocks

end
-- ==== Proof.KernelIdealMatmul.lean ====
import proofs.«163085_j77309411697_2_alg».proof.Proof.Gen.KernelIdeal.Skeleton
import proofs.«163085_j77309411697_2_alg».proof.Proof.KernelIdealStep
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.KernelIdeal.Hand
open Idealize.ShloMosaic Idealize.ShloMosaic.TcCoe Idealize.ShloMosaic.ValueIdx

/-! ## The four matrix products of the body, at an entry -/

theorem mm_rows_l0 (i : S64x128.Idx) (q : dot_S64x128_S128x128_S64x128_1_0_0_1_n_n.contr.Idx) : (dot_S64x128_S128x128_S64x128_1_0_0_1_n_n.lhsIdx i q 0).val = (i 0).val := by
  unfold DotDims.lhsIdx
  rw [dif_neg (show ¬(0 : Fin S64x128.rank) ∈ dot_S64x128_S128x128_S64x128_1_0_0_1_n_n.lhsBatch by decide), dif_pos (show (0 : Fin S64x128.rank) ∈ dot_S64x128_S128x128_S64x128_1_0_0_1_n_n.lhsNonContracting by decide)]
  rfl
theorem mm_rows_l1 (i : S64x128.Idx) (q : dot_S64x128_S128x128_S64x128_1_0_0_1_n_n.contr.Idx) : (dot_S64x128_S128x128_S64x128_1_0_0_1_n_n.lhsIdx i q 1).val = (q ⟨0, by decide⟩).val :=
  dot_S64x128_S128x128_S64x128_1_0_0_1_n_n.lhsIdx_val_of_single rfl i q
theorem mm_rows_r0 (i : S64x128.Idx) (q : dot_S64x128_S128x128_S64x128_1_0_0_1_n_n.contr.Idx) : (dot_S64x128_S128x128_S64x128_1_0_0_1_n_n.rhsIdx i q 0).val = (q ⟨0, by decide⟩).val :=
  dot_S64x128_S128x128_S64x128_1_0_0_1_n_n.rhsIdx_val_of_single rfl i q
theorem mm_rows_r1 (i : S64x128.Idx) (q : dot_S64x128_S128x128_S64x128_1_0_0_1_n_n.contr.Idx) : (dot_S64x128_S128x128_S64x128_1_0_0_1_n_n.rhsIdx i q 1).val = (i 1).val := by
  unfold DotDims.rhsIdx
  rw [dif_neg (show ¬(1 : Fin S128x128.rank) ∈ dot_S64x128_S128x128_S64x128_1_0_0_1_n_n.rhsBatch by decide), dif_pos (show (1 : Fin S128x128.rank) ∈ dot_S64x128_S128x128_S64x128_1_0_0_1_n_n.rhsNonContracting by decide)]
  rfl
/-- The matrix product of a [64,128] by a [128,128] operand into the zero accumulator, at an entry: the sum of products. -/
theorem mm_rows (l : FVec Ideal S64x128 .bf16) (r : FVec Ideal S128x128 .bf16) (p : Fin 64) (q : Fin 128) :
    matmul dot_S64x128_S128x128_S64x128_1_0_0_1_n_n none l r (constant S64x128 .f32 0x00000000#32) (ix2 p q) = ∑ k : Fin 128, l (ix2 p k) * r (ix2 k q) := by
  simp only [matmul]
  rw [Ideal.matmul_constant_zero_apply, ← Equiv.sum_comp (ValueIdx.contrEquiv1 dot_S64x128_S128x128_S64x128_1_0_0_1_n_n 128 rfl rfl).symm]
  refine Finset.sum_congr rfl fun k _ => ?_
  have hk := ValueIdx.contrEquiv1_symm_val dot_S64x128_S128x128_S64x128_1_0_0_1_n_n 128 rfl rfl k
  have el : dot_S64x128_S128x128_S64x128_1_0_0_1_n_n.lhsIdx (ix2 p q) ((ValueIdx.contrEquiv1 dot_S64x128_S128x128_S64x128_1_0_0_1_n_n 128 rfl rfl).symm k) = ix2 p k := funext fun a => Fin.ext (by
    match a with
    | ⟨0, _⟩ => exact mm_rows_l0 _ _
    | ⟨1, _⟩ => exact (mm_rows_l1 _ _).trans hk)
  have er : dot_S64x128_S128x128_S64x128_1_0_0_1_n_n.rhsIdx (ix2 p q) ((ValueIdx.contrEquiv1 dot_S64x128_S128x128_S64x128_1_0_0_1_n_n 128 rfl rfl).symm k) = ix2 k q := funext fun a => Fin.ext (by
    match a with
    | ⟨0, _⟩ => exact (mm_rows_r0 _ _).trans hk
    | ⟨1, _⟩ => exact mm_rows_r1 _ _)
  rw [el, er]

theorem mm_cols_l0 (i : S128x128.Idx) (q : dot_S128x128_S128x128_S128x128_1_0_0_1_n_n.contr.Idx) : (dot_S128x128_S128x128_S128x128_1_0_0_1_n_n.lhsIdx i q 0).val = (i 0).val := by
  unfold DotDims.lhsIdx
  rw [dif_neg (show ¬(0 : Fin S128x128.rank) ∈ dot_S128x128_S128x128_S128x128_1_0_0_1_n_n.lhsBatch by decide), dif_pos (show (0 : Fin S128x128.rank) ∈ dot_S128x128_S128x128_S128x128_1_0_0_1_n_n.lhsNonContracting by decide)]
  rfl
theorem mm_cols_l1 (i : S128x128.Idx) (q : dot_S128x128_S128x128_S128x128_1_0_0_1_n_n.contr.Idx) : (dot_S128x128_S128x128_S128x128_1_0_0_1_n_n.lhsIdx i q 1).val = (q ⟨0, by decide⟩).val :=
  dot_S128x128_S128x128_S128x128_1_0_0_1_n_n.lhsIdx_val_of_single rfl i q
theorem mm_cols_r0 (i : S128x128.Idx) (q : dot_S128x128_S128x128_S128x128_1_0_0_1_n_n.contr.Idx) : (dot_S128x128_S128x128_S128x128_1_0_0_1_n_n.rhsIdx i q 0).val = (q ⟨0, by decide⟩).val :=
  dot_S128x128_S128x128_S128x128_1_0_0_1_n_n.rhsIdx_val_of_single rfl i q
theorem mm_cols_r1 (i : S128x128.Idx) (q : dot_S128x128_S128x128_S128x128_1_0_0_1_n_n.contr.Idx) : (dot_S128x128_S128x128_S128x128_1_0_0_1_n_n.rhsIdx i q 1).val = (i 1).val := by
  unfold DotDims.rhsIdx
  rw [dif_neg (show ¬(1 : Fin S128x128.rank) ∈ dot_S128x128_S128x128_S128x128_1_0_0_1_n_n.rhsBatch by decide), dif_pos (show (1 : Fin S128x128.rank) ∈ dot_S128x128_S128x128_S128x128_1_0_0_1_n_n.rhsNonContracting by decide)]
  rfl
/-- The matrix product of a [128,128] by a [128,128] operand into the zero accumulator, at an entry: the sum of products. -/
theorem mm_cols (l : FVec Ideal S128x128 .bf16) (r : FVec Ideal S128x128 .bf16) (p : Fin 128) (q : Fin 128) :
    matmul dot_S128x128_S128x128_S128x128_1_0_0_1_n_n none l r (constant S128x128 .f32 0x00000000#32) (ix2 p q) = ∑ k : Fin 128, l (ix2 p k) * r (ix2 k q) := by
  simp only [matmul]
  rw [Ideal.matmul_constant_zero_apply, ← Equiv.sum_comp (ValueIdx.contrEquiv1 dot_S128x128_S128x128_S128x128_1_0_0_1_n_n 128 rfl rfl).symm]
  refine Finset.sum_congr rfl fun k _ => ?_
  have hk := ValueIdx.contrEquiv1_symm_val dot_S128x128_S128x128_S128x128_1_0_0_1_n_n 128 rfl rfl k
  have el : dot_S128x128_S128x128_S128x128_1_0_0_1_n_n.lhsIdx (ix2 p q) ((ValueIdx.contrEquiv1 dot_S128x128_S128x128_S128x128_1_0_0_1_n_n 128 rfl rfl).symm k) = ix2 p k := funext fun a => Fin.ext (by
    match a with
    | ⟨0, _⟩ => exact mm_cols_l0 _ _
    | ⟨1, _⟩ => exact (mm_cols_l1 _ _).trans hk)
  have er : dot_S128x128_S128x128_S128x128_1_0_0_1_n_n.rhsIdx (ix2 p q) ((ValueIdx.contrEquiv1 dot_S128x128_S128x128_S128x128_1_0_0_1_n_n 128 rfl rfl).symm k) = ix2 k q := funext fun a => Fin.ext (by
    match a with
    | ⟨0, _⟩ => exact (mm_cols_r0 _ _).trans hk
    | ⟨1, _⟩ => exact mm_cols_r1 _ _)
  rw [el, er]

theorem mm_graph_l0 (i : S1x128.Idx) (q : dot_S1x128_S128x128_S1x128_1_0_0_1_n_n.contr.Idx) : (dot_S1x128_S128x128_S1x128_1_0_0_1_n_n.lhsIdx i q 0).val = (i 0).val := by
  unfold DotDims.lhsIdx
  rw [dif_neg (show ¬(0 : Fin S1x128.rank) ∈ dot_S1x128_S128x128_S1x128_1_0_0_1_n_n.lhsBatch by decide), dif_pos (show (0 : Fin S1x128.rank) ∈ dot_S1x128_S128x128_S1x128_1_0_0_1_n_n.lhsNonContracting by decide)]
  rfl
theorem mm_graph_l1 (i : S1x128.Idx) (q : dot_S1x128_S128x128_S1x128_1_0_0_1_n_n.contr.Idx) : (dot_S1x128_S128x128_S1x128_1_0_0_1_n_n.lhsIdx i q 1).val = (q ⟨0, by decide⟩).val :=
  dot_S1x128_S128x128_S1x128_1_0_0_1_n_n.lhsIdx_val_of_single rfl i q
theorem mm_graph_r0 (i : S1x128.Idx) (q : dot_S1x128_S128x128_S1x128_1_0_0_1_n_n.contr.Idx) : (dot_S1x128_S128x128_S1x128_1_0_0_1_n_n.rhsIdx i q 0).val = (q ⟨0, by decide⟩).val :=
  dot_S1x128_S128x128_S1x128_1_0_0_1_n_n.rhsIdx_val_of_single rfl i q
theorem mm_graph_r1 (i : S1x128.Idx) (q : dot_S1x128_S128x128_S1x128_1_0_0_1_n_n.contr.Idx) : (dot_S1x128_S128x128_S1x128_1_0_0_1_n_n.rhsIdx i q 1).val = (i 1).val := by
  unfold DotDims.rhsIdx
  rw [dif_neg (show ¬(1 : Fin S128x128.rank) ∈ dot_S1x128_S128x128_S1x128_1_0_0_1_n_n.rhsBatch by decide), dif_pos (show (1 : Fin S128x128.rank) ∈ dot_S1x128_S128x128_S1x128_1_0_0_1_n_n.rhsNonContracting by decide)]
  rfl
/-- The matrix product of a [1,128] by a [128,128] operand into the zero accumulator, at an entry: the sum of products. -/
theorem mm_graph (l : FVec Ideal S1x128 .bf16) (r : FVec Ideal S128x128 .bf16) (p : Fin 1) (q : Fin 128) :
    matmul dot_S1x128_S128x128_S1x128_1_0_0_1_n_n none l r (constant S1x128 .f32 0x00000000#32) (ix2 p q) = ∑ k : Fin 128, l (ix2 p k) * r (ix2 k q) := by
  simp only [matmul]
  rw [Ideal.matmul_constant_zero_apply, ← Equiv.sum_comp (ValueIdx.contrEquiv1 dot_S1x128_S128x128_S1x128_1_0_0_1_n_n 128 rfl rfl).symm]
  refine Finset.sum_congr rfl fun k _ => ?_
  have hk := ValueIdx.contrEquiv1_symm_val dot_S1x128_S128x128_S1x128_1_0_0_1_n_n 128 rfl rfl k
  have el : dot_S1x128_S128x128_S1x128_1_0_0_1_n_n.lhsIdx (ix2 p q) ((ValueIdx.contrEquiv1 dot_S1x128_S128x128_S1x128_1_0_0_1_n_n 128 rfl rfl).symm k) = ix2 p k := funext fun a => Fin.ext (by
    match a with
    | ⟨0, _⟩ => exact mm_graph_l0 _ _
    | ⟨1, _⟩ => exact (mm_graph_l1 _ _).trans hk)
  have er : dot_S1x128_S128x128_S1x128_1_0_0_1_n_n.rhsIdx (ix2 p q) ((ValueIdx.contrEquiv1 dot_S1x128_S128x128_S1x128_1_0_0_1_n_n 128 rfl rfl).symm k) = ix2 k q := funext fun a => Fin.ext (by
    match a with
    | ⟨0, _⟩ => exact (mm_graph_r0 _ _).trans hk
    | ⟨1, _⟩ => exact mm_graph_r1 _ _)
  rw [el, er]

theorem mm_edges_l0 (i : S8192x128.Idx) (q : dot_S8192x16_S16x128_S8192x128_1_0_0_1_n_n.contr.Idx) : (dot_S8192x16_S16x128_S8192x128_1_0_0_1_n_n.lhsIdx i q 0).val = (i 0).val := by
  unfold DotDims.lhsIdx
  rw [dif_neg (show ¬(0 : Fin S8192x16.rank) ∈ dot_S8192x16_S16x128_S8192x128_1_0_0_1_n_n.lhsBatch by decide), dif_pos (show (0 : Fin S8192x16.rank) ∈ dot_S8192x16_S16x128_S8192x128_1_0_0_1_n_n.lhsNonContracting by decide)]
  rfl
theorem mm_edges_l1 (i : S8192x128.Idx) (q : dot_S8192x16_S16x128_S8192x128_1_0_0_1_n_n.contr.Idx) : (dot_S8192x16_S16x128_S8192x128_1_0_0_1_n_n.lhsIdx i q 1).val = (q ⟨0, by decide⟩).val :=
  dot_S8192x16_S16x128_S8192x128_1_0_0_1_n_n.lhsIdx_val_of_single rfl i q
theorem mm_edges_r0 (i : S8192x128.Idx) (q : dot_S8192x16_S16x128_S8192x128_1_0_0_1_n_n.contr.Idx) : (dot_S8192x16_S16x128_S8192x128_1_0_0_1_n_n.rhsIdx i q 0).val = (q ⟨0, by decide⟩).val :=
  dot_S8192x16_S16x128_S8192x128_1_0_0_1_n_n.rhsIdx_val_of_single rfl i q
theorem mm_edges_r1 (i : S8192x128.Idx) (q : dot_S8192x16_S16x128_S8192x128_1_0_0_1_n_n.contr.Idx) : (dot_S8192x16_S16x128_S8192x128_1_0_0_1_n_n.rhsIdx i q 1).val = (i 1).val := by
  unfold DotDims.rhsIdx
  rw [dif_neg (show ¬(1 : Fin S16x128.rank) ∈ dot_S8192x16_S16x128_S8192x128_1_0_0_1_n_n.rhsBatch by decide), dif_pos (show (1 : Fin S16x128.rank) ∈ dot_S8192x16_S16x128_S8192x128_1_0_0_1_n_n.rhsNonContracting by decide)]
  rfl
/-- The matrix product of a [8192,16] by a [16,128] operand into the zero accumulator, at an entry: the sum of products. -/
theorem mm_edges (l : FVec Ideal S8192x16 .bf16) (r : FVec Ideal S16x128 .bf16) (p : Fin 8192) (q : Fin 128) :
    matmul dot_S8192x16_S16x128_S8192x128_1_0_0_1_n_n none l r (constant S8192x128 .f32 0x00000000#32) (ix2 p q) = ∑ k : Fin 16, l (ix2 p k) * r (ix2 k q) := by
  simp only [matmul]
  rw [Ideal.matmul_constant_zero_apply, ← Equiv.sum_comp (ValueIdx.contrEquiv1 dot_S8192x16_S16x128_S8192x128_1_0_0_1_n_n 16 rfl rfl).symm]
  refine Finset.sum_congr rfl fun k _ => ?_
  have hk := ValueIdx.contrEquiv1_symm_val dot_S8192x16_S16x128_S8192x128_1_0_0_1_n_n 16 rfl rfl k
  have el : dot_S8192x16_S16x128_S8192x128_1_0_0_1_n_n.lhsIdx (ix2 p q) ((ValueIdx.contrEquiv1 dot_S8192x16_S16x128_S8192x128_1_0_0_1_n_n 16 rfl rfl).symm k) = ix2 p k := funext fun a => Fin.ext (by
    match a with
    | ⟨0, _⟩ => exact mm_edges_l0 _ _
    | ⟨1, _⟩ => exact (mm_edges_l1 _ _).trans hk)
  have er : dot_S8192x16_S16x128_S8192x128_1_0_0_1_n_n.rhsIdx (ix2 p q) ((ValueIdx.contrEquiv1 dot_S8192x16_S16x128_S8192x128_1_0_0_1_n_n 16 rfl rfl).symm k) = ix2 k q := funext fun a => Fin.ext (by
    match a with
    | ⟨0, _⟩ => exact (mm_edges_r0 _ _).trans hk
    | ⟨1, _⟩ => exact mm_edges_r1 _ _)
  rw [el, er]

end Cert.KernelIdeal.Pay

end
-- ==== Proof.KernelIdealPay.lean ====
import proofs.«163085_j77309411697_2_alg».proof.Proof.Gen.KernelIdeal.Skeleton
import proofs.«163085_j77309411697_2_alg».proof.Proof.KernelIdealStep
import proofs.«163085_j77309411697_2_alg».proof.Proof.KernelIdealMatmul
import proofs.«163085_j77309411697_2_alg».proof.Proof.LibLayout3
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.KernelIdeal.Hand
open Idealize.ShloMosaic Idealize.ShloMosaic.TcCoe Idealize.ShloMosaic.ValueIdx Idealize.ShloMosaic.ValueIdx.Layout3

/-! ## The small payloads at an entry

Each staged block carries a leading unit axis that the body casts away; a bias row is one row broadcast over the tile. -/

theorem pay4_apply (x0 : Vec Ideal S1x64x128x16 .f32) (i : Fin 64) (j : Fin 128) (k : Fin 16) :
    k0_pay4 x0 (ix3 i j k) = x0 (ix4 (0 : Fin 1) i j k) := by
  unfold k0_pay4; exact shapeCast_1abc_abc_apply x0 _ i j k

theorem pay5_apply (x1 : Vec Ideal S1x64x128 .f32) (i : Fin 64) (j : Fin 128) :
    k0_pay5 x1 (ix2 i j) = x1 (ix3 (0 : Fin 1) i j) := by
  unfold k0_pay5; exact shapeCast_1ab_ab_apply x1 _ i j

theorem pay6_apply (x3 : Vec Ideal S1x128x128 .f32) (j : Fin 128) (k : Fin 128) :
    k0_pay6 x3 (ix2 j k) = x3 (ix3 (0 : Fin 1) j k) := by
  unfold k0_pay6; exact shapeCast_1ab_ab_apply x3 _ j k

theorem pay7_apply (x4 : Vec Ideal S1x1x128 .f32) (u : Fin 1) (k : Fin 128) :
    k0_pay7 x4 (ix2 u k) = x4 (ix3 (0 : Fin 1) u k) := by
  unfold k0_pay7; exact shapeCast_1ab_ab_apply x4 _ u k

/-- The sender tile's projection: row `i` of the row-tile features times the weight, plus the bias. -/
theorem pay8_apply (x2 : Vec Ideal S1x64x128 .f32) (x7 : Vec Ideal S128x128 .bf16) (x8 : Vec Ideal S1x128 .f32) (i : Fin 64) (m : Fin 128) :
    k0_pay8 x2 x7 x8 (ix2 i m) = (∑ k : Fin 128, x2 (ix3 (0 : Fin 1) i k) * x7 (ix2 k m)) + x8 (ix2 (0 : Fin 1) m) := by
  unfold k0_pay8
  simp only [addf_apply, mm_rows, truncf_apply, shapeCast_self, shapeCast_1ab_ab_apply, broadcastTo_1b_ab_apply]

/-- The receiver tile's product (its bias is added by the next payload). -/
theorem pay9_apply (x3 : Vec Ideal S1x128x128 .f32) (x5 : Vec Ideal S128x128 .bf16) (j : Fin 128) (m : Fin 128) :
    k0_pay9 x3 x5 (ix2 j m) = ∑ k : Fin 128, x3 (ix3 (0 : Fin 1) j k) * x5 (ix2 k m) := by
  unfold k0_pay9
  simp only [mm_cols, truncf_apply, shapeCast_self, pay6_apply]

theorem pay10_apply (x6 : Vec Ideal S1x128 .f32) (j : Fin 128) (m : Fin 128) :
    k0_pay10 x6 (ix2 j m) = x6 (ix2 (0 : Fin 1) m) := by
  unfold k0_pay10
  simp only [shapeCast_self, broadcastTo_1b_ab_apply]

/-! ## The two stores' values at an entry

A tile is 64 senders by 128 receivers.  In the tile's own coordinates: -/

/-- the senders' projection, -/
def tMsg2 (x2 : Vec Ideal S1x64x128 .f32) (x7 : Vec Ideal S128x128 .bf16) (x8 : Vec Ideal S1x128 .f32) (i : Fin 64) (m : Fin 128) : EReal :=
  (∑ k : Fin 128, x2 (ix3 (0 : Fin 1) i k) * x7 (ix2 k m)) + x8 (ix2 (0 : Fin 1) m)
/-- the receivers' projection, -/
def tMsg1 (x3 : Vec Ideal S1x128x128 .f32) (x5 : Vec Ideal S128x128 .bf16) (x6 : Vec Ideal S1x128 .f32) (j : Fin 128) (m : Fin 128) : EReal :=
  (∑ k : Fin 128, x3 (ix3 (0 : Fin 1) j k) * x5 (ix2 k m)) + x6 (ix2 (0 : Fin 1) m)
/-- the edges' projection, -/
def tMsgE (x0 : Vec Ideal S1x64x128x16 .f32) (x9 : Vec Ideal S16x128 .bf16) (x10 : Vec Ideal S1x128 .f32) (i : Fin 64) (j : Fin 128) (m : Fin 128) : EReal :=
  (∑ k : Fin 16, x0 (ix4 (0 : Fin 1) i j k) * x9 (ix2 k m)) + x10 (ix2 (0 : Fin 1) m)
/-- the graph's projection, -/
def tMsgG (x4 : Vec Ideal S1x1x128 .f32) (x11 : Vec Ideal S128x128 .bf16) (x12 : Vec Ideal S1x128 .f32) (m : Fin 128) : EReal :=
  (∑ k : Fin 128, x4 (ix3 (0 : Fin 1) (0 : Fin 1) k) * x11 (ix2 k m)) + x12 (ix2 (0 : Fin 1) m)
/-- and the masked message from sender `i` to receiver `j` (the kernel adds the sender's term first). -/
def tMasked (x0 : Vec Ideal S1x64x128x16 .f32) (x1 : Vec Ideal S1x64x128 .f32) (x2 : Vec Ideal S1x64x128 .f32) (x3 : Vec Ideal S1x128x128 .f32)
    (x4 : Vec Ideal S1x1x128 .f32) (x5 : Vec Ideal S128x128 .bf16) (x6 : Vec Ideal S1x128 .f32) (x7 : Vec Ideal S128x128 .bf16) (x8 : Vec Ideal S1x128 .f32)
    (x9 : Vec Ideal S16x128 .bf16) (x10 : Vec Ideal S1x128 .f32) (x11 : Vec Ideal S128x128 .bf16) (x12 : Vec Ideal S1x128 .f32)
    (i : Fin 64) (j : Fin 128) (m : Fin 128) : EReal :=
  (((tMsg2 x2 x7 x8 i m + tMsg1 x3 x5 x6 j m) + tMsgE x0 x9 x10 i j m) + tMsgG x4 x11 x12 m) * x1 (ix3 (0 : Fin 1) i j)

/-- The accumulator after a point, at a receiver and channel: the maximum of what it held and the tile's supremum over
    its 64 senders of the masked messages. -/
theorem accStep_apply (x0 : Vec Ideal S1x64x128x16 .f32) (x1 : Vec Ideal S1x64x128 .f32) (x2 : Vec Ideal S1x64x128 .f32) (x3 : Vec Ideal S1x128x128 .f32)
    (x4 : Vec Ideal S1x1x128 .f32) (x5 : Vec Ideal S128x128 .bf16) (x6 : Vec Ideal S1x128 .f32) (x7 : Vec Ideal S128x128 .bf16) (x8 : Vec Ideal S1x128 .f32)
    (x9 : Vec Ideal S16x128 .bf16) (x10 : Vec Ideal S1x128 .f32) (x11 : Vec Ideal S128x128 .bf16) (x12 : Vec Ideal S1x128 .f32)
    (acc : Vec Ideal S128x128 .f32) (j : Fin 128) (m : Fin 128) :
    accStep x0 x1 x2 x3 x4 x5 x6 x7 x8 x9 x10 x11 x12 acc (ix2 j m)
      = max (acc (ix2 j m)) (Finset.univ.sup fun i : Fin 64 => tMasked x0 x1 x2 x3 x4 x5 x6 x7 x8 x9 x10 x11 x12 i j m) := by
  unfold accStep k0_pay1
  simp only [shapeCast_self, maximumf_apply]
  refine congrArg (max (acc (ix2 j m))) ?_
  refine (colmax_apply _ _ _ _ j m).trans ?_
  refine congrArg (Finset.sup Finset.univ) (funext fun i => ?_)
  unfold tMasked tMsg2 tMsg1 tMsgE tMsgG
  simp only [mulf_apply, addf_apply, broadcastTo_a1c_apply, broadcastTo_1bc_apply, broadcastTo_11c_apply, broadcastTo_ab1_apply,
    shapeCast_ac_a1c_apply, shapeCast_ab_ab1_apply, shapeCast_ab_1ab_apply, shapeCast_split_apply (a := 64) (b := 128) (n := 8192) (by norm_num), mm_edges, mm_graph,
    truncf_apply, shapeCast_merge_apply (a := 64) (b := 128) (n := 8192) (by norm_num), broadcastTo_1b_ab_apply, shapeCast_self,
    pay4_apply, pay5_apply, pay7_apply, pay8_apply, pay9_apply, pay10_apply]

/-- The output block's entry for receiver `j` and output channel `o`: the node head of the column tile's features plus the
    message head of the finished accumulator. -/
theorem outStep_apply (x3 : Vec Ideal S1x128x128 .f32) (x13 : Vec Ideal S128x128 .bf16) (x14 : Vec Ideal S1x128 .f32)
    (x15 : Vec Ideal S128x128 .bf16) (x16 : Vec Ideal S1x128 .f32) (acc : Vec Ideal S128x128 .f32) (u : Fin 1) (j : Fin 128) (o : Fin 128) :
    outStep x3 x13 x14 x15 x16 acc (ix3 u j o)
      = ((∑ k : Fin 128, x3 (ix3 (0 : Fin 1) j k) * x13 (ix2 k o)) + x14 (ix2 (0 : Fin 1) o))
        + ((∑ k : Fin 128, acc (ix2 j k) * x15 (ix2 k o)) + x16 (ix2 (0 : Fin 1) o)) := by
  unfold outStep k0_pay2
  simp only [shapeCast_ab_1ab_apply, addf_apply, mm_cols, truncf_apply, shapeCast_self, broadcastTo_1b_ab_apply, pay6_apply]

/-- The reset value of the accumulator is -∞ everywhere. -/
theorem pay3_apply (i : S128x128.Idx) : (k0_pay3 (F := Ideal)) i = ⊥ := by
  unfold k0_pay3
  simp only [shapeCast_self]
  exact ofBits_neg_inf_f32

end Cert.KernelIdeal.Pay

end
-- ==== Proof.LibSup.lean ====
/-
  Suprema and sums over finite index ranges: a nested binary maximum of nine terms as a supremum over nine indices,
  and a supremum or a sum over m · n indices taken tile by tile.
-/
import Idealize.ShloMosaic.PureOps.Ideal

open scoped BigOperators

namespace Cert.Nms.Lib

/-- Nine terms' left-nested binary maximum is their supremum. -/
theorem max9_eq_sup {α : Type*} [LinearOrder α] [OrderBot α] (f : Fin 9 → α) :
    max (max (max (max (max (max (max (max (f 0) (f 1)) (f 2)) (f 3)) (f 4)) (f 5)) (f 6)) (f 7)) (f 8)
      = Finset.univ.sup f := by
  simp [Fin.univ_succ, Finset.sup_cons, Finset.sup_map, max_assoc]

/-- A supremum over m · n indices is the supremum over the m tiles of each tile's supremum over its n indices. -/
theorem sup_fin_tile {α : Type*} [SemilatticeSup α] [OrderBot α] (m n : ℕ) (f : Fin (m * n) → α) :
    Finset.univ.sup f = Finset.univ.sup fun i : Fin m => Finset.univ.sup fun j : Fin n => f (finProdFinEquiv (i, j)) := by
  have h := Finset.sup_product_left (Finset.univ : Finset (Fin m)) (Finset.univ : Finset (Fin n))
    (fun p => f (finProdFinEquiv p))
  rw [Finset.univ_product_univ] at h
  rw [← h, ← Finset.map_univ_equiv finProdFinEquiv, Finset.sup_map]
  rfl

/-- A sum over m · n indices is the sum over the m tiles of each tile's sum over its n indices. -/
theorem sum_fin_tile {M : Type*} [AddCommMonoid M] (m n : ℕ) (f : Fin (m * n) → M) :
    ∑ c, f c = ∑ i : Fin m, ∑ j : Fin n, f (finProdFinEquiv (i, j)) := by
  rw [← Fintype.sum_prod_type', ← Equiv.sum_comp finProdFinEquiv]

/-- Index j of tile i is below m · n. -/
theorem tile_lt {m n : ℕ} (i : Fin m) (j : Fin n) : n * i.val + j.val < m * n :=
  calc n * i.val + j.val < n * i.val + n := Nat.add_lt_add_left j.isLt _
    _ = n * (i.val + 1) := (Nat.mul_succ _ _).symm
    _ ≤ n * m := Nat.mul_le_mul_left _ i.isLt
    _ = m * n := Nat.mul_comm _ _

/-- The tile-by-tile supremum with the index written n · i + j. -/
theorem sup_fin_tile' {α : Type*} [SemilatticeSup α] [OrderBot α] (m n : ℕ) (f : Fin (m * n) → α) :
    Finset.univ.sup f
      = Finset.univ.sup fun i : Fin m => Finset.univ.sup fun j : Fin n => f ⟨n * i.val + j.val, tile_lt i j⟩ := by
  rw [sup_fin_tile m n f]
  refine congrArg _ (funext fun i => congrArg _ (funext fun j => congrArg f (Fin.ext ?_)))
  show j.val + n * i.val = n * i.val + j.val
  exact Nat.add_comm _ _

/-- The tile-by-tile sum with the index written n · i + j. -/
theorem sum_fin_tile' {M : Type*} [AddCommMonoid M] (m n : ℕ) (f : Fin (m * n) → M) :
    ∑ c, f c = ∑ i : Fin m, ∑ j : Fin n, f ⟨n * i.val + j.val, tile_lt i j⟩ := by
  rw [sum_fin_tile m n f]
  refine Finset.sum_congr rfl fun i _ => Finset.sum_congr rfl fun j _ => congrArg f (Fin.ext ?_)
  show j.val + n * i.val = n * i.val + j.val
  exact Nat.add_comm _ _

/-- No index is below zero. -/
theorem filter_lt_zero (n : ℕ) : (Finset.univ.filter fun i : Fin n => i.val < 0) = ∅ :=
  Finset.filter_eq_empty_iff.2 fun i _ => Nat.not_lt_zero _

/-- Every index is below the extent. -/
theorem filter_lt_all (n : ℕ) : (Finset.univ.filter fun i : Fin n => i.val < n) = Finset.univ :=
  Finset.filter_true_of_mem fun i _ => i.isLt

/-- The indices below k + 1 are k and the indices below k. -/
theorem filter_lt_succ (n k : ℕ) (h : k < n) :
    (Finset.univ.filter fun i : Fin n => i.val < k + 1) = insert ⟨k, h⟩ (Finset.univ.filter fun i : Fin n => i.val < k) := by
  ext i
  simp only [Finset.mem_filter, Finset.mem_univ, true_and, Finset.mem_insert, Fin.ext_iff]
  omega

/-- k is not among the indices below k. -/
theorem not_mem_filter_lt (n k : ℕ) (h : k < n) : (⟨k, h⟩ : Fin n) ∉ Finset.univ.filter fun i : Fin n => i.val < k := by
  simp

end Cert.Nms.Lib
-- ==== Proof.KernelIdealAcc.lean ====
import proofs.«163085_j77309411697_2_alg».proof.Proof.Gen.KernelIdeal.Launch
import proofs.«163085_j77309411697_2_alg».proof.Proof.Gen.KernelIdeal.Skeleton
import proofs.«163085_j77309411697_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.Lib.StableHlo.Run
import proofs.«163085_j77309411697_2_alg».proof.Proof.KernelIdealBlocks
import proofs.«163085_j77309411697_2_alg».proof.Proof.KernelIdealPay
import proofs.«163085_j77309411697_2_alg».proof.Proof.LibSup
import proofs.«163085_j77309411697_2_alg».proof.Proof.Spec
import proofs.«163085_j77309411697_2_alg».proof.Proof.LibLayout3

set_option maxRecDepth 16384

noncomputable section

namespace Cert.KernelIdeal.Acc

open Cert.KernelIdeal Cert.KernelIdeal.Gen Cert.KernelIdeal.Hand Cert.KernelIdeal.Blocks Cert.KernelIdeal.Pay Cert.Nms.Lib
open Idealize.ShloMosaic.ValueIdx Idealize.ShloMosaic.ValueIdx.Layout3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-! ## The accumulator over a group of eight row tiles

The eight points of a group share the batch and the column tile and run through the eight row tiles in order; the
accumulator is reset at the first and carried through the rest, so after the `r`-th it is the supremum, over the row
tiles up to `r`, of each tile's supremum over its 64 senders. -/

/-- Point `t`'s tile: the supremum over its 64 senders of the masked messages to receiver `j`, channel `mm`. -/
def tileSup (c : Dev nD) (t : Fin cfg0.N) (j mm : Fin 128) : EReal :=
  Finset.univ.sup fun i : Fin 64 => tMasked (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) i j mm

theorem stepAt_apply (c : Dev nD) (t : Fin cfg0.N) (acc : Vec Ideal S128x128 .f32) (j mm : Fin 128) :
    stepAt m c t acc (ix2 j mm) = max (acc (ix2 j mm)) (tileSup m c t j mm) := by
  unfold stepAt tileSup
  exact accStep_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) acc j mm

/-- The indices below one are the index zero. -/
theorem filter_lt_one : (Finset.univ.filter fun s : Fin 8 => s.val < 0 + 1) = {(⟨0, by norm_num⟩ : Fin 8)} := by
  rw [filter_lt_succ 8 0 (by norm_num), filter_lt_zero]; rfl

theorem accAt_eq (c : Dev nD) (j mm : Fin 128) : ∀ n : ℕ, n < 64 →
    accAt m c n (ix2 j mm)
      = (Finset.univ.filter fun s : Fin 8 => s.val < n % 8 + 1).sup fun s => tileSup m c (ptOf (8 * (n / 8) + s.val)) j mm
  | 0, _ => by
    show stepAt m c (ptOf 0) (k0_pay3 (F := Ideal)) (ix2 j mm) = _
    rw [stepAt_apply, pay3_apply, max_bot_left, show (0 % 8 + 1) = 0 + 1 from rfl, filter_lt_one, Finset.sup_singleton]
    rfl
  | n + 1, h => by
    show stepAt m c (ptOf (n + 1)) (if (n + 1) % 8 = 0 then (k0_pay3 (F := Ideal)) else accAt m c n) (ix2 j mm) = _
    rw [stepAt_apply]
    by_cases h8 : (n + 1) % 8 = 0
    · rw [if_pos h8, pay3_apply, max_bot_left, h8, filter_lt_one, Finset.sup_singleton]
      exact congrArg (fun p => tileSup m c (ptOf p) j mm) (by show n + 1 = 8 * ((n + 1) / 8) + 0; omega)
    · rw [if_neg h8, accAt_eq c j mm n (by omega)]
      have e1 : (n + 1) % 8 = n % 8 + 1 := by omega
      have e2 : (n + 1) / 8 = n / 8 := by omega
      rw [e1, e2, filter_lt_succ 8 (n % 8 + 1) (by omega), Finset.sup_insert, sup_comm]
      refine congrArg₂ (· ⊔ ·) ?_ rfl
      exact congrArg (fun p => tileSup m c (ptOf p) j mm) (by show n + 1 = 8 * (n / 8) + (n % 8 + 1); omega)

/-- A tile's supremum in the specification's terms: its 64 senders are nodes `64·(t mod 8) …` of batch `t / 32`, its
    receiver node `128·(t / 8 mod 4) + j`.  (The body adds the sender's projection first, the specification the
    receiver's: addition commutes.) -/
theorem tileSup_eq (c : Dev nD) (t : Fin cfg0.N) (j mm : Fin 128) :
    tileSup m c t j mm = Finset.univ.sup fun i : Fin 64 => Cert.Spec.masked (args m c) (bOf t) (iOf t i) (jOf t j) mm := by
  unfold tileSup
  refine congrArg (Finset.sup Finset.univ) (funext fun i => ?_)
  unfold tMasked tMsg2 tMsg1 tMsgE tMsgG Cert.Spec.masked Cert.Spec.msg1 Cert.Spec.msg2 Cert.Spec.msge Cert.Spec.msgg
  simp only [blk_0, blk_1, blk_2, blk_3, blk_4, blk_5, blk_6, blk_7, blk_8, blk_9, blk_10, blk_11, blk_12]
  rw [add_comm (∑ k : Fin 128, (args m c).feat (ix3 (bOf t) (iOf t i) k) * (args m c).W2 (ix2 k mm) + (args m c).b2 (ix1 mm))]

/-- The point `s` places after the first of `t`'s group. -/
theorem ptOf_group (t : Fin cfg0.N) (s : Fin 8) :
    (ptOf (8 * (t.val / 8) + s.val)).val = 8 * (t.val / 8) + s.val := by
  show (8 * (t.val / 8) + s.val) % 64 = _
  have := tlt t; have := s.isLt
  omega

/-- After the last row tile of a group the accumulator holds the receiver's aggregate over all 512 senders. -/
theorem accAt_last (c : Dev nD) (t : Fin cfg0.N) (h7 : t.val % 8 = 7) (j mm : Fin 128) :
    accAt m c t.val (ix2 j mm) = Cert.Spec.msgs (args m c) (bOf t) (jOf t j) mm := by
  rw [accAt_eq m c j mm t.val (tlt t), h7, show (7 + 1) = 8 from rfl, filter_lt_all]
  unfold Cert.Spec.msgs
  rw [sup_fin_tile' 8 64 (fun i : Fin (8 * 64) => Cert.Spec.masked (args m c) (bOf t) i (jOf t j) mm)]
  refine congrArg (Finset.sup Finset.univ) (funext fun s => ?_)
  rw [tileSup_eq]
  have hp := ptOf_group t s
  have hs := s.isLt
  have ht := tlt t
  refine congrArg (Finset.sup Finset.univ) (funext fun i => ?_)
  have hb : bOf (ptOf (8 * (t.val / 8) + s.val)) = bOf t := Fin.ext (by show (ptOf _).val / 32 = t.val / 32; rw [hp]; omega)
  have hj : jOf (ptOf (8 * (t.val / 8) + s.val)) j = jOf t j := Fin.ext (by show 128 * ((ptOf _).val / 8 % 4) + j.val = 128 * (t.val / 8 % 4) + j.val; rw [hp]; omega)
  have hi : iOf (ptOf (8 * (t.val / 8) + s.val)) i = (⟨64 * s.val + i.val, tile_lt s i⟩ : Fin (8 * 64)) := Fin.ext (by show 64 * ((ptOf _).val % 8) + i.val = 64 * s.val + i.val; rw [hp]; omega)
  rw [hb, hj, hi]

end Cert.KernelIdeal.Acc

end
-- ==== Proof.KernelIdealValue.lean ====
import proofs.«163085_j77309411697_2_alg».proof.Proof.Gen.KernelIdeal.Launch
import proofs.«163085_j77309411697_2_alg».proof.Proof.Gen.KernelIdeal.Skeleton
import proofs.«163085_j77309411697_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.ValueIdx
import Idealize.ShloMosaic.Lib.ValueLayout
import Idealize.ShloMosaic.Lib.Pipeline.Value
import Idealize.ShloMosaic.Lib.StableHlo.Run
import proofs.«163085_j77309411697_2_alg».proof.Proof.KernelIdealFrame
import proofs.«163085_j77309411697_2_alg».proof.Proof.KernelIdealAcc
import proofs.«163085_j77309411697_2_alg».proof.Proof.Spec
import proofs.«163085_j77309411697_2_alg».proof.Proof.LibLayout3

set_option maxRecDepth 16384

noncomputable section

namespace Cert.KernelIdeal.Val

open Cert.KernelIdeal Cert.KernelIdeal.Gen Cert.KernelIdeal.Hand Cert.KernelIdeal.Blocks Cert.KernelIdeal.Pay Cert.KernelIdeal.Acc
open Idealize.ShloMosaic.ValueIdx Idealize.ShloMosaic.ValueIdx.Layout3
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-! ## The result array

The output window's block at a point is batch `t / 32`, receivers `128·(t / 8 mod 4) …`; it is written back after the
last row tile of each group of eight points, and the eight groups' blocks tile the [2, 512, 128] result. -/

/-- The result array: the layer's output of the launched arguments. -/
abbrev result (c : Dev nD) : Buf (Elt Ideal) ((c : Thread nD τ).loc main_v13) := Cert.Spec.G (args m c)

theorem idx_17 : ∀ t : Fin cfg0.N, win0_17.index t 0 = t.val / 32 ∧ win0_17.index t 1 = t.val / 8 % 4 ∧ win0_17.index t 2 = 0 :=
  (by decide +kernel : ∀ t : Fin grid0.N, win0_17.index t 0 = t.val / 32 ∧ win0_17.index t 1 = t.val / 8 % 4 ∧ win0_17.index t 2 = 0)

/-- Every (batch, column tile) is the output block of the last point of some group. -/
theorem idx_onto17 : ∀ (q0 : Fin 2) (q1 : Fin 4), ∃ t : Fin cfg0.N, t.val % 8 = 7 ∧ win0_17.index t 0 = q0.val ∧ win0_17.index t 1 = q1.val ∧ win0_17.index t 2 = 0 :=
  (by decide +kernel : ∀ (q0 : Fin 2) (q1 : Fin 4), ∃ t : Fin grid0.N, t.val % 8 = 7 ∧ win0_17.index t 0 = q0.val ∧ win0_17.index t 1 = q1.val ∧ win0_17.index t 2 = 0)

/-- The output block at the last row tile, entry by entry, is the layer's output at the block's nodes. -/
theorem outAt_apply (c : Dev nD) (t : Fin cfg0.N) (h7 : t.val % 8 = 7) (u : Fin 1) (j o : Fin 128) :
    outAt m c t (ix3 u j o) = Cert.Spec.out (args m c) (bOf t) (jOf t j) o := by
  unfold outAt Cert.Spec.out
  rw [outStep_apply]
  simp only [blk_3, blk_13, blk_14, blk_15, blk_16, accAt_last m c t h7]

/-- What a flushing point writes back is its block of the result array. -/
theorem flushed_eq (c : Dev nD) (t : Fin cfg0.N) (hf : (cfg0.win 17).flush t = true) :
    (dats m 0 c).flushed 17 t = ((cfg0.win 17).blk t).view.read (Elt Ideal) (result m c) := by
  have h7 : t.val % 8 = 7 := (flush0_17 t).mp hf
  show (cfg0.win 17).cut (grid0.coords t) ((dats m 0 c).after 17 t) = _
  rw [after_17]
  refine funext fun (y : S1x128x128.Idx) => ?_
  rw [View.read_apply]
  show outAt m c t y = Cert.Spec.G (args m c) (((cfg0.win 17).blk t).view.emb y)
  obtain ⟨u, j, o, rfl⟩ : ∃ (u : Fin 1) (j : Fin 128) (o : Fin 128), y = ix3 u j o := ⟨y 0, y 1, y 2, eq_ix3 y⟩
  rw [outAt_apply m c t h7]
  have he : ((cfg0.win 17).blk t).view.emb (ix3 u j o) = (ix3 (bOf t) (jOf t j) o : S2x512x128.Idx) := by
    funext a
    apply Fin.ext
    obtain ⟨h0, h1, h2⟩ := idx_17 t
    have hu : u.val < 1 := u.isLt
    match a with
    | ⟨0, _⟩ => show win0_17.index t 0 * 1 + 1 * u.val = t.val / 32; rw [h0]; omega
    | ⟨1, _⟩ => show win0_17.index t 1 * 128 + 1 * j.val = 128 * (t.val / 8 % 4) + j.val; rw [h1]; omega
    | ⟨2, _⟩ => show win0_17.index t 2 * 128 + 1 * o.val = o.val; rw [h2]; omega
  rw [he, Cert.Spec.G_ix3]

/-- An index lies in point `t`'s output block iff each coordinate lies in the block's range. -/
theorem mem_blk17 (t : Fin cfg0.N) (i : S2x512x128.Idx) :
    i ∈ ((cfg0.win 17).blk t).view.set ↔ ∀ a : Fin 3, win0_17.index t a * S1x128x128.size a ≤ (i a).val ∧ (i a).val < win0_17.index t a * S1x128x128.size a + S1x128x128.size a := by
  show i ∈ ((View.whole main_v13).slice (win0_17.rect t)).set ↔ _
  rw [View.set_slice_whole, Rect.mem_set_unit]
  exact Iff.rfl

/-- The flushed blocks cover the result array. -/
theorem cover (c : Dev nD) (i : S2x512x128.Idx) : ∃ t : Fin cfg0.N, (cfg0.win 17).flush t = true ∧ i ∈ ((cfg0.win 17).blk t).view.set := by
  have hi0 : (i 0).val < 2 := (i 0).isLt
  have hi1 : (i 1).val < 512 := (i 1).isLt
  have hi2 : (i 2).val < 128 := (i 2).isLt
  obtain ⟨t, h7, q0, q1, q2⟩ := idx_onto17 ⟨(i 0).val, hi0⟩ ⟨(i 1).val / 128, by omega⟩
  refine ⟨t, (flush0_17 t).mpr h7, ?_⟩
  rw [mem_blk17]
  intro a
  match a with
  | ⟨0, _⟩ => show win0_17.index t 0 * 1 ≤ (i 0).val ∧ (i 0).val < win0_17.index t 0 * 1 + 1; rw [q0]; show (i 0).val * 1 ≤ (i 0).val ∧ (i 0).val < (i 0).val * 1 + 1; omega
  | ⟨1, _⟩ => show win0_17.index t 1 * 128 ≤ (i 1).val ∧ (i 1).val < win0_17.index t 1 * 128 + 128; rw [q1]; show (i 1).val / 128 * 128 ≤ (i 1).val ∧ (i 1).val < (i 1).val / 128 * 128 + 128; omega
  | ⟨2, _⟩ => show win0_17.index t 2 * 128 ≤ (i 2).val ∧ (i 2).val < win0_17.index t 2 * 128 + 128; rw [q2]; omega

/-- So the result array ends holding the layer's output. -/
theorem final (c : Dev nD) : (dats m 0 c).arrAt 17 cfg0.N = result m c :=
  (dats m 0 c).arrAt_eq_of_cover 17 (result m c) (flushed_eq m c) (cover c)

/-- The run, read: the result array at the layer's output of the launched arguments, the arguments unchanged. -/
theorem run : θ_run defs (onTc (τ := τ) (main (F := Ideal))) ⟨m, fun _ => 0, ρ⟩ (fun r => ∀ c : Dev nD,
      r.2.mem ((c.tc : Thread nD τ).loc main_v13) = Cert.Spec.G (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).1 17).trans (final m c), (((h c).1 2).trans (((dats m 0 c).arrAt_in 2 rfl _).trans ((A_eq m c 2).trans (V_main_arg0 m c)))),
    (((h c).1 0).trans (((dats m 0 c).arrAt_in 0 rfl _).trans ((A_eq m c 0).trans (V_main_arg1 m c)))),
    (((h c).2 main_arg2 (Pipeline.mem_restRefs_of main_arg2 rfl (by decide))).trans (V_main_arg2 m c)),
    (((h c).1 1).trans (((dats m 0 c).arrAt_in 1 rfl _).trans ((A_eq m c 1).trans (V_main_arg3 m c)))),
    (((h c).2 main_arg4 (Pipeline.mem_restRefs_of main_arg4 rfl (by decide))).trans (V_main_arg4 m c)),
    (((h c).2 main_arg5 (Pipeline.mem_restRefs_of main_arg5 rfl (by decide))).trans (V_main_arg5 m c)),
    (((h c).2 main_arg6 (Pipeline.mem_restRefs_of main_arg6 rfl (by decide))).trans (V_main_arg6 m c)),
    (((h c).2 main_arg7 (Pipeline.mem_restRefs_of main_arg7 rfl (by decide))).trans (V_main_arg7 m c)),
    (((h c).2 main_arg8 (Pipeline.mem_restRefs_of main_arg8 rfl (by decide))).trans (V_main_arg8 m c)),
    (((h c).2 main_arg9 (Pipeline.mem_restRefs_of main_arg9 rfl (by decide))).trans (V_main_arg9 m c)),
    (((h c).2 main_arg10 (Pipeline.mem_restRefs_of main_arg10 rfl (by decide))).trans (V_main_arg10 m c)),
    (((h c).2 main_arg11 (Pipeline.mem_restRefs_of main_arg11 rfl (by decide))).trans (V_main_arg11 m c)),
    (((h c).2 main_arg12 (Pipeline.mem_restRefs_of main_arg12 rfl (by decide))).trans (V_main_arg12 m c)),
    (((h c).2 main_arg13 (Pipeline.mem_restRefs_of main_arg13 rfl (by decide))).trans (V_main_arg13 m c)),
    (((h c).2 main_arg14 (Pipeline.mem_restRefs_of main_arg14 rfl (by decide))).trans (V_main_arg14 m c)),
    (((h c).2 main_arg15 (Pipeline.mem_restRefs_of main_arg15 rfl (by decide))).trans (V_main_arg15 m c))⟩) (run_main m ρ)

end Cert.KernelIdeal.Val

end
-- ==== Proof.RefIsSpec.lean ====
/-
  The reference program computes the specification.

  Read one operation at a time at an index, the reference's stages are the specification's terms. Each projection is a
  contraction of an argument against a weight matrix plus a bias that is broadcast along the other axes. The receiver's
  projection is broadcast along the sender axis, the sender's along the receiver axis and the graph's along both, and the
  four are added in the order ((receiver + sender) + edge) + graph, which is the specification's order. The sum is multiplied
  by the adjacency broadcast along the channel axis. The reduction by maximum over the sender axis starts from −∞, the
  bottom element, so at each receiver and channel it is the supremum over all senders. The output adds the node head and
  the message head, each again a contraction plus a broadcast bias.
-/
import proofs.«163085_j77309411697_2_alg».proof.Proof.Gen.ReferenceIdeal.Read
import proofs.«163085_j77309411697_2_alg».proof.Proof.Spec
import Idealize.ShloMosaic.Lib.ValueIdx
import Idealize.ShloMosaic.Lib.Pipeline.Value
import Idealize.ShloMosaic.PureOps.Ideal.Laws

noncomputable section

namespace Cert.RefSpec

open Cert.ReferenceIdeal Cert.ReferenceIdeal.Gen Cert.ReferenceIdeal.Read Idealize.ShloMosaic Idealize.ShloMosaic.ValueIdx

/-! ## The four projections and the node head, at an index -/

theorem lidx_v0 (b : Fin 2) (j : Fin 512) (m k : Fin 128) : lidx_main_v0 (ix3 b j m) k = ix3 b j k :=
  funext fun a => Fin.ext (by match a with | ⟨0, _⟩ => rfl | ⟨1, _⟩ => rfl | ⟨2, _⟩ => rfl)
theorem ridx_v0 (b : Fin 2) (j : Fin 512) (m k : Fin 128) : ridx_main_v0 (ix3 b j m) k = ix2 k m :=
  funext fun a => Fin.ext (by match a with | ⟨0, _⟩ => rfl | ⟨1, _⟩ => rfl)
theorem idx_v2_v1 (b : Fin 2) (j : Fin 512) (m : Fin 128) : idx_main_v1 (idx_main_v2 (ix3 b j m)) = ix1 m :=
  funext fun a => Fin.ext (by match a with | ⟨0, _⟩ => rfl)
/-- The receiver's projection at (b, j, m): the contraction over the node features plus the bias at m. -/
theorem v3_at (x0 : (⟨S2x512x128, .f32⟩ : BufTy).Contents (Elt Ideal)) (x4 : (⟨S128x128, .f32⟩ : BufTy).Contents (Elt Ideal)) (x5 : (⟨S128, .f32⟩ : BufTy).Contents (Elt Ideal)) (b : Fin 2) (j : Fin 512) (m : Fin 128) :
    val_main_v3 (F := Ideal) x0 x4 x5 (ix3 b j m) = (∑ f : Fin 128, x0 (ix3 b j f) * x4 (ix2 f m)) + x5 (ix1 m) := by
  rw [val_main_v3_apply, val_main_v0_apply, val_main_v2_apply, val_main_v1_apply, idx_v2_v1]
  exact congrArg (fun s : EReal => s + x5 (ix1 m)) (Finset.sum_congr rfl fun k _ => by rw [lidx_v0, ridx_v0])

theorem lidx_v4 (b : Fin 2) (j : Fin 512) (m k : Fin 128) : lidx_main_v4 (ix3 b j m) k = ix3 b j k :=
  funext fun a => Fin.ext (by match a with | ⟨0, _⟩ => rfl | ⟨1, _⟩ => rfl | ⟨2, _⟩ => rfl)
theorem ridx_v4 (b : Fin 2) (j : Fin 512) (m k : Fin 128) : ridx_main_v4 (ix3 b j m) k = ix2 k m :=
  funext fun a => Fin.ext (by match a with | ⟨0, _⟩ => rfl | ⟨1, _⟩ => rfl)
theorem idx_v6_v5 (b : Fin 2) (j : Fin 512) (m : Fin 128) : idx_main_v5 (idx_main_v6 (ix3 b j m)) = ix1 m :=
  funext fun a => Fin.ext (by match a with | ⟨0, _⟩ => rfl)
/-- The sender's projection at batch b, node j and channel m: the contraction over the node features plus the bias at m. -/
theorem v7_at (x0 : (⟨S2x512x128, .f32⟩ : BufTy).Contents (Elt Ideal)) (x6 : (⟨S128x128, .f32⟩ : BufTy).Contents (Elt Ideal)) (x7 : (⟨S128, .f32⟩ : BufTy).Contents (Elt Ideal)) (b : Fin 2) (j : Fin 512) (m : Fin 128) :
    val_main_v7 (F := Ideal) x0 x6 x7 (ix3 b j m) = (∑ f : Fin 128, x0 (ix3 b j f) * x6 (ix2 f m)) + x7 (ix1 m) := by
  rw [val_main_v7_apply, val_main_v4_apply, val_main_v6_apply, val_main_v5_apply, idx_v6_v5]
  exact congrArg (fun s : EReal => s + x7 (ix1 m)) (Finset.sum_congr rfl fun k _ => by rw [lidx_v4, ridx_v4])

theorem lidx_v29 (b : Fin 2) (j : Fin 512) (m k : Fin 128) : lidx_main_v29 (ix3 b j m) k = ix3 b j k :=
  funext fun a => Fin.ext (by match a with | ⟨0, _⟩ => rfl | ⟨1, _⟩ => rfl | ⟨2, _⟩ => rfl)
theorem ridx_v29 (b : Fin 2) (j : Fin 512) (m k : Fin 128) : ridx_main_v29 (ix3 b j m) k = ix2 k m :=
  funext fun a => Fin.ext (by match a with | ⟨0, _⟩ => rfl | ⟨1, _⟩ => rfl)
theorem idx_v31_v30 (b : Fin 2) (j : Fin 512) (m : Fin 128) : idx_main_v30 (idx_main_v31 (ix3 b j m)) = ix1 m :=
  funext fun a => Fin.ext (by match a with | ⟨0, _⟩ => rfl)
/-- The node head at (b, j, o): the contraction over the node features plus the bias at o. -/
theorem v32_at (x0 : (⟨S2x512x128, .f32⟩ : BufTy).Contents (Elt Ideal)) (x12 : (⟨S128x128, .f32⟩ : BufTy).Contents (Elt Ideal)) (x13 : (⟨S128, .f32⟩ : BufTy).Contents (Elt Ideal)) (b : Fin 2) (j : Fin 512) (m : Fin 128) :
    val_main_v32 (F := Ideal) x0 x12 x13 (ix3 b j m) = (∑ f : Fin 128, x0 (ix3 b j f) * x12 (ix2 f m)) + x13 (ix1 m) := by
  rw [val_main_v32_apply, val_main_v29_apply, val_main_v31_apply, val_main_v30_apply, idx_v31_v30]
  exact congrArg (fun s : EReal => s + x13 (ix1 m)) (Finset.sum_congr rfl fun k _ => by rw [lidx_v29, ridx_v29])

theorem lidx_v8 (b : Fin 2) (i j : Fin 512) (m : Fin 128) (k : Fin 16) : lidx_main_v8 (ix4 b i j m) k = ix4 b i j k :=
  funext fun a => Fin.ext (by match a with | ⟨0, _⟩ => rfl | ⟨1, _⟩ => rfl | ⟨2, _⟩ => rfl | ⟨3, _⟩ => rfl)
theorem ridx_v8 (b : Fin 2) (i j : Fin 512) (m : Fin 128) (k : Fin 16) : ridx_main_v8 (ix4 b i j m) k = ix2 k m :=
  funext fun a => Fin.ext (by match a with | ⟨0, _⟩ => rfl | ⟨1, _⟩ => rfl)
theorem idx_v10_v9 (b : Fin 2) (i j : Fin 512) (m : Fin 128) : idx_main_v9 (idx_main_v10 (ix4 b i j m)) = ix1 m :=
  funext fun a => Fin.ext (by match a with | ⟨0, _⟩ => rfl)
/-- The edge's projection at (b, i, j, m): the contraction over the sixteen edge features plus the bias at m. -/
theorem v11_at (x1 : (⟨S2x512x512x16, .f32⟩ : BufTy).Contents (Elt Ideal)) (x8 : (⟨S16x128, .f32⟩ : BufTy).Contents (Elt Ideal)) (x9 : (⟨S128, .f32⟩ : BufTy).Contents (Elt Ideal)) (b : Fin 2) (i j : Fin 512) (m : Fin 128) :
    val_main_v11 (F := Ideal) x1 x8 x9 (ix4 b i j m) = (∑ k : Fin 16, x1 (ix4 b i j k) * x8 (ix2 k m)) + x9 (ix1 m) := by
  rw [val_main_v11_apply, val_main_v8_apply, val_main_v10_apply, val_main_v9_apply, idx_v10_v9]
  exact congrArg (fun s : EReal => s + x9 (ix1 m)) (Finset.sum_congr rfl fun k _ => by rw [lidx_v8, ridx_v8])

theorem lidx_v12 (b : Fin 2) (m k : Fin 128) : lidx_main_v12 (ix2 b m) k = ix2 b k :=
  funext fun a => Fin.ext (by match a with | ⟨0, _⟩ => rfl | ⟨1, _⟩ => rfl)
theorem ridx_v12 (b : Fin 2) (m k : Fin 128) : ridx_main_v12 (ix2 b m) k = ix2 k m :=
  funext fun a => Fin.ext (by match a with | ⟨0, _⟩ => rfl | ⟨1, _⟩ => rfl)
theorem idx_v14_v13 (b : Fin 2) (m : Fin 128) : idx_main_v13 (idx_main_v14 (ix2 b m)) = ix1 m :=
  funext fun a => Fin.ext (by match a with | ⟨0, _⟩ => rfl)
/-- The graph's projection at (b, m): the contraction over the graph features plus the bias at m. -/
theorem v15_at (x2 : (⟨S2x128, .f32⟩ : BufTy).Contents (Elt Ideal)) (x10 : (⟨S128x128, .f32⟩ : BufTy).Contents (Elt Ideal)) (x11 : (⟨S128, .f32⟩ : BufTy).Contents (Elt Ideal)) (b : Fin 2) (m : Fin 128) :
    val_main_v15 (F := Ideal) x2 x10 x11 (ix2 b m) = (∑ k : Fin 128, x2 (ix2 b k) * x10 (ix2 k m)) + x11 (ix1 m) := by
  rw [val_main_v15_apply, val_main_v12_apply, val_main_v14_apply, val_main_v13_apply, idx_v14_v13]
  exact congrArg (fun s : EReal => s + x11 (ix1 m)) (Finset.sum_congr rfl fun k _ => by rw [lidx_v12, ridx_v12])

/-! ## The masked message -/

/-- The receiver's projection broadcast along the sender axis is read at (b, j, m). -/
theorem idx_v18_v16 (b : Fin 2) (i j : Fin 512) (m : Fin 128) : idx_main_v16 (idx_main_v18 (ix4 b i j m)) = ix3 b j m :=
  funext fun a => Fin.ext (by match a with | ⟨0, _⟩ => rfl | ⟨1, _⟩ => rfl | ⟨2, _⟩ => rfl)
/-- The sender's projection broadcast along the receiver axis is read at (b, i, m). -/
theorem idx_v19_v17 (b : Fin 2) (i j : Fin 512) (m : Fin 128) : idx_main_v17 (idx_main_v19 (ix4 b i j m)) = ix3 b i m :=
  funext fun a => Fin.ext (by match a with | ⟨0, _⟩ => rfl | ⟨1, _⟩ => rfl | ⟨2, _⟩ => rfl)
/-- The graph's projection broadcast along both node axes is read at (b, m). -/
theorem idx_v23_v22 (b : Fin 2) (i j : Fin 512) (m : Fin 128) : idx_main_v22 (idx_main_v23 (ix4 b i j m)) = ix2 b m :=
  funext fun a => Fin.ext (by match a with | ⟨0, _⟩ => rfl | ⟨1, _⟩ => rfl)
/-- The adjacency broadcast along the channel axis is read at (b, i, j). -/
theorem idx_v26_v25 (b : Fin 2) (i j : Fin 512) (m : Fin 128) : idx_main_v25 (idx_main_v26 (ix4 b i j m)) = ix3 b i j :=
  funext fun a => Fin.ext (by match a with | ⟨0, _⟩ => rfl | ⟨1, _⟩ => rfl | ⟨2, _⟩ => rfl)

variable (x0 : (⟨S2x512x128, .f32⟩ : BufTy).Contents (Elt Ideal)) (x1 : (⟨S2x512x512x16, .f32⟩ : BufTy).Contents (Elt Ideal)) (x2 : (⟨S2x128, .f32⟩ : BufTy).Contents (Elt Ideal)) (x3 : (⟨S2x512x512, .f32⟩ : BufTy).Contents (Elt Ideal)) (x4 : (⟨S128x128, .f32⟩ : BufTy).Contents (Elt Ideal)) (x5 : (⟨S128, .f32⟩ : BufTy).Contents (Elt Ideal)) (x6 : (⟨S128x128, .f32⟩ : BufTy).Contents (Elt Ideal)) (x7 : (⟨S128, .f32⟩ : BufTy).Contents (Elt Ideal)) (x8 : (⟨S16x128, .f32⟩ : BufTy).Contents (Elt Ideal)) (x9 : (⟨S128, .f32⟩ : BufTy).Contents (Elt Ideal)) (x10 : (⟨S128x128, .f32⟩ : BufTy).Contents (Elt Ideal)) (x11 : (⟨S128, .f32⟩ : BufTy).Contents (Elt Ideal)) (x12 : (⟨S128x128, .f32⟩ : BufTy).Contents (Elt Ideal)) (x13 : (⟨S128, .f32⟩ : BufTy).Contents (Elt Ideal)) (x14 : (⟨S128x128, .f32⟩ : BufTy).Contents (Elt Ideal)) (x15 : (⟨S128, .f32⟩ : BufTy).Contents (Elt Ideal))

local notation "A" => (Cert.Spec.Args.mk x0 x1 x2 x3 x4 x5 x6 x7 x8 x9 x10 x11 x12 x13 x14 x15)

/-- The product of the summed projections and the adjacency, at (b, i, j, m), is the specification's masked message. -/
theorem v27_at (b : Fin 2) (i j : Fin 512) (m : Fin 128) :
    val_main_v27 (F := Ideal) x0 x1 x2 x3 x4 x5 x6 x7 x8 x9 x10 x11 (ix4 b i j m) = Cert.Spec.masked A b i j m := by
  rw [val_main_v27_apply, val_main_v24_apply, val_main_v21_apply, val_main_v20_apply, val_main_v18_apply, val_main_v16_apply,
    val_main_v19_apply, val_main_v17_apply, val_main_v23_apply, val_main_v22_apply, val_main_v26_apply, val_main_v25_apply,
    idx_v18_v16, idx_v19_v17, idx_v23_v22, idx_v26_v25, v3_at, v7_at, v11_at, v15_at]
  rfl

/-! ## The supremum over the senders -/

/-- Dropping axis 1 of the four-axis shape leaves the three-axis one. -/
theorem reduces_d1 : S2x512x512x128.Reduces [1] S2x512x128 := by decide

/-- The reduced index (b, j, m) with the sender k put back on axis 1 is (b, k, j, m). -/
theorem lift_ix3 (b : Fin 2) (j : Fin 512) (m : Fin 128) (k : Fin (S2x512x512x128.size 1)) :
    reduces_d1.lift (ix3 b j m) k = ix4 b (⟨k.val, k.isLt⟩ : Fin 512) j m := by
  funext c; apply Fin.ext
  fin_cases c <;> rfl

/-- The reduction's initial value, the word of −∞, is the bottom element. -/
theorem neg_inf_eq_bot : Ideal.ofBits .f32 0xFF800000#32 = (⊥ : EReal) := by
  simp [Ideal.ofBits, Ideal.ieee]

/-- A reduction by maximum from the bottom element over axis 1 is, at (b, j, m), the supremum over that axis: the fold of a
    commutative and associative operation over the axis's coordinates, with maximum from ⊥, is the definition of the supremum. -/
theorem reduce_max_ix3 (x : S2x512x512x128.Idx → EReal) (b : Fin 2) (j : Fin 512) (m : Fin 128) :
    Host.reduce (FloatOps.maximumf (F := Ideal) (φ := .f32)) x (val_main_cst (F := Ideal)) reducesTo_S2x512x512x128_S2x512x128_d1 h_S_ (ix3 b j m)
      = Finset.univ.sup fun i : Fin 512 => x (ix4 b i j m) := by
  rw [Host.reduce_eq_fold_single (FloatOps.maximumf (F := Ideal) (φ := .f32)) x _ reducesTo_S2x512x512x128_S2x512x128_d1 reduces_d1 h_S_]
  have hf : (x ∘ reduces_d1.lift (ix3 b j m)) = fun k : Fin 512 => x (ix4 b k j m) :=
    funext fun k => congrArg x (lift_ix3 b j m k)
  rw [show val_main_cst (F := Ideal) (Shape.Idx.first h_S_) = (⊥ : EReal) from neg_inf_eq_bot]
  exact congrArg (fun f : Fin 512 → EReal => Finset.fold max (⊥ : EReal) f Finset.univ) hf

/-- The reduced stage at (b, j, m) is the specification's aggregate: the supremum over every sender of the masked message. -/
theorem v28_at (b : Fin 2) (j : Fin 512) (m : Fin 128) :
    val_main_v28 (F := Ideal) x0 x1 x2 x3 x4 x5 x6 x7 x8 x9 x10 x11 (ix3 b j m) = Cert.Spec.msgs A b j m := by
  unfold val_main_v28
  rw [reduce_max_ix3]
  exact Finset.sup_congr rfl fun i _ => v27_at x0 x1 x2 x3 x4 x5 x6 x7 x8 x9 x10 x11 x12 x13 x14 x15 b i j m

/-! ## The message head and the output -/

theorem lidx_v33 (b : Fin 2) (j : Fin 512) (o k : Fin 128) : lidx_main_v33 (ix3 b j o) k = ix3 b j k :=
  funext fun a => Fin.ext (by match a with | ⟨0, _⟩ => rfl | ⟨1, _⟩ => rfl | ⟨2, _⟩ => rfl)
theorem ridx_v33 (b : Fin 2) (j : Fin 512) (o k : Fin 128) : ridx_main_v33 (ix3 b j o) k = ix2 k o :=
  funext fun a => Fin.ext (by match a with | ⟨0, _⟩ => rfl | ⟨1, _⟩ => rfl)
theorem idx_v35_v34 (b : Fin 2) (j : Fin 512) (o : Fin 128) : idx_main_v34 (idx_main_v35 (ix3 b j o)) = ix1 o :=
  funext fun a => Fin.ext (by match a with | ⟨0, _⟩ => rfl)
/-- The message head at (b, j, o): the contraction of the aggregate over the channels plus the bias at o. -/
theorem v36_at (b : Fin 2) (j : Fin 512) (o : Fin 128) :
    val_main_v36 (F := Ideal) x0 x1 x2 x3 x4 x5 x6 x7 x8 x9 x10 x11 x14 x15 (ix3 b j o)
      = (∑ m : Fin 128, Cert.Spec.msgs A b j m * x14 (ix2 m o)) + x15 (ix1 o) := by
  rw [val_main_v36_apply, val_main_v33_apply, val_main_v35_apply, val_main_v34_apply, idx_v35_v34]
  exact congrArg (fun s : EReal => s + x15 (ix1 o)) (Finset.sum_congr rfl fun k _ => by
    rw [lidx_v33, ridx_v33, v28_at x0 x1 x2 x3 x4 x5 x6 x7 x8 x9 x10 x11 x12 x13 x14 x15])

/-- The reference's result is the specification's output array. -/
theorem ref_eq :
    Cert.ReferenceIdeal.Read.val_main_v37 (F := Ideal) x0 x1 x2 x3 x4 x5 x6 x7 x8 x9 x10 x11 x12 x13 x14 x15
      = Cert.Spec.G ⟨x0, x1, x2, x3, x4, x5, x6, x7, x8, x9, x10, x11, x12, x13, x14, x15⟩ := by
  funext i
  obtain ⟨b, j, o, rfl⟩ : ∃ (b : Fin 2) (j : Fin 512) (o : Fin 128), i = ix3 b j o := ⟨i 0, i 1, i 2, eq_ix3 i⟩
  rw [val_main_v37_apply, v32_at, v36_at]
  rfl

end Cert.RefSpec

end
-- ==== Proof.lean ====
/-
  A dense message-passing layer as a tiled kernel against its einsum reference.

  For batch b, receiver j and channel m the layer takes the supremum over all 512 senders i of
  (((W₁·feat_j + b₁) + (W₂·feat_i + b₂)) + (Wₑ·e_ij + bₑ)) + (W_g·g + b_g), times adj_ij, and returns two linear heads'
  sum, Wₒ₁·feat_j + bₒ₁ and Wₒ₂·(that supremum) + bₒ₂ (Proof/Spec.lean).  The kernel walks a (batch, column tile,
  row tile) grid: each point takes the maximum over its 64 senders and folds it into a scratch accumulator that is
  reset to -∞ at the first row tile of each group of eight and read at the last, where the two heads are stored.
  On the extended reals a change of float format is the identity, a maximum from -∞ over a tile is the tile's
  supremum, and the supremum over 512 senders is the supremum over 8 tiles of 64 (Proof/KernelIdealAcc.lean); the
  kernel adds the sender's projection before the receiver's and the reference the other way round, and addition
  commutes.  The reference's stages are read index by index (Proof/RefIsSpec.lean).

  The node features reach the kernel through two windows on one array (a row tile and a column tile of it), so the
  array's full share is dealt half and half between them at the launch (Proof/LibSharedFrame.lean); the body is run
  once for each of its three control cases — first, middle and last row tile — on whole staging blocks
  (Proof/Kernel*Run*.lean), and the frame follows from the run (Proof/KernelFrame.lean, Proof/KernelIdealFrame.lean).
-/
import proofs.«163085_j77309411697_2_alg».proof.Defs
import proofs.«163085_j77309411697_2_alg».proof.Proof.Gen.Kernel
import proofs.«163085_j77309411697_2_alg».proof.Proof.Gen.KernelIdeal
import proofs.«163085_j77309411697_2_alg».proof.Proof.Gen.ReferenceIdeal
import proofs.«163085_j77309411697_2_alg».proof.Proof.Gen.Pre_finite_inputs
import proofs.«163085_j77309411697_2_alg».proof.Proof.Gen.ReferenceIdeal.Run
import proofs.«163085_j77309411697_2_alg».proof.Proof.KernelFrame
import proofs.«163085_j77309411697_2_alg».proof.Proof.KernelIdealValue
import proofs.«163085_j77309411697_2_alg».proof.Proof.RefIsSpec
import Idealize.ShloMosaic.Adequacy
import Idealize.ShloMosaic.Init

noncomputable section

namespace Cert.Proof

open Idealize.ShloMosaic Idealize.SL.Sem

/-- The kernel as printed runs to the end, faults nowhere and leaves its arguments as launched. -/
theorem frame_k : Cert.frame_Kernel := fun m ρ _ => Cert.Kernel.Hand.frame m ρ

/-- So does its reading on the extended reals. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's are the layer's output of the same arguments. -/
theorem algebraic : Cert.algebraic_KernelIdeal_ReferenceIdeal := by
  intro m ρ m' ρ' _ hagree
  refine ⟨fun c => Cert.Spec.G (Cert.KernelIdeal.Blocks.args m c), Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.RefSpec.ref_eq]
  obtain ⟨h0, h1, h2, h3, h4, h5, h6, h7, h8, h9, h10, h11, h12, h13, h14, h15⟩ := hagree c
  unfold Cert.KernelIdeal.Blocks.args
  rw [h0, h1, h2, h3, h4, h5, h6, h7, h8, h9, h10, h11, h12, h13, h14, h15]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
